-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x384x64x64 : Shape := ⟨4, ![16, 384, 64, 64]⟩
abbrev S384 : Shape := ⟨1, ![384]⟩
abbrev S1152x384 : Shape := ⟨2, ![1152, 384]⟩
abbrev S384x384 : Shape := ⟨2, ![384, 384]⟩
abbrev S_ : Shape := ⟨0, ![]⟩

class Facts : Prop where
  bcast_S_S16x384x64x64 : S_.BroadcastsInDim S16x384x64x64 (![] : Fin 0 → Fin S16x384x64x64.rank)
  reducesTo_S16x384x64x64_S_d0_1_2_3 : S16x384x64x64.ReducesTo [0, 1, 2, 3] S_
  h_S_ : 0 < S_.numel
  bcast_S_S384 : S_.BroadcastsInDim S384 (![] : Fin 0 → Fin S384.rank)
  reducesTo_S384_S_d0 : S384.ReducesTo [0] S_
  bcast_S_S1152x384 : S_.BroadcastsInDim S1152x384 (![] : Fin 0 → Fin S1152x384.rank)
  reducesTo_S1152x384_S_d0_1 : S1152x384.ReducesTo [0, 1] S_
  bcast_S_S384x384 : S_.BroadcastsInDim S384x384 (![] : Fin 0 → Fin S384x384.rank)
  reducesTo_S384x384_S_d0_1 : S384x384.ReducesTo [0, 1] S_

variable [Facts]

def fn_part1 {F : FTy → Type} [FloatOps F] (main_arg4 : FVec F S384x384 .f32) (main_arg5 : FVec F S384 .f32) (main_v13 : IVec S_ 1) (main_v16 : IVec S1152x384 1) : IVec S_ 1 :=
  let main_c_5 : IVec S_ 1 := constantI S_ 1 1#1
  let main_v17 : IVec S_ 1 := (fun x v => Host.reduce IntOp.andi x v reducesTo_S1152x384_S_d0_1 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S16x384x64x64 .f32) (main_arg1 : FVec F S384 .f32) (main_arg2 : FVec F S384 .f32) (main_arg3 : FVec F S1152x384 .f32) (main_arg4 : FVec F S384x384 .f32) (main_arg5 : FVec F S384 .f32) : IVec S_ 1 :=
  let main_v0 : FVec F S16x384x64x64 .f32 := Host.absf main_arg0
  let main_cst : FVec F S_ .f32 := constant S_ .f32 0x7F800000#32
  let main_v1 : FVec F S16x384x64x64 .f32 := broadcastInDim S16x384x64x64 ![] bcast_S_S16x384x64x64 main_cst
  let main_v2 : IVec S16x384x64x64 1 := cmpf .olt main_v0 main_v1
  let main_c : IVec S_ 1 := constantI S_ 1 1#1
  let main_v3 : IVec S_ 1 := (fun x v => Host.reduce IntOp.andi x v reducesTo_S16x384x64x64_S_d0_1_2_3 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S1152x384 .f32 := Host.absf main_arg3
  let main_cst_4 : FVec F S_ .f32 := constant S_ .f32 0x7F800000#32
  let main_v15 : FVec F S1152x384 .f32 := broadcastInDim S1152x384 ![] bcast_S_S1152x384 main_cst_4
  let main_v16 : IVec S1152x384 1 := cmpf .olt main_v14 main_v15
  fn_part1 (F := F) main_arg4 main_arg5 main_v13 main_v16
-- ==== Kernel.lean ====
abbrev S16x384x64x64 : Shape := ⟨4, ![16, 384, 64, 64]⟩
abbrev S384 : Shape := ⟨1, ![384]⟩
abbrev S1152x384 : Shape := ⟨2, ![1152, 384]⟩
abbrev S384x384 : Shape := ⟨2, ![384, 384]⟩
abbrev S4x96x1x1 : Shape := ⟨4, ![4, 96, 1, 1]⟩
abbrev S1x96x64x64 : Shape := ⟨4, ![1, 96, 64, 64]⟩
abbrev S1x96x1x1 : Shape := ⟨4, ![1, 96, 1, 1]⟩
abbrev S96x64x64 : Shape := ⟨3, ![96, 64, 64]⟩
abbrev S96x64 : Shape := ⟨2, ![96, 64]⟩
abbrev S96x64x1 : Shape := ⟨3, ![96, 64, 1]⟩
abbrev S96x1 : Shape := ⟨2, ![96, 1]⟩
abbrev S96x1x1 : Shape := ⟨3, ![96, 1, 1]⟩
abbrev S1x1 : Shape := ⟨2, ![1, 1]⟩
abbrev S1x1x1 : Shape := ⟨3, ![1, 1, 1]⟩
abbrev S16x64x64x384 : Shape := ⟨4, ![16, 64, 64, 384]⟩
abbrev S_ : Shape := ⟨0, ![]⟩
abbrev S16x8x8x8x8x384 : Shape := ⟨6, ![16, 8, 8, 8, 8, 384]⟩
abbrev S1024x64x384 : Shape := ⟨3, ![1024, 64, 384]⟩
abbrev S384x1152 : Shape := ⟨2, ![384, 1152]⟩
abbrev S1x384 : Shape := ⟨2, ![1, 384]⟩
abbrev S16x64x384 : Shape := ⟨3, ![16, 64, 384]⟩
abbrev S1024x384 : Shape := ⟨2, ![1024, 384]⟩
abbrev S1024x1152 : Shape := ⟨2, ![1024, 1152]⟩
abbrev S16x64x1152 : Shape := ⟨3, ![16, 64, 1152]⟩
abbrev S16x64x48 : Shape := ⟨3, ![16, 64, 48]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 25
  | .vmem => 15
  | .smem => 0
  | _ => 0

abbrev bufTy : (tb : Table) → Fin (tcTables nBuf tb) → BufTy
  | .hbm, ⟨0, _⟩ => ⟨S16x384x64x64, .f32⟩
  | .hbm, ⟨1, _⟩ => ⟨S384, .f32⟩
  | .hbm, ⟨2, _⟩ => ⟨S384, .f32⟩
  | .hbm, ⟨3, _⟩ => ⟨S1152x384, .f32⟩
  | .hbm, ⟨4, _⟩ => ⟨S384x384, .f32⟩
  | .hbm, ⟨5, _⟩ => ⟨S384, .f32⟩
  | .hbm, ⟨6, _⟩ => ⟨S4x96x1x1, .f32⟩
  | .hbm, ⟨7, _⟩ => ⟨S4x96x1x1, .f32⟩
  | .hbm, ⟨8, _⟩ => ⟨S16x384x64x64, .f32⟩
  | .hbm, ⟨9, _⟩ => ⟨S16x64x64x384, .f32⟩
  | .hbm, ⟨10, _⟩ => ⟨S_, .i32⟩
  | .hbm, ⟨11, _⟩ => ⟨S_, .f32⟩
  | .hbm, ⟨12, _⟩ => ⟨S16x64x64x384, .f32⟩
  | .hbm, ⟨13, _⟩ => ⟨S16x8x8x8x8x384, .f32⟩
  | .hbm, ⟨14, _⟩ => ⟨S16x8x8x8x8x384, .f32⟩
  | .hbm, ⟨15, _⟩ => ⟨S1024x64x384, .f32⟩
  | .hbm, ⟨16, _⟩ => ⟨S384x1152, .f32⟩
  | .hbm, ⟨17, _⟩ => ⟨S384x384, .f32⟩
  | .hbm, ⟨18, _⟩ => ⟨S1x384, .f32⟩
  | .hbm, ⟨19, _⟩ => ⟨S1024x64x384, .f32⟩
  | .hbm, ⟨20, _⟩ => ⟨S16x8x8x8x8x384, .f32⟩
  | .hbm, ⟨21, _⟩ => ⟨S16x8x8x8x8x384, .f32⟩
  | .hbm, ⟨22, _⟩ => ⟨S16x64x64x384, .f32⟩
  | .hbm, ⟨23, _⟩ => ⟨S16x384x64x64, .f32⟩
  | .hbm, ⟨24, _⟩ => ⟨S16x384x64x64, .f32⟩
  | .local _ .vmem, ⟨0, _⟩ => ⟨S1x96x64x64, .f32⟩
  | .local _ .vmem, ⟨1, _⟩ => ⟨S1x96x64x64, .f32⟩
  | .local _ .vmem, ⟨2, _⟩ => ⟨S1x96x1x1, .f32⟩
  | .local _ .vmem, ⟨3, _⟩ => ⟨S1x96x1x1, .f32⟩
  | .local _ .vmem, ⟨4, _⟩ => ⟨S1x96x1x1, .f32⟩
  | .local _ .vmem, ⟨5, _⟩ => ⟨S1x96x1x1, .f32⟩
  | .local _ .vmem, ⟨6, _⟩ => ⟨S1x96x64x64, .f32⟩
  | .local _ .vmem, ⟨7, _⟩ => ⟨S1x96x64x64, .f32⟩
  | .local _ .vmem, ⟨8, _⟩ => ⟨S16x64x384, .f32⟩
  | .local _ .vmem, ⟨9, _⟩ => ⟨S16x64x384, .f32⟩
  | .local _ .vmem, ⟨10, _⟩ => ⟨S384x1152, .f32⟩
  | .local _ .vmem, ⟨11, _⟩ => ⟨S384x384, .f32⟩
  | .local _ .vmem, ⟨12, _⟩ => ⟨S1x384, .f32⟩
  | .local _ .vmem, ⟨13, _⟩ => ⟨S16x64x384, .f32⟩
  | .local _ .vmem, ⟨14, _⟩ => ⟨S16x64x384, .f32⟩
  | _, _ => ⟨S16x384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x96x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x96x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x96x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x64x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x1152 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x64x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S384_S4x96x1x1 : S384.ShapeCasts S4x96x1x1
  inb_S1x96x64x64_S1x96x64x64_0_0_0_0 : ∀ a, (![0, 0, 0, 0] : Fin 4 → Nat) a + S1x96x64x64.size a ≤ S1x96x64x64.size a
  h_S1x96x64x64 : 0 < S1x96x64x64.numel
  shapeCasts_S1x96x64x64_S96x64x64 : S1x96x64x64.ShapeCasts S96x64x64
  reduces_S96x64x64_S96x64 : S96x64x64.Reduces [2] S96x64
  shapeCasts_S96x64_S96x64x1 : S96x64.ShapeCasts S96x64x1
  reduces_S96x64x1_S96x1 : S96x64x1.Reduces [1] S96x1
  shapeCasts_S96x1_S96x1x1 : S96x1.ShapeCasts S96x1x1
  reduces_S96x1x1_S1x1 : S96x1x1.Reduces [0] S1x1
  shapeCasts_S1x1_S1x1x1 : S1x1.ShapeCasts S1x1x1
  inb_S1x96x1x1_S1x96x1x1_0_0_0_0 : ∀ a, (![0, 0, 0, 0] : Fin 4 → Nat) a + S1x96x1x1.size a ≤ S1x96x1x1.size a
  h_S1x96x1x1 : 0 < S1x96x1x1.numel
  shapeCasts_S1x96x1x1_S96x1x1 : S1x96x1x1.ShapeCasts S96x1x1
  broadcasts_S1x1x1_S96x64x64 : S1x1x1.Broadcasts S96x64x64
  broadcasts_S96x1x1_S96x64x64 : S96x1x1.Broadcasts S96x64x64
  shapeCasts_S96x64x64_S1x96x64x64 : S96x64x64.ShapeCasts S1x96x64x64
  transposes_S16x384x64x64_S16x64x64x384_0_2_3_1 : S16x384x64x64.Transposes [0, 2, 3, 1] S16x64x64x384
  pads_S16x64x64x384_S16x64x64x384_000_000_000_000 : S16x64x64x384.Pads (![0, 0, 0, 0] : Fin 4 → Nat) ![0, 0, 0, 0] ![0, 0, 0, 0] S16x64x64x384
  h_S_ : 0 < S_.numel
  shapeCasts_S16x64x64x384_S16x8x8x8x8x384 : S16x64x64x384.ShapeCasts S16x8x8x8x8x384
  transposes_S16x8x8x8x8x384_S16x8x8x8x8x384_0_1_3_2_4_5 : S16x8x8x8x8x384.Transposes [0, 1, 3, 2, 4, 5] S16x8x8x8x8x384
  shapeCasts_S16x8x8x8x8x384_S1024x64x384 : S16x8x8x8x8x384.ShapeCasts S1024x64x384
  transposes_S1152x384_S384x1152_1_0 : S1152x384.Transposes [1, 0] S384x1152
  transposes_S384x384_S384x384_1_0 : S384x384.Transposes [1, 0] S384x384
  shapeCasts_S384_S1x384 : S384.ShapeCasts S1x384
  inb_S16x64x384_S16x64x384_0_0_0 : ∀ a, (![0, 0, 0] : Fin 3 → Nat) a + S16x64x384.size a ≤ S16x64x384.size a
  h_S16x64x384 : 0 < S16x64x384.numel
  shapeCasts_S16x64x384_S16x64x384 : S16x64x384.ShapeCasts S16x64x384
  shapeCasts_S16x64x384_S1024x384 : S16x64x384.ShapeCasts S1024x384
  bitsLt_bf16_f32 : FTy.bits .bf16 < FTy.bits .f32
  inb_S384x1152_S384x1152_0_0 : ∀ a, (![0, 0] : Fin 2 → Nat) a + S384x1152.size a ≤ S384x1152.size a
  h_S384x1152 : 0 < S384x1152.numel
  shapeCasts_S384x1152_S384x1152 : S384x1152.ShapeCasts S384x1152
  shapeCasts_S1024x1152_S16x64x1152 : S1024x1152.ShapeCasts S16x64x1152
  slices_S16x64x1152_o0_0_0_S16x64x48 : S16x64x1152.Slices ![0, 0, 0] S16x64x48
  slices_S16x64x1152_o0_0_384_S16x64x48 : S16x64x1152.Slices ![0, 0, 384] S16x64x48
  slices_S16x64x1152_o0_0_768_S16x64x48 : S16x64x1152.Slices ![0, 0, 768] S16x64x48
  reduces_S16x64x64_S16x64 : S16x64x64.Reduces [2] S16x64
  shapeCasts_S16x64_S16x64x1 : S16x64.ShapeCasts S16x64x1
  broadcasts_S16x64x1_S16x64x64 : S16x64x1.Broadcasts S16x64x64
  slices_S16x64x1152_o0_0_48_S16x64x48 : S16x64x1152.Slices ![0, 0, 48] S16x64x48
  slices_S16x64x1152_o0_0_432_S16x64x48 : S16x64x1152.Slices ![0, 0, 432] S16x64x48
  slices_S16x64x1152_o0_0_816_S16x64x48 : S16x64x1152.Slices ![0, 0, 816] S16x64x48
  slices_S16x64x1152_o0_0_96_S16x64x48 : S16x64x1152.Slices ![0, 0, 96] S16x64x48
  slices_S16x64x1152_o0_0_480_S16x64x48 : S16x64x1152.Slices ![0, 0, 480] S16x64x48
  slices_S16x64x1152_o0_0_864_S16x64x48 : S16x64x1152.Slices ![0, 0, 864] S16x64x48
  slices_S16x64x1152_o0_0_144_S16x64x48 : S16x64x1152.Slices ![0, 0, 144] S16x64x48
  slices_S16x64x1152_o0_0_528_S16x64x48 : S16x64x1152.Slices ![0, 0, 528] S16x64x48
  slices_S16x64x1152_o0_0_912_S16x64x48 : S16x64x1152.Slices ![0, 0, 912] S16x64x48
  slices_S16x64x1152_o0_0_192_S16x64x48 : S16x64x1152.Slices ![0, 0, 192] S16x64x48
  slices_S16x64x1152_o0_0_576_S16x64x48 : S16x64x1152.Slices ![0, 0, 576] S16x64x48
  slices_S16x64x1152_o0_0_960_S16x64x48 : S16x64x1152.Slices ![0, 0, 960] S16x64x48
  slices_S16x64x1152_o0_0_240_S16x64x48 : S16x64x1152.Slices ![0, 0, 240] S16x64x48
  slices_S16x64x1152_o0_0_624_S16x64x48 : S16x64x1152.Slices ![0, 0, 624] S16x64x48
  slices_S16x64x1152_o0_0_1008_S16x64x48 : S16x64x1152.Slices ![0, 0, 1008] S16x64x48
  slices_S16x64x1152_o0_0_288_S16x64x48 : S16x64x1152.Slices ![0, 0, 288] S16x64x48
  slices_S16x64x1152_o0_0_672_S16x64x48 : S16x64x1152.Slices ![0, 0, 672] S16x64x48
  slices_S16x64x1152_o0_0_1056_S16x64x48 : S16x64x1152.Slices ![0, 0, 1056] S16x64x48
  slices_S16x64x1152_o0_0_336_S16x64x48 : S16x64x1152.Slices ![0, 0, 336] S16x64x48
  slices_S16x64x1152_o0_0_720_S16x64x48 : S16x64x1152.Slices ![0, 0, 720] S16x64x48
  slices_S16x64x1152_o0_0_1104_S16x64x48 : S16x64x1152.Slices ![0, 0, 1104] S16x64x48
  concatenates_S16x64x48_S16x64x48_S16x64x48_S16x64x48_S16x64x48_S16x64x48_S16x64x48_S16x64x48_S16x64x384_d2 : Shape.Concatenates [S16x64x48, S16x64x48, S16x64x48, S16x64x48, S16x64x48, S16x64x48, S16x64x48, S16x64x48] S16x64x384 2
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  shapeCasts_S1024x384_S16x64x384 : S1024x384.ShapeCasts S16x64x384
  shapeCasts_S1024x64x384_S16x8x8x8x8x384 : S1024x64x384.ShapeCasts S16x8x8x8x8x384
  shapeCasts_S16x8x8x8x8x384_S16x64x64x384 : S16x8x8x8x8x384.ShapeCasts S16x64x64x384
  transposes_S16x64x64x384_S16x384x64x64_0_3_1_2 : S16x64x64x384.Transposes [0, 3, 1, 2] S16x384x64x64
  dot_S1024x384_S384x1152_S1024x1152_1_0_0_1_n_n_wf : DotDims.WF S1024x384 S384x1152 S1024x1152 [1] [0] [0] [1] [] []
  dot_S16x64x48_S16x64x48_S16x64x64_2_2_1_1_0_0_wf : DotDims.WF S16x64x48 S16x64x48 S16x64x64 [2] [2] [1] [1] [0] [0]
  dot_S16x64x64_S16x64x48_S16x64x48_2_1_1_2_0_0_wf : DotDims.WF S16x64x64 S16x64x48 S16x64x48 [2] [1] [1] [2] [0] [0]
  dot_S1024x384_S384x384_S1024x384_1_0_0_1_n_n_wf : DotDims.WF S1024x384 S384x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x64x64.size a ≤ S16x384x64x64.size a
  hwx0_0 : ∀ i : grid0.Coords, EltTy.bits .f32 = 32 ∨ (Rect.block (s := S16x384x64x64) S1x96x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x1x1.size a ≤ S4x96x1x1.size a
  hwx0_1 : ∀ i : grid0.Coords, EltTy.bits .f32 = 32 ∨ (Rect.block (s := S4x96x1x1) S1x96x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x1x1.size a ≤ S4x96x1x1.size a
  hwx0_2 : ∀ i : grid0.Coords, EltTy.bits .f32 = 32 ∨ (Rect.block (s := S4x96x1x1) S1x96x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x96x64x64.size a ≤ S16x384x64x64.size a
  hwx0_3 : ∀ i : grid0.Coords, EltTy.bits .f32 = 32 ∨ (Rect.block (s := S16x384x64x64) S1x96x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x64x384.size a ≤ S1024x64x384.size a
  hwx1_0 : ∀ i : grid1.Coords, EltTy.bits .f32 = 32 ∨ (Rect.block (s := S1024x64x384) S16x64x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x1152.size a ≤ S384x1152.size a
  hwx1_1 : ∀ i : grid1.Coords, EltTy.bits .f32 = 32 ∨ (Rect.block (s := S384x1152) S384x1152.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x384.size a ≤ S384x384.size a
  hwx1_2 : ∀ i : grid1.Coords, EltTy.bits .f32 = 32 ∨ (Rect.block (s := S384x384) S384x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x64x384.size a ≤ S1024x64x384.size a
  hwx1_4 : ∀ i : grid1.Coords, EltTy.bits .f32 = 32 ∨ (Rect.block (s := S1024x64x384) S16x64x384.size (cc1_transform_4 i) (hinb1_4 i)).WholeWords (EltTy.packing .f32)

variable [Facts₀]

def dot_S1024x384_S384x1152_S1024x1152_1_0_0_1_n_n : DotDims S1024x384 S384x1152 S1024x1152 where
  lhsContracting := [1]
  rhsContracting := [0]
  lhsNonContracting := [0]
  rhsNonContracting := [1]
  lhsBatch := []
  rhsBatch := []
  wf := dot_S1024x384_S384x1152_S1024x1152_1_0_0_1_n_n_wf
def dot_S16x64x48_S16x64x48_S16x64x64_2_2_1_1_0_0 : DotDims S16x64x48 S16x64x48 S16x64x64 where
  lhsContracting := [2]
  rhsContracting := [2]
  lhsNonContracting := [1]
  rhsNonContracting := [1]
  lhsBatch := [0]
  rhsBatch := [0]
  wf := dot_S16x64x48_S16x64x48_S16x64x64_2_2_1_1_0_0_wf
def dot_S16x64x64_S16x64x48_S16x64x48_2_1_1_2_0_0 : DotDims S16x64x64 S16x64x48 S16x64x48 where
  lhsContracting := [2]
  rhsContracting := [1]
  lhsNonContracting := [1]
  rhsNonContracting := [2]
  lhsBatch := [0]
  rhsBatch := [0]
  wf := dot_S16x64x64_S16x64x48_S16x64x48_2_1_1_2_0_0_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf

abbrev win0_0 : Pipeline.Window sig grid0 :=
  Pipeline.Window.ofSpec (Memref.whole main_arg0) S1x96x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x96x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x96x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x96x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S16x64x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S384x1152.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S384x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S16x64x384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x384x64x64 : Shape := ⟨4, ![16, 384, 64, 64]⟩
abbrev S384 : Shape := ⟨1, ![384]⟩
abbrev S1152x384 : Shape := ⟨2, ![1152, 384]⟩
abbrev S384x384 : Shape := ⟨2, ![384, 384]⟩
abbrev S16x4x96x64x64 : Shape := ⟨5, ![16, 4, 96, 64, 64]⟩
abbrev S_ : Shape := ⟨0, ![]⟩
abbrev S16x4 : Shape := ⟨2, ![16, 4]⟩
abbrev S16x4x1x1x1 : Shape := ⟨5, ![16, 4, 1, 1, 1]⟩
abbrev S1x384x1x1 : Shape := ⟨4, ![1, 384, 1, 1]⟩
abbrev S16x64x64x384 : Shape := ⟨4, ![16, 64, 64, 384]⟩
abbrev S16x8x8x8x8x384 : Shape := ⟨6, ![16, 8, 8, 8, 8, 384]⟩
abbrev S1024x64x384 : Shape := ⟨3, ![1024, 64, 384]⟩
abbrev S1024x64x1152 : Shape := ⟨3, ![1024, 64, 1152]⟩
abbrev S1024x64x3x8x48 : Shape := ⟨5, ![1024, 64, 3, 8, 48]⟩
abbrev S3x1024x8x64x48 : Shape := ⟨5, ![3, 1024, 8, 64, 48]⟩
abbrev S1x1024x8x64x48 : Shape := ⟨5, ![1, 1024, 8, 64, 48]⟩
abbrev S1024x8x64x48 : Shape := ⟨4, ![1024, 8, 64, 48]⟩
abbrev S1024x8x64x64 : Shape := ⟨4, ![1024, 8, 64, 64]⟩
abbrev S1024x8x64 : Shape := ⟨3, ![1024, 8, 64]⟩
abbrev S1024x8x64x1 : Shape := ⟨4, ![1024, 8, 64, 1]⟩
abbrev S1024x64x8x48 : Shape := ⟨4, ![1024, 64, 8, 48]⟩
abbrev S1x1x384 : Shape := ⟨3, ![1, 1, 384]⟩

abbrev nBuf : Space → Nat
  | .hbm => 98
  | .vmem => 0
  | .smem => 0
  | _ => 0

abbrev bufTy : (tb : Table) → Fin (tcTables nBuf tb) → BufTy
  | .hbm, ⟨0, _⟩ => ⟨S16x384x64x64, .f32⟩
  | .hbm, ⟨1, _⟩ => ⟨S384, .f32⟩
  | .hbm, ⟨2, _⟩ => ⟨S384, .f32⟩
  | .hbm, ⟨3, _⟩ => ⟨S1152x384, .f32⟩
  | .hbm, ⟨4, _⟩ => ⟨S384x384, .f32⟩
  | .hbm, ⟨5, _⟩ => ⟨S384, .f32⟩
  | .hbm, ⟨6, _⟩ => ⟨S16x4x96x64x64, .f32⟩
  | .hbm, ⟨7, _⟩ => ⟨S_, .f32⟩
  | .hbm, ⟨8, _⟩ => ⟨S16x4, .f32⟩
  | .hbm, ⟨9, _⟩ => ⟨S16x4x1x1x1, .f32⟩
  | .hbm, ⟨10, _⟩ => ⟨S_, .f32⟩
  | .hbm, ⟨11, _⟩ => ⟨S16x4x1x1x1, .f32⟩
  | .hbm, ⟨12, _⟩ => ⟨S16x4x1x1x1, .f32⟩
  | .hbm, ⟨13, _⟩ => ⟨S_, .i32⟩
  | .hbm, ⟨14, _⟩ => ⟨S_, .f32⟩
  | .hbm, ⟨15, _⟩ => ⟨S16x4, .f32⟩
  | .hbm, ⟨16, _⟩ => ⟨S16x4x1x1x1, .f32⟩
  | .hbm, ⟨17, _⟩ => ⟨S_, .f32⟩
  | .hbm, ⟨18, _⟩ => ⟨S16x4x1x1x1, .f32⟩
  | .hbm, ⟨19, _⟩ => ⟨S16x4x1x1x1, .f32⟩
  | .hbm, ⟨20, _⟩ => ⟨S16x4x96x64x64, .f32⟩
  | .hbm, ⟨21, _⟩ => ⟨S16x4x96x64x64, .f32⟩
  | .hbm, ⟨22, _⟩ => ⟨S16x4x96x64x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x4, .f32⟩
  | .hbm, ⟨28, _⟩ => ⟨S16x4x1x1x1, .f32⟩
  | .hbm, ⟨29, _⟩ => ⟨S16x4x1x1x1, .f32⟩
  | .hbm, ⟨30, _⟩ => ⟨S16x4x1x1x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S16x4x1x1x1, .f32⟩
  | .hbm, ⟨36, _⟩ => ⟨S16x4x1x1x1, .f32⟩
  | .hbm, ⟨37, _⟩ => ⟨S16x4x96x64x64, .f32⟩
  | .hbm, ⟨38, _⟩ => ⟨S16x4x96x64x64, .f32⟩
  | .hbm, ⟨39, _⟩ => ⟨S_, .f32⟩
  | .hbm, ⟨40, _⟩ => ⟨S16x4x1x1x1, .f32⟩
  | .hbm, ⟨41, _⟩ => ⟨S16x4x1x1x1, .f32⟩
  | .hbm, ⟨42, _⟩ => ⟨S16x4x1x1x1, .f32⟩
  | .hbm, ⟨43, _⟩ => ⟨S16x4x96x64x64, .f32⟩
  | .hbm, ⟨44, _⟩ => ⟨S16x4x96x64x64, .f32⟩
  | .hbm, ⟨45, _⟩ => ⟨S16x384x64x64, .f32⟩
  | .hbm, ⟨46, _⟩ => ⟨S1x384x1x1, .f32⟩
  | .hbm, ⟨47, _⟩ => ⟨S16x384x64x64, .f32⟩
  | .hbm, ⟨48, _⟩ => ⟨S16x384x64x64, .f32⟩
  | .hbm, ⟨49, _⟩ => ⟨S1x384x1x1, .f32⟩
  | .hbm, ⟨50, _⟩ => ⟨S16x384x64x64, .f32⟩
  | .hbm, ⟨51, _⟩ => ⟨S16x384x64x64, .f32⟩
  | .hbm, ⟨52, _⟩ => ⟨S16x64x64x384, .f32⟩
  | .hbm, ⟨53, _⟩ => ⟨S_, .i32⟩
  | .hbm, ⟨54, _⟩ => ⟨S_, .f32⟩
  | .hbm, ⟨55, _⟩ => ⟨S16x64x64x384, .f32⟩
  | .hbm, ⟨56, _⟩ => ⟨S16x8x8x8x8x384, .f32⟩
  | .hbm, ⟨57, _⟩ => ⟨S16x8x8x8x8x384, .f32⟩
  | .hbm, ⟨58, _⟩ => ⟨S1024x64x384, .f32⟩
  | .hbm, ⟨59, _⟩ => ⟨S1024x64x1152, .f32⟩
  | .hbm, ⟨60, _⟩ => ⟨S1024x64x3x8x48, .f32⟩
  | .hbm, ⟨61, _⟩ => ⟨S3x1024x8x64x48, .f32⟩
  | .hbm, ⟨62, _⟩ => ⟨S1x1024x8x64x48, .f32⟩
  | .hbm, ⟨63, _⟩ => ⟨S1024x8x64x48, .f32⟩
  | .hbm, ⟨64, _⟩ => ⟨S1x1024x8x64x48, .f32⟩
  | .hbm, ⟨65, _⟩ => ⟨S1024x8x64x48, .f32⟩
  | .hbm, ⟨66, _⟩ => ⟨S1x1024x8x64x48, .f32⟩
  | .hbm, ⟨67, _⟩ => ⟨S1024x8x64x48, .f32⟩
  | .hbm, ⟨68, _⟩ => ⟨S_, .f32⟩
  | .hbm, ⟨69, _⟩ => ⟨S1024x8x64x48, .f32⟩
  | .hbm, ⟨70, _⟩ => ⟨S1024x8x64x48, .f32⟩
  | .hbm, ⟨71, _⟩ => ⟨S1024x8x64x64, .f32⟩
  | .hbm, ⟨72, _⟩ => ⟨S_, .f32⟩
  | .hbm, ⟨73, _⟩ => ⟨S1024x8x64, .f32⟩
  | .hbm, ⟨74, _⟩ => ⟨S_, .f32⟩
  | .hbm, ⟨75, _⟩ => ⟨S1024x8x64, .f32⟩
  | .hbm, ⟨76, _⟩ => ⟨S1024x8x64, .f32⟩
  | .hbm, ⟨77, _⟩ => ⟨S1024x8x64x1, .f32⟩
  | .hbm, ⟨78, _⟩ => ⟨S1024x8x64x64, .f32⟩
  | .hbm, ⟨79, _⟩ => ⟨S1024x8x64x64, .f32⟩
  | .hbm, ⟨80, _⟩ => ⟨S1024x8x64x64, .f32⟩
  | .hbm, ⟨81, _⟩ => ⟨S_, .f32⟩
  | .hbm, ⟨82, _⟩ => ⟨S1024x8x64, .f32⟩
  | .hbm, ⟨83, _⟩ => ⟨S1024x8x64x1, .f32⟩
  | .hbm, ⟨84, _⟩ => ⟨S1024x8x64x64, .f32⟩
  | .hbm, ⟨85, _⟩ => ⟨S1024x8x64x64, .f32⟩
  | .hbm, ⟨86, _⟩ => ⟨S1024x8x64x48, .f32⟩
  | .hbm, ⟨87, _⟩ => ⟨S1024x64x8x48, .f32⟩
  | .hbm, ⟨88, _⟩ => ⟨S1024x64x384, .f32⟩
  | .hbm, ⟨89, _⟩ => ⟨S1024x64x384, .f32⟩
  | .hbm, ⟨90, _⟩ => ⟨S1x1x384, .f32⟩
  | .hbm, ⟨91, _⟩ => ⟨S1024x64x384, .f32⟩
  | .hbm, ⟨92, _⟩ => ⟨S1024x64x384, .f32⟩
  | .hbm, ⟨93, _⟩ => ⟨S16x8x8x8x8x384, .f32⟩
  | .hbm, ⟨94, _⟩ => ⟨S16x8x8x8x8x384, .f32⟩
  | .hbm, ⟨95, _⟩ => ⟨S16x64x64x384, .f32⟩
  | .hbm, ⟨96, _⟩ => ⟨S16x384x64x64, .f32⟩
  | .hbm, ⟨97, _⟩ => ⟨S16x384x64x64, .f32⟩
  | _, _ => ⟨S16x384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_2 : Ref sig .tc := ⟨.hbm, 53, rfl⟩
abbrev main_call1_v0 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_4 : Ref sig .tc := ⟨.hbm, 72, rfl⟩
abbrev main_v37 : Ref sig .tc := ⟨.hbm, 73, rfl⟩
abbrev main_cst_5 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_6 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩

abbrev nD : Nat := 1
abbrev τ : Topo := Topo.v7x

variable {F : FTy → Type} [FloatOps F]

class Facts₀ : Prop where
  shapeCasts_S16x384x64x64_S16x4x96x64x64 : S16x384x64x64.ShapeCasts S16x4x96x64x64
  reducesTo_S16x4x96x64x64_S16x4_d2_3_4 : S16x4x96x64x64.ReducesTo [2, 3, 4] S16x4
  h_S_ : 0 < S_.numel
  bcast_S16x4_S16x4x1x1x1_0_1 : S16x4.BroadcastsInDim S16x4x1x1x1 (![0, 1] : Fin 2 → Fin S16x4x1x1x1.rank)
  bcast_S_S16x4x1x1x1 : S_.BroadcastsInDim S16x4x1x1x1 (![] : Fin 0 → Fin S16x4x1x1x1.rank)
  bcast_S16x4x1x1x1_S16x4x96x64x64_0_1_2_3_4 : S16x4x1x1x1.BroadcastsInDim S16x4x96x64x64 (![0, 1, 2, 3, 4] : Fin 5 → Fin S16x4x96x64x64.rank)
  shapeCasts_S16x4x96x64x64_S16x384x64x64 : S16x4x96x64x64.ShapeCasts S16x384x64x64
  bcast_S384_S1x384x1x1_1 : S384.BroadcastsInDim S1x384x1x1 (![1] : Fin 1 → Fin S1x384x1x1.rank)
  bcast_S1x384x1x1_S16x384x64x64_0_1_2_3 : S1x384x1x1.BroadcastsInDim S16x384x64x64 (![0, 1, 2, 3] : Fin 4 → Fin S16x384x64x64.rank)
  transposes_S16x384x64x64_S16x64x64x384_0_2_3_1 : S16x384x64x64.Transposes [0, 2, 3, 1] S16x64x64x384
  pads_S16x64x64x384_S16x64x64x384_000_000_000_000 : S16x64x64x384.Pads (![0, 0, 0, 0] : Fin 4 → Nat) ![0, 0, 0, 0] ![0, 0, 0, 0] S16x64x64x384
  shapeCasts_S16x64x64x384_S16x8x8x8x8x384 : S16x64x64x384.ShapeCasts S16x8x8x8x8x384
  transposes_S16x8x8x8x8x384_S16x8x8x8x8x384_0_1_3_2_4_5 : S16x8x8x8x8x384.Transposes [0, 1, 3, 2, 4, 5] S16x8x8x8x8x384
  shapeCasts_S16x8x8x8x8x384_S1024x64x384 : S16x8x8x8x8x384.ShapeCasts S1024x64x384
  shapeCasts_S1024x64x1152_S1024x64x3x8x48 : S1024x64x1152.ShapeCasts S1024x64x3x8x48
  transposes_S1024x64x3x8x48_S3x1024x8x64x48_2_0_3_1_4 : S1024x64x3x8x48.Transposes [2, 0, 3, 1, 4] S3x1024x8x64x48
  slices_S3x1024x8x64x48_S1x1024x8x64x48_0_0_0_0_0 : S3x1024x8x64x48.Slices ![0, 0, 0, 0, 0] S1x1024x8x64x48
  shapeCasts_S1x1024x8x64x48_S1024x8x64x48 : S1x1024x8x64x48.ShapeCasts S1024x8x64x48
  slices_S3x1024x8x64x48_S1x1024x8x64x48_1_0_0_0_0 : S3x1024x8x64x48.Slices ![1, 0, 0, 0, 0] S1x1024x8x64x48
  slices_S3x1024x8x64x48_S1x1024x8x64x48_2_0_0_0_0 : S3x1024x8x64x48.Slices ![2, 0, 0, 0, 0] S1x1024x8x64x48
  bcast_S_S1024x8x64x48 : S_.BroadcastsInDim S1024x8x64x48 (![] : Fin 0 → Fin S1024x8x64x48.rank)
  reducesTo_S1024x8x64x64_S1024x8x64_d3 : S1024x8x64x64.ReducesTo [3] S1024x8x64
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  transposes_S1024x8x64x48_S1024x64x8x48_0_2_1_3 : S1024x8x64x48.Transposes [0, 2, 1, 3] S1024x64x8x48
  shapeCasts_S1024x64x8x48_S1024x64x384 : S1024x64x8x48.ShapeCasts S1024x64x384
  bcast_S384_S1x1x384_2 : S384.BroadcastsInDim S1x1x384 (![2] : Fin 1 → Fin S1x1x384.rank)
  bcast_S1x1x384_S1024x64x384_0_1_2 : S1x1x384.BroadcastsInDim S1024x64x384 (![0, 1, 2] : Fin 3 → Fin S1024x64x384.rank)
  shapeCasts_S1024x64x384_S16x8x8x8x8x384 : S1024x64x384.ShapeCasts S16x8x8x8x8x384
  shapeCasts_S16x8x8x8x8x384_S16x64x64x384 : S16x8x8x8x8x384.ShapeCasts S16x64x64x384
  transposes_S16x64x64x384_S16x384x64x64_0_3_1_2 : S16x64x64x384.Transposes [0, 3, 1, 2] S16x384x64x64
  dot_S1024x64x384_S1152x384_S1024x64x1152_2_1_01_0_n_n_wf : DotDims.WF S1024x64x384 S1152x384 S1024x64x1152 [2] [1] [0, 1] [0] [] []
  dot_S1024x8x64x48_S1024x8x64x48_S1024x8x64x64_3_3_2_2_01_01_wf : DotDims.WF S1024x8x64x48 S1024x8x64x48 S1024x8x64x64 [3] [3] [2] [2] [0, 1] [0, 1]
  dot_S1024x8x64x64_S1024x8x64x48_S1024x8x64x48_3_2_2_3_01_01_wf : DotDims.WF S1024x8x64x64 S1024x8x64x48 S1024x8x64x48 [3] [2] [2] [3] [0, 1] [0, 1]
  dot_S1024x64x384_S384x384_S1024x64x384_2_1_01_0_n_n_wf : DotDims.WF S1024x64x384 S384x384 S1024x64x384 [2] [1] [0, 1] [0] [] []

variable [Facts₀]

def dot_S1024x64x384_S1152x384_S1024x64x1152_2_1_01_0_n_n : DotDims S1024x64x384 S1152x384 S1024x64x1152 where
  lhsContracting := [2]
  rhsContracting := [1]
  lhsNonContracting := [0, 1]
  rhsNonContracting := [0]
  lhsBatch := []
  rhsBatch := []
  wf := dot_S1024x64x384_S1152x384_S1024x64x1152_2_1_01_0_n_n_wf
def dot_S1024x8x64x48_S1024x8x64x48_S1024x8x64x64_3_3_2_2_01_01 : DotDims S1024x8x64x48 S1024x8x64x48 S1024x8x64x64 where
  lhsContracting := [3]
  rhsContracting := [3]
  lhsNonContracting := [2]
  rhsNonContracting := [2]
  lhsBatch := [0, 1]
  rhsBatch := [0, 1]
  wf := dot_S1024x8x64x48_S1024x8x64x48_S1024x8x64x64_3_3_2_2_01_01_wf
def dot_S1024x8x64x64_S1024x8x64x48_S1024x8x64x48_3_2_2_3_01_01 : DotDims S1024x8x64x64 S1024x8x64x48 S1024x8x64x48 where
  lhsContracting := [3]
  rhsContracting := [2]
  lhsNonContracting := [2]
  rhsNonContracting := [3]
  lhsBatch := [0, 1]
  rhsBatch := [0, 1]
  wf := dot_S1024x8x64x64_S1024x8x64x48_S1024x8x64x48_3_2_2_3_01_01_wf
def dot_S1024x64x384_S384x384_S1024x64x384_2_1_01_0_n_n : DotDims S1024x64x384 S384x384 S1024x64x384 where
  lhsContracting := [2]
  rhsContracting := [1]
  lhsNonContracting := [0, 1]
  rhsNonContracting := [0]
  lhsBatch := []
  rhsBatch := []
  wf := dot_S1024x64x384_S384x384_S1024x64x384_2_1_01_0_n_n_wf

class Facts : Prop extends Facts₀ where

variable [Facts]
-- ==== Proof.LibLane3.lean ====
/-
  Float lane reductions over the LAST axis of a rank-3 array, read at an index on the extended reals, for any extents:
  over [a, b, c] into [a, b], at (i, j), a lane sum into the zero accumulator is the sum of the c entries (i, j, ·), and a
  lane maximum is the fold of max from the accumulator's value over those entries.
-/
import Idealize.ShloMosaic.PureOps.Ideal.Laws
import Idealize.ShloMosaic.Lib.ValueIdx

noncomputable section

open scoped BigOperators

namespace Idealize.ShloMosaic.Lane3

open Idealize.ShloMosaic Idealize.ShloMosaic.ValueIdx

/-- The reduced index `(i, j)` with the last coordinate `k` put back is `(i, j, k)`. -/
theorem lift_last {a b c : ℕ} (h : (⟨3, ![a, b, c]⟩ : Shape).Reduces [2] ⟨2, ![a, b]⟩)
    (i : Fin a) (j : Fin b) (k : Fin c) : h.lift (ix2 i j) k = ix3 i j k :=
  funext fun x => Fin.ext (by match x with | ⟨0, _⟩ => rfl | ⟨1, _⟩ => rfl | ⟨2, _⟩ => rfl)

/-- A lane sum over the last axis of an `[a, b, c]` array, at `(i, j)`: the sum of the entries `(i, j, ·)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

/-- A lane maximum over the last axis of an `[a, b, c]` array, at `(i, j)`: the fold of max over the entries `(i, j, ·)`. -/
theorem multiReduction_max_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (Finset.fold_congr fun k _ => congrArg src (lift_last h i j k))

end Idealize.ShloMosaic.Lane3

end
-- ==== Proof.LibLaneMid3.lean ====
/-
  A float lane sum over the MIDDLE axis of a rank-3 array, read at an index on the extended reals, for any extents:
  over [a, b, c] into [a, c], at (i, k), a lane sum into the zero accumulator is the sum of the b entries (i, ·, k).
  (What `jnp.sum(x, axis=1)` of a rank-3 value lowers to in a vector program.)
-/
import Idealize.ShloMosaic.PureOps.Ideal.Laws
import Idealize.ShloMosaic.Lib.ValueIdx

noncomputable section

open scoped BigOperators

namespace Idealize.ShloMosaic.LaneMid3

open Idealize.ShloMosaic Idealize.ShloMosaic.ValueIdx

/-- The reduced index (i, k) of a sum over the middle axis, with the middle coordinate j put back, is (i, j, k). -/
theorem lift_mid {a b c : ℕ} (h : (⟨3, ![a, b, c]⟩ : Shape).Reduces [1] ⟨2, ![a, c]⟩)
    (i : Fin a) (k : Fin c) (j : Fin b) : h.lift (ix2 i k) j = ix3 i j k :=
  funext fun x => Fin.ext (by match x with | ⟨0, _⟩ => rfl | ⟨1, _⟩ => rfl | ⟨2, _⟩ => rfl)

/-- A lane sum over the middle axis of an [a, b, c] array into the zero accumulator, at (i, k): ∑ j, src (i, j, k). -/
theorem multiReduction_add_mid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid h i k j))

end Idealize.ShloMosaic.LaneMid3

end
-- ==== Proof.LibLaneFirst3.lean ====
import Idealize.ShloMosaic.PureOps.Ideal.Laws
import Idealize.ShloMosaic.Lib.ValueIdx

/-!
# A float sum over the first axis of a rank-3 array, read at an index

For any extents: a sum over axis 0 of an [a, b, c] array into the zero accumulator, read at (j, k), is the sum of
the a entries (·, j, k). The companion of the last-axis and middle-axis forms.
-/

noncomputable section

namespace Idealize.ShloMosaic.LaneFirst3

open Idealize.ShloMosaic Idealize.ShloMosaic.ValueIdx

/-- The index a sum over the first axis of an [a, b, c] array visits from the result index (j, k). -/
theorem lift_first {a b c : ℕ} (h : (⟨3, ![a, b, c]⟩ : Shape).Reduces [0] ⟨2, ![b, c]⟩)
    (j : Fin b) (k : Fin c) (i : Fin a) : h.lift (ix2 j k) i = ix3 i j k :=
  funext fun x => Fin.ext (by match x with | ⟨0, _⟩ => rfl | ⟨1, _⟩ => rfl | ⟨2, _⟩ => rfl)

/-- A float sum over the first axis of an [a, b, c] array into the zero accumulator, at (j, k): ∑ i, src (i, j, k). -/
theorem multiReduction_add_first_apply {a b c : ℕ} (src : FVec Ideal ⟨3, ![a, b, c]⟩ .f32) (acc : BitVec 32)
    (h : (⟨3, ![a, b, c]⟩ : Shape).Reduces [0] ⟨2, ![b, c]⟩) (hφ : FKind.Formats .f32)
    (hacc : acc = FKind.add.neutral .f32 hφ) (j : Fin b) (k : Fin c) :
    multiReduction .add [0] ⟨2, ![b, c]⟩ src acc h hφ hacc (ix2 j k) = ∑ i : Fin a, src (ix3 i j k) :=
  (Ideal.multiReduction_add_single src acc h hφ hacc (ix2 j k)).trans
    (Finset.sum_congr rfl fun i _ => congrArg src (lift_first h j k i))

end Idealize.ShloMosaic.LaneFirst3

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.KGn1.lean ====
import proofs.«108577_j35562329211765_2_alg».proof.Proof.Gen.KernelIdeal.Frame
import proofs.«108577_j35562329211765_2_alg».proof.Proof.LibLane3
import proofs.«108577_j35562329211765_2_alg».proof.Proof.LibLaneMid3
import proofs.«108577_j35562329211765_2_alg».proof.Proof.LibLaneFirst3
import proofs.«108577_j35562329211765_2_alg».proof.Proof.LibRegroup
import Idealize.ShloMosaic.Lib.ValueLayout
import Idealize.ShloMosaic.Lib.Pipeline.Value
import Idealize.ShloMosaic.PureOps.Ideal.Laws

/-!
# The normalisation body at an entry

One grid point of the first region holds one group of one sample: a [1, 96, 64, 64] block x, and the group's 96
weights and biases as [1, 96, 1, 1] columns. The body sums the block by three single-axis sums (lanes, then rows,
then channels), once for x and once for x·x, and from the two totals S₁, S₂ forms
  ((x − S₁/n) · rsqrt (S₂/n − (S₁/n)² + ε)) · w + b,   n = 393216.
Here that is read at an entry (c, h, w) of the block, the totals as triple sums.
-/

noncomputable section

namespace Cert.KernelIdeal.KGn

open Cert.KernelIdeal Cert.KernelIdeal.Facts₀
open Idealize.ShloMosaic Idealize.ShloMosaic.ValueIdx

/-- The total of a [96, 64, 64] array as the body forms it: lanes, then rows, then channels, each sum keeping
    a unit axis in its place. -/
def total (v : FVec Ideal S96x64x64 .f32) : FVec Ideal S1x1x1 .f32 :=
  shapeCast S1x1x1 (multiReduction .add [0] S1x1 (shapeCast S96x1x1 (multiReduction .add [1] S96x1 (shapeCast S96x64x1
    (multiReduction .add [2] S96x64 v 0x00000000#32 reduces_S96x64x64_S96x64 (.inl rfl) rfl) shapeCasts_S96x64_S96x64x1)
    0x00000000#32 reduces_S96x64x1_S96x1 (.inl rfl) rfl) shapeCasts_S96x1_S96x1x1) 0x00000000#32 reduces_S96x1x1_S1x1 (.inl rfl) rfl)
    shapeCasts_S1x1_S1x1x1

/-- It is the triple sum. -/
theorem total_apply (v : FVec Ideal S96x64x64 .f32) :
    total v (ix3 (0 : Fin 1) (0 : Fin 1) (0 : Fin 1)) = ∑ c : Fin 96, ∑ h : Fin 64, ∑ w : Fin 64, v (ix3 c h w) := by
  unfold total
  refine (Regroup.shapeCast_trailingUnit_apply _ _ (0 : Fin 1) (0 : Fin 1) (0 : Fin 1)).trans ?_
  refine (LaneFirst3.multiReduction_add_first_apply _ _ _ _ _ (0 : Fin 1) (0 : Fin 1)).trans ?_
  refine Finset.sum_congr rfl fun c _ => ?_
  refine (Regroup.shapeCast_trailingUnit_apply _ _ c (0 : Fin 1) (0 : Fin 1)).trans ?_
  refine (LaneMid3.multiReduction_add_mid_apply _ _ _ _ _ c (0 : Fin 1)).trans ?_
  refine Finset.sum_congr rfl fun h _ => ?_
  refine (Regroup.shapeCast_trailingUnit_apply _ _ c h (0 : Fin 1)).trans ?_
  exact Lane3.multiReduction_add_last_apply _ _ _ _ _ c h

/-- A [1, 1, 1] value spread over the block reads its one entry everywhere. -/
theorem spread_one (x : FVec Ideal S1x1x1 .f32) (c : Fin 96) (h w : Fin 64) :
    broadcastTo S96x64x64 x broadcasts_S1x1x1_S96x64x64 (ix3 c h w) = x (ix3 (0 : Fin 1) (0 : Fin 1) (0 : Fin 1)) := by
  refine broadcastTo_apply x _ (ix3 c h w) (ix3 (0 : Fin 1) (0 : Fin 1) (0 : Fin 1)) fun ax => ?_
  match ax with
  | ⟨0, _⟩ => rfl
  | ⟨1, _⟩ => rfl
  | ⟨2, _⟩ => rfl

/-- A per-channel column spread over the block reads the channel's entry. -/
theorem spread_chan (x : FVec Ideal S96x1x1 .f32) (c : Fin 96) (h w : Fin 64) :
    broadcastTo S96x64x64 x broadcasts_S96x1x1_S96x64x64 (ix3 c h w) = x (ix3 c (0 : Fin 1) (0 : Fin 1)) := by
  refine broadcastTo_apply x _ (ix3 c h w) (ix3 c (0 : Fin 1) (0 : Fin 1)) fun ax => ?_
  match ax with
  | ⟨0, _⟩ => rfl
  | ⟨1, _⟩ => rfl
  | ⟨2, _⟩ => rfl

/-- The body's arithmetic on the block viewed [96, 64, 64]. -/
def body (v : FVec Ideal S96x64x64 .f32) (x1 x2 : Vec Ideal S1x96x1x1 .f32) : FVec Ideal S96x64x64 .f32 :=
  let mean : FVec Ideal S1x1x1 .f32 := divf (total v) (broadcast S1x1x1 (Scalar.ofBits .f32 0x48C00000#32))
  let msq : FVec Ideal S1x1x1 .f32 := divf (total (mulf v v)) (broadcast S1x1x1 (Scalar.ofBits .f32 0x48C00000#32))
  let inv : FVec Ideal S1x1x1 .f32 := rsqrt (addf (subf msq (mulf mean mean)) (broadcast S1x1x1 (Scalar.ofBits .f32 0x3727C5AC#32)))
  addf (mulf (mulf (subf v (broadcastTo S96x64x64 mean broadcasts_S1x1x1_S96x64x64))
      (broadcastTo S96x64x64 inv broadcasts_S1x1x1_S96x64x64))
      (broadcastTo S96x64x64 (shapeCast S96x1x1 x1 shapeCasts_S1x96x1x1_S96x1x1) broadcasts_S96x1x1_S96x64x64))
    (broadcastTo S96x64x64 (shapeCast S96x1x1 x2 shapeCasts_S1x96x1x1_S96x1x1) broadcasts_S96x1x1_S96x64x64)

/-- The stored payload is that arithmetic of the loaded block. -/
theorem pay2_eq (x0 : Vec Ideal S1x96x64x64 .f32) (x1 x2 : Vec Ideal S1x96x1x1 .f32) :
    Gen.k0_pay2 (F := Ideal) x0 x1 x2 = body (shapeCast S96x64x64 x0 shapeCasts_S1x96x64x64_S96x64x64) x1 x2 := rfl

/-- The two totals of a block. -/
def s1 (v : FVec Ideal S96x64x64 .f32) : EReal := ∑ c : Fin 96, ∑ h : Fin 64, ∑ w : Fin 64, v (ix3 c h w)
def s2 (v : FVec Ideal S96x64x64 .f32) : EReal := ∑ c : Fin 96, ∑ h : Fin 64, ∑ w : Fin 64, v (ix3 c h w) * v (ix3 c h w)

/-- The body at an entry. -/
theorem body_apply (v : FVec Ideal S96x64x64 .f32) (x1 x2 : Vec Ideal S1x96x1x1 .f32) (c : Fin 96) (h w : Fin 64) :
    body v x1 x2 (ix3 c h w)
      = ((v (ix3 c h w) - Ideal.div (s1 v) (Ideal.ofBits .f32 0x48C00000#32))
          * Ideal.rsqrt ((Ideal.div (s2 v) (Ideal.ofBits .f32 0x48C00000#32)
              - Ideal.div (s1 v) (Ideal.ofBits .f32 0x48C00000#32) * Ideal.div (s1 v) (Ideal.ofBits .f32 0x48C00000#32))
              + Ideal.ofBits .f32 0x3727C5AC#32))
          * x1 (ix4 (0 : Fin 1) c (0 : Fin 1) (0 : Fin 1))
        + x2 (ix4 (0 : Fin 1) c (0 : Fin 1) (0 : Fin 1)) := by
  unfold body
  rw [addf_apply, mulf_apply, mulf_apply, subf_apply, spread_one, spread_one, spread_chan, spread_chan,
    shapeCast_1abc_abc_apply, shapeCast_1abc_abc_apply]
  show ((v (ix3 c h w) - Ideal.div (total v (ix3 0 0 0)) (Ideal.ofBits .f32 0x48C00000#32))
          * Ideal.rsqrt ((Ideal.div (total (mulf v v) (ix3 0 0 0)) (Ideal.ofBits .f32 0x48C00000#32)
              - Ideal.div (total v (ix3 0 0 0)) (Ideal.ofBits .f32 0x48C00000#32) * Ideal.div (total v (ix3 0 0 0)) (Ideal.ofBits .f32 0x48C00000#32))
              + Ideal.ofBits .f32 0x3727C5AC#32))
          * x1 (ix4 (0 : Fin 1) c (0 : Fin 1) (0 : Fin 1))
        + x2 (ix4 (0 : Fin 1) c (0 : Fin 1) (0 : Fin 1)) = _
  rw [total_apply, total_apply]
  rfl

end Cert.KernelIdeal.KGn

end
-- ==== Proof.Spec.lean ====
import Idealize.ShloMosaic.PureOps.Ideal
import Idealize.ShloMosaic.Lib.ValueIdx

/-!
# The two stages as plain functions of the argument arrays

Group normalisation over [16, 384, 64, 64] in 4 groups of 96 channels, then windowed attention with 8 heads of
width 48 over [1024, 64, 384] (1024 windows of 64 tokens), each written index by index on the extended reals.
Both programs are shown to compute these functions; nothing here mentions either program.
-/

noncomputable section

namespace Cert.Spec

open Idealize.ShloMosaic Idealize.ShloMosaic.ValueIdx

abbrev X4 : Shape := ⟨4, ![16, 384, 64, 64]⟩
abbrev V384 : Shape := ⟨1, ![384]⟩
abbrev Wqkv : Shape := ⟨2, ![1152, 384]⟩
abbrev Wproj : Shape := ⟨2, ![384, 384]⟩
abbrev Win : Shape := ⟨3, ![1024, 64, 384]⟩

/-- The float words the two programs share, read on the extended reals: 393216 = 96 · 64 · 64, the f32 nearest
    1e-5, the f32 nearest 48^(-1/2), and -∞. -/
def nW : EReal := Ideal.ofBits .f32 0x48C00000#32
def epsW : EReal := Ideal.ofBits .f32 0x3727C5AC#32
def scaleW : EReal := Ideal.ofBits .f32 0x3E13CD3A#32
def ninfW : EReal := Ideal.ofBits .f32 0xFF800000#32

/-! ## Group normalisation -/

/-- Channel c of group g. -/
def chan (g : Fin 4) (c : Fin 96) : Fin 384 := ⟨g.val * 96 + c.val, by omega⟩

/-- The group of a channel and its place in the group. -/
def grp (ch : Fin 384) : Fin 4 := ⟨ch.val / 96, by omega⟩
def sub (ch : Fin 384) : Fin 96 := ⟨ch.val % 96, Nat.mod_lt _ (by norm_num)⟩

/-- The mean of the real entries of sample n, group g. -/
def mu (xr : X4.Idx → ℝ) (n : Fin 16) (g : Fin 4) : ℝ :=
  (∑ c : Fin 96, ∑ h : Fin 64, ∑ w : Fin 64, xr (ix4 n (chan g c) h w)) / 393216

/-- The variance of those entries: the mean of the squared centred entries. -/
def var (xr : X4.Idx → ℝ) (n : Fin 16) (g : Fin 4) : ℝ :=
  (∑ c : Fin 96, ∑ h : Fin 64, ∑ w : Fin 64, (xr (ix4 n (chan g c) h w) - mu xr n g) ^ 2) / 393216

/-- Group normalisation of a real array xr with an affine map per channel, at an entry. -/
def gn (xr : X4.Idx → ℝ) (w b : V384.Idx → EReal) (n : Fin 16) (ch : Fin 384) (h : Fin 64) (v : Fin 64) : EReal :=
  (((xr (ix4 n ch h v) - mu xr n (grp ch) : ℝ) : EReal) * Ideal.rsqrt (((var xr n (grp ch) : ℝ) : EReal) + epsW)) * w (ix1 ch)
    + b (ix1 ch)

/-- The same as one array. -/
def gnArr (xr : X4.Idx → ℝ) (w b : V384.Idx → EReal) : X4.Idx → EReal :=
  fun i => gn xr w b (i 0) (i 1) (i 2) (i 3)

/-! ## Windowed attention -/

/-- Column t · 384 + h · 48 + d of the joint query / key / value projection (t = 0, 1, 2). -/
def col (t : Fin 3) (h : Fin 8) (d : Fin 48) : Fin 1152 := ⟨t.val * 384 + h.val * 48 + d.val, by omega⟩

section attn
variable (win : Win.Idx → EReal) (wqkv : Wqkv.Idx → EReal) (wproj : Wproj.Idx → EReal) (bproj : V384.Idx → EReal)

/-- The joint projection: token s of window n against row o of the weight. -/
def qkv (n : Fin 1024) (s : Fin 64) (o : Fin 1152) : EReal := ∑ c : Fin 384, win (ix3 n s c) * wqkv (ix2 o c)

/-- The scaled score of query token q against key token k in head h. -/
def logit (n : Fin 1024) (h : Fin 8) (q k : Fin 64) : EReal :=
  ∑ d : Fin 48, (qkv win wqkv n q (col 0 h d) * scaleW) * qkv win wqkv n k (col 1 h d)

/-- The largest score of a query's row, as the softmax computes it: a fold of max from -∞, then max with -∞. -/
def rowmax (n : Fin 1024) (h : Fin 8) (q : Fin 64) : EReal :=
  max ninfW ((Finset.univ : Finset (Fin 64)).fold max ninfW (fun k => logit win wqkv n h q k))

/-- The shifted exponentials, their sum, and the softmax weights. -/
def expo (n : Fin 1024) (h : Fin 8) (q k : Fin 64) : EReal := Ideal.exp (logit win wqkv n h q k - rowmax win wqkv n h q)
def denom (n : Fin 1024) (h : Fin 8) (q : Fin 64) : EReal := ∑ k : Fin 64, expo win wqkv n h q k
def prob (n : Fin 1024) (h : Fin 8) (q k : Fin 64) : EReal := Ideal.div (expo win wqkv n h q k) (denom win wqkv n h q)

/-- Head h's output for query token q, coordinate d. -/
def head (n : Fin 1024) (h : Fin 8) (q : Fin 64) (d : Fin 48) : EReal :=
  ∑ k : Fin 64, prob win wqkv n h q k * qkv win wqkv n k (col 2 h d)

/-- The heads side by side: column c belongs to head c / 48, coordinate c % 48. -/
def heads (n : Fin 1024) (s : Fin 64) (c : Fin 384) : EReal :=
  head win wqkv n ⟨c.val / 48, by omega⟩ s ⟨c.val % 48, Nat.mod_lt _ (by norm_num)⟩

/-- The output projection with its bias. -/
def attn (n : Fin 1024) (s : Fin 64) (j : Fin 384) : EReal :=
  (∑ c : Fin 384, heads win wqkv n s c * wproj (ix2 j c)) + bproj (ix1 j)

/-- The same as one array. -/
def attnArr : Win.Idx → EReal := fun i => attn win wqkv wproj bproj (i 0) (i 1) (i 2)

end attn

end Cert.Spec

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«108577_j35562329211765_2_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.LibRealMoments.lean ====
/-
  Two identities about the central moments of finitely many real numbers.

  Let x(i), i in a finite index set of n elements (n not 0), be real numbers with sum S and mean m = S / n.
  (1) The centred numbers add up to zero: sum_i (x(i) - m) = S - n * m = 0.
  (2) The mean of the squared centred numbers is the mean square minus the squared mean:
      (sum_i (x(i) - m)^2) / n = (sum_i x(i)^2 - 2 m S + n m^2) / n = (sum_i x(i)^2) / n - m^2,
      because S = n * m.
  Both need the numbers to be real: with an infinite entry the differences x(i) - m are no longer defined in a
  way that obeys these laws.
-/
import Mathlib.Algebra.BigOperators.Ring.Finset
import Mathlib.Algebra.BigOperators.Fin
import Mathlib.Data.Real.Basic
import Mathlib.Data.Fintype.BigOperators
import Mathlib.Tactic.Ring
import Mathlib.Tactic.FieldSimp

open scoped BigOperators

namespace Cert.Bridge.RealMoments

variable {ι : Type*} [Fintype ι]

/-- The centred numbers add up to zero. -/
theorem sum_centred (x : ι → ℝ) {n : ℝ} (hn : (Fintype.card ι : ℝ) = n) (h0 : n ≠ 0) :
    ∑ i, (x i - (∑ k, x k) / n) = 0 := by
  rw [Finset.sum_sub_distrib, Finset.sum_const, Finset.card_univ, nsmul_eq_mul, hn, mul_div_cancel₀ _ h0, sub_self]

/-- The sum of the squared centred numbers, expanded. -/
theorem sum_sq_centred (x : ι → ℝ) {n : ℝ} (hn : (Fintype.card ι : ℝ) = n) :
    ∑ i, (x i - (∑ k, x k) / n) * (x i - (∑ k, x k) / n)
      = (∑ i, x i * x i) - 2 * ((∑ k, x k) / n) * (∑ k, x k) + n * ((∑ k, x k) / n * ((∑ k, x k) / n)) := by
  have e : ∀ i, (x i - (∑ k, x k) / n) * (x i - (∑ k, x k) / n)
      = x i * x i - 2 * ((∑ k, x k) / n) * x i + (∑ k, x k) / n * ((∑ k, x k) / n) := fun i => by ring
  rw [Finset.sum_congr rfl fun i _ => e i, Finset.sum_add_distrib, Finset.sum_sub_distrib, ← Finset.mul_sum,
    Finset.sum_const, Finset.card_univ, nsmul_eq_mul, hn]

/-- The mean of the squared centred numbers is the mean square minus the squared mean. -/
theorem mean_sq_centred (x : ι → ℝ) {n : ℝ} (hn : (Fintype.card ι : ℝ) = n) (h0 : n ≠ 0) :
    (∑ i, (x i - (∑ k, x k) / n) * (x i - (∑ k, x k) / n)) / n
      = (∑ i, x i * x i) / n - (∑ k, x k) / n * ((∑ k, x k) / n) := by
  rw [sum_sq_centred x hn]
  field_simp
  ring

/-- There are 200000 indices below 200000. -/
theorem card_rows : (Fintype.card (Fin 200000) : ℝ) = 200000 := by
  rw [Fintype.card_fin]; norm_num

end Cert.Bridge.RealMoments
-- ==== Proof.KGn2.lean ====
import proofs.«108577_j35562329211765_2_alg».proof.Proof.KGn1
import proofs.«108577_j35562329211765_2_alg».proof.Proof.Spec
import proofs.«108577_j35562329211765_2_alg».proof.Proof.LibRealEntries
import proofs.«108577_j35562329211765_2_alg».proof.Proof.LibRealMoments

/-!
# The normalisation body on a real block is the specification

For real entries the mean of the squares minus the squared mean is the mean of the squared centred entries, so the
body's S₂/n − (S₁/n)² is the variance, and the block's entry is group normalisation of the real array at that entry.
-/

noncomputable section

namespace Cert.KernelIdeal.KGn

open Cert.KernelIdeal Cert.KernelIdeal.Facts₀
open Idealize.ShloMosaic Idealize.ShloMosaic.ValueIdx Idealize.ShloMosaic.RealEntries

/-- The word 0x48C00000 is the real 393216. -/
theorem ofBits_n : Ideal.ofBits .f32 0x48C00000#32 = ((393216 : ℝ) : EReal) := by
  simp [Ideal.ofBits, Ideal.ieee, -EReal.coe_mul]; norm_num

/-- For 96 · 64 · 64 real numbers: the mean of the squared centred numbers is the mean square minus the squared mean. -/
theorem var_identity (f : Fin 96 → Fin 64 → Fin 64 → ℝ) :
    (∑ c, ∑ h, ∑ w, (f c h w - (∑ c, ∑ h, ∑ w, f c h w) / 393216) ^ 2) / 393216
      = (∑ c, ∑ h, ∑ w, f c h w * f c h w) / 393216
        - (∑ c, ∑ h, ∑ w, f c h w) / 393216 * ((∑ c, ∑ h, ∑ w, f c h w) / 393216) := by
  have key := Cert.Bridge.RealMoments.mean_sq_centred (ι := Fin 96 × Fin 64 × Fin 64) (fun p => f p.1 p.2.1 p.2.2)
    (n := 393216) (by rw [Fintype.card_prod, Fintype.card_prod, Fintype.card_fin, Fintype.card_fin]; norm_num) (by norm_num)
  simp only [Fintype.sum_prod_type] at key
  simp only [pow_two]
  exact key

/-- The group of channel c of group g is g. -/
theorem grp_chan (g : Fin 4) (c : Fin 96) : Cert.Spec.grp (Cert.Spec.chan g c) = g := by
  apply Fin.ext
  show (g.val * 96 + c.val) / 96 = g.val
  have := c.isLt
  omega

/-- A block of real entries, with the group's weights and biases beside it: the body's entry is the specification's. -/
theorem body_real (xr : Cert.Spec.X4.Idx → ℝ) (n : Fin 16) (g : Fin 4) (v : FVec Ideal S96x64x64 .f32)
    (hv : ∀ (c : Fin 96) (h w : Fin 64), v (ix3 c h w) = ((xr (ix4 n (Cert.Spec.chan g c) h w) : ℝ) : EReal))
    (x1 x2 : Vec Ideal S1x96x1x1 .f32) (wA bA : Cert.Spec.V384.Idx → EReal)
    (h1 : ∀ c : Fin 96, x1 (ix4 (0 : Fin 1) c (0 : Fin 1) (0 : Fin 1)) = wA (ix1 (Cert.Spec.chan g c)))
    (h2 : ∀ c : Fin 96, x2 (ix4 (0 : Fin 1) c (0 : Fin 1) (0 : Fin 1)) = bA (ix1 (Cert.Spec.chan g c)))
    (c : Fin 96) (h w : Fin 64) :
    body v x1 x2 (ix3 c h w) = Cert.Spec.gn xr wA bA n (Cert.Spec.chan g c) h w := by
  have e1 : s1 v = ((∑ c, ∑ h, ∑ w, xr (ix4 n (Cert.Spec.chan g c) h w) : ℝ) : EReal) := by
    unfold s1
    simp only [hv, univ_sum_coe]
  have e2 : s2 v = ((∑ c, ∑ h, ∑ w, xr (ix4 n (Cert.Spec.chan g c) h w) * xr (ix4 n (Cert.Spec.chan g c) h w) : ℝ) : EReal) := by
    unfold s2
    simp only [hv, mul_coe, univ_sum_coe]
  have hn : (393216 : ℝ) ≠ 0 := by norm_num
  rw [body_apply, e1, e2, ofBits_n, div_coe_coe _ hn, div_coe_coe _ hn, mul_coe, sub_coe, hv, sub_coe, h1, h2]
  unfold Cert.Spec.gn
  rw [grp_chan]
  unfold Cert.Spec.var Cert.Spec.mu Cert.Spec.epsW
  rw [var_identity (fun c h w => xr (ix4 n (Cert.Spec.chan g c) h w))]

end Cert.KernelIdeal.KGn

end
-- ==== Proof.KReg0.lean ====
import proofs.«108577_j35562329211765_2_alg».proof.Proof.KGn2
import Idealize.ShloMosaic.Lib.Pipeline.Value

/-!
# The first region's result array

The first region runs over 16 · 4 grid points; point t handles sample t / 4 and group t % 4: it reads the block
[1, 96, 64, 64] of the input at (t / 4, t % 4), the group's 96 weights and biases, and writes the same block of
the result. The blocks tile the [16, 384, 64, 64] result, so after the region the result array is group
normalisation of the input array, entry by entry.
-/

set_option maxRecDepth 16384

noncomputable section

namespace Cert.KernelIdeal.KReg0

open Cert.KernelIdeal Cert.KernelIdeal.Facts₀
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps over the grid: the input and result blocks sit at (t / 4, t % 4, 0, 0), the weight and bias
    columns at (t % 4, 0, 0, 0). -/
theorem idx_facts : ∀ t : Fin cfg0.N,
    win0_0.index t (0 : Fin 4) = t.val / 4 ∧ win0_0.index t (1 : Fin 4) = t.val % 4 ∧ win0_0.index t (2 : Fin 4) = 0 ∧ win0_0.index t (3 : Fin 4) = 0
    ∧ win0_1.index t (0 : Fin 4) = t.val % 4 ∧ win0_1.index t (1 : Fin 4) = 0 ∧ win0_1.index t (2 : Fin 4) = 0 ∧ win0_1.index t (3 : Fin 4) = 0
    ∧ win0_2.index t (0 : Fin 4) = t.val % 4 ∧ win0_2.index t (1 : Fin 4) = 0 ∧ win0_2.index t (2 : Fin 4) = 0 ∧ win0_2.index t (3 : Fin 4) = 0
    ∧ win0_3.index t (0 : Fin 4) = t.val / 4 ∧ win0_3.index t (1 : Fin 4) = t.val % 4 ∧ win0_3.index t (2 : Fin 4) = 0 ∧ win0_3.index t (3 : Fin 4) = 0 :=
  (by decide +kernel : ∀ t : Fin grid0.N, _)

/-- The sample and the group of a grid point. -/
def smp (t : Fin cfg0.N) : Fin 16 := ⟨t.val / 4, by have := t.isLt; have : cfg0.N = 64 := Gen.N_0; omega⟩
def grp (t : Fin cfg0.N) : Fin 4 := ⟨t.val % 4, Nat.mod_lt _ (by norm_num)⟩

/-- The input block at a point, read at an entry. -/
theorem blk_x (c : Dev nD) (t : Fin cfg0.N) (cc : Fin 96) (h w : Fin 64) :
    Gen.iblk0 V c 0 t (ix4 (0 : Fin 1) cc h w) = V c main_arg0 (ix4 (smp t) (Cert.Spec.chan (grp t) cc) h w) := by
  show V c main_arg0 (((cfg0.win 0).blk t).view.emb (ix4 (0 : Fin 1) cc h w)) = _
  obtain ⟨e0, e1, e2, e3, -⟩ := idx_facts t
  refine congrArg (V c main_arg0) (funext fun a => Fin.ext ?_)
  match a with
  | ⟨0, _⟩ => show win0_0.index t (0 : Fin 4) * 1 + 1 * 0 = t.val / 4; omega
  | ⟨1, _⟩ => show win0_0.index t (1 : Fin 4) * 96 + 1 * cc.val = t.val % 4 * 96 + cc.val; omega
  | ⟨2, _⟩ => show win0_0.index t (2 : Fin 4) * 64 + 1 * h.val = h.val; omega
  | ⟨3, _⟩ => show win0_0.index t (3 : Fin 4) * 64 + 1 * w.val = w.val; omega

/-- The weight column at a point, read at a channel. -/
theorem blk_w (c : Dev nD) (t : Fin cfg0.N) (cc : Fin 96) :
    Gen.iblk0 V c 1 t (ix4 (0 : Fin 1) cc (0 : Fin 1) (0 : Fin 1)) = V c main_v0 (ix4 (grp t) cc (0 : Fin 1) (0 : Fin 1)) := by
  show V c main_v0 (((cfg0.win 1).blk t).view.emb (ix4 (0 : Fin 1) cc (0 : Fin 1) (0 : Fin 1))) = _
  obtain ⟨-, -, -, -, e0, e1, e2, e3, -⟩ := idx_facts t
  refine congrArg (V c main_v0) (funext fun a => Fin.ext ?_)
  match a with
  | ⟨0, _⟩ => show win0_1.index t (0 : Fin 4) * 1 + 1 * 0 = t.val % 4; omega
  | ⟨1, _⟩ => show win0_1.index t (1 : Fin 4) * 96 + 1 * cc.val = cc.val; omega
  | ⟨2, _⟩ => show win0_1.index t (2 : Fin 4) * 1 + 1 * 0 = 0; omega
  | ⟨3, _⟩ => show win0_1.index t (3 : Fin 4) * 1 + 1 * 0 = 0; omega

/-- The bias column at a point, read at a channel. -/
theorem blk_b (c : Dev nD) (t : Fin cfg0.N) (cc : Fin 96) :
    Gen.iblk0 V c 2 t (ix4 (0 : Fin 1) cc (0 : Fin 1) (0 : Fin 1)) = V c main_v1 (ix4 (grp t) cc (0 : Fin 1) (0 : Fin 1)) := by
  show V c main_v1 (((cfg0.win 2).blk t).view.emb (ix4 (0 : Fin 1) cc (0 : Fin 1) (0 : Fin 1))) = _
  obtain ⟨-, -, -, -, -, -, -, -, e0, e1, e2, e3, -⟩ := idx_facts t
  refine congrArg (V c main_v1) (funext fun a => Fin.ext ?_)
  match a with
  | ⟨0, _⟩ => show win0_2.index t (0 : Fin 4) * 1 + 1 * 0 = t.val % 4; omega
  | ⟨1, _⟩ => show win0_2.index t (1 : Fin 4) * 96 + 1 * cc.val = cc.val; omega
  | ⟨2, _⟩ => show win0_2.index t (2 : Fin 4) * 1 + 1 * 0 = 0; omega
  | ⟨3, _⟩ => show win0_2.index t (3 : Fin 4) * 1 + 1 * 0 = 0; omega

/-- A [384] vector viewed [4, 96, 1, 1] reads channel g · 96 + c at (g, c, 0, 0). -/
theorem column_apply (x : FVec Ideal S384 .f32) (g : Fin 4) (cc : Fin 96) :
    shapeCast S4x96x1x1 x shapeCasts_S384_S4x96x1x1 (ix4 g cc (0 : Fin 1) (0 : Fin 1)) = x (ix1 (Cert.Spec.chan g cc)) :=
  shapeCast_apply x _ _ _ (by
    rw [Shape.rowMajor_val_one, Shape.rowMajor_val_four]
    show g.val * 96 + cc.val = ((g.val * 96 + cc.val) * 1 + 0) * 1 + 0
    omega)

/-- The result block's place in the result array. -/
theorem emb_out (t : Fin cfg0.N) (u : Fin 1) (cc : Fin 96) (h w : Fin 64) :
    ((cfg0.win 3).blk t).view.emb (ix4 u cc h w) = ix4 (smp t) (Cert.Spec.chan (grp t) cc) h w := by
  obtain ⟨-, -, -, -, -, -, -, -, -, -, -, -, e0, e1, e2, e3⟩ := idx_facts t
  have hu : u.val = 0 := by omega
  refine funext fun a => Fin.ext ?_
  match a with
  | ⟨0, _⟩ => show win0_3.index t (0 : Fin 4) * 1 + 1 * u.val = t.val / 4; omega
  | ⟨1, _⟩ => show win0_3.index t (1 : Fin 4) * 96 + 1 * cc.val = t.val % 4 * 96 + cc.val; omega
  | ⟨2, _⟩ => show win0_3.index t (2 : Fin 4) * 64 + 1 * h.val = h.val; omega
  | ⟨3, _⟩ => show win0_3.index t (3 : Fin 4) * 64 + 1 * w.val = w.val; omega

/-- What point t writes back is its block of the group normalisation of the real input array. -/
theorem flushed_eq (c : Dev nD) (xr : Cert.Spec.X4.Idx → ℝ) (wA bA : FVec Ideal S384 .f32)
    (hx : ∀ i, V c main_arg0 i = ((xr i : ℝ) : EReal))
    (hw : V c main_v0 = shapeCast S4x96x1x1 wA shapeCasts_S384_S4x96x1x1)
    (hb : V c main_v1 = shapeCast S4x96x1x1 bA shapeCasts_S384_S4x96x1x1) (t : Fin cfg0.N) :
    (Gen.dat0 V c).flushed 3 t = ((cfg0.win 3).blk t).view.read (Elt Ideal) (Cert.Spec.gnArr xr wA bA) := by
  show (cfg0.win 3).cut (grid0.coords t) ((Gen.dat0 V c).after 3 t) = _
  rw [Gen.after0_3]
  unfold Gen.out0_3
  rw [View.canon_unit_zero hz4]
  simp only [View.ld_unit_zero (S := S1x96x64x64) hz4, View.ld_unit_zero (S := S1x96x1x1) hz4]
  funext j
  obtain ⟨u, cc, h, w, rfl⟩ : ∃ (u : Fin 1) (cc : Fin 96) (h w : Fin 64), j = ix4 u cc h w := ⟨j 0, j 1, j 2, j 3, eq_ix4 j⟩
  show Gen.k0_pay1 (Gen.k0_pay2 (Gen.iblk0 V c 0 t) (Gen.iblk0 V c 1 t) (Gen.iblk0 V c 2 t)) (ix4 u cc h w)
    = Cert.Spec.gnArr xr wA bA (((cfg0.win 3).blk t).view.emb (ix4 u cc h w))
  rw [emb_out]
  show shapeCast S1x96x64x64 (Gen.k0_pay2 (Gen.iblk0 V c 0 t) (Gen.iblk0 V c 1 t) (Gen.iblk0 V c 2 t)) shapeCasts_S96x64x64_S1x96x64x64 (ix4 u cc h w) = _
  refine (shapeCast_abc_1abc_apply _ _ u cc h w).trans ?_
  rw [KGn.pay2_eq]
  refine (KGn.body_real xr (smp t) (grp t) _ (fun c' h' w' => ?_) _ _ wA bA (fun c' => ?_) (fun c' => ?_) cc h w).trans rfl
  · rw [shapeCast_1abc_abc_apply, blk_x, hx]
  · rw [blk_w, hw, column_apply]
  · rw [blk_b, hb, column_apply]

/-- An index of the result array is in point t's block iff each coordinate is in the block's range. -/
theorem mem_blk (t : Fin cfg0.N) (i : S16x384x64x64.Idx) :
    i ∈ ((cfg0.win 3).blk t).view.set ↔ ∀ a : Fin 4, win0_3.index t a * S1x96x64x64.size a ≤ (i a).val ∧ (i a).val < win0_3.index t a * S1x96x64x64.size a + S1x96x64x64.size a := by
  show i ∈ ((View.whole main_v2).slice (win0_3.rect t)).set ↔ _
  rw [View.set_slice_whole, Rect.mem_set_unit]
  exact Iff.rfl

/-- Every entry of the result array is in some point's block. -/
theorem cover (i : S16x384x64x64.Idx) : ∃ t : Fin cfg0.N, (cfg0.win 3).flush t = true ∧ i ∈ ((cfg0.win 3).blk t).view.set := by
  have h0 : (i 0).val < 16 := (i 0).isLt
  have h1 : (i 1).val < 384 := (i 1).isLt
  have h2 : (i 2).val < 64 := (i 2).isLt
  have h3 : (i 3).val < 64 := (i 3).isLt
  have hN : cfg0.N = 64 := Gen.N_0
  let t : Fin cfg0.N := ⟨(i 0).val * 4 + (i 1).val / 96, by omega⟩
  refine ⟨t, Gen.flush0_3 t, ?_⟩
  rw [mem_blk]
  obtain ⟨-, -, -, -, -, -, -, -, -, -, -, -, e0, e1, e2, e3⟩ := idx_facts t
  have ht : t.val = (i 0).val * 4 + (i 1).val / 96 := rfl
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 96 ≤ (i 1).val ∧ (i 1).val < win0_3.index t (1 : Fin 4) * 96 + 96; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- After the region the result array is the group normalisation of the real input array. -/
theorem final (c : Dev nD) (xr : Cert.Spec.X4.Idx → ℝ) (wA bA : FVec Ideal S384 .f32)
    (hx : ∀ i, V c main_arg0 i = ((xr i : ℝ) : EReal))
    (hw : V c main_v0 = shapeCast S4x96x1x1 wA shapeCasts_S384_S4x96x1x1)
    (hb : V c main_v1 = shapeCast S4x96x1x1 bA shapeCasts_S384_S4x96x1x1) :
    (Gen.dat0 V c).arrAt 3 cfg0.N = Cert.Spec.gnArr xr wA bA :=
  (Gen.dat0 V c).arrAt_eq_of_cover 3 (Cert.Spec.gnArr xr wA bA) (fun t _ => flushed_eq V c xr wA bA hx hw hb t) cover

end Cert.KernelIdeal.KReg0

end
-- ==== Proof.KReg1.lean ====
import proofs.«108577_j35562329211765_2_alg».proof.Proof.Gen.KernelIdeal.Frame
import proofs.«108577_j35562329211765_2_alg».proof.Proof.Spec
import Idealize.ShloMosaic.Lib.Pipeline.Value
import Idealize.ShloMosaic.Lib.ValueLayout

/-!
# The second region's result array

The second region runs over 64 grid points; point t handles windows 16 t … 16 t + 15: it reads that block
[16, 64, 384] of the windows array and the whole of the three weight arrays (the two matrices transposed, the bias as
a row), and writes the same block of the result. Given what the body computes on one block (`PayloadSpec`, proved
where the body is read), the blocks tile the [1024, 64, 384] result, so after the region the result array is the
windowed attention of the windows array, entry by entry.
-/

set_option maxRecDepth 16384

noncomputable section

namespace Cert.KernelIdeal.KReg1

open Cert.KernelIdeal Cert.KernelIdeal.Facts₀
open Idealize.ShloMosaic Idealize.ShloMosaic.TcCoe Idealize.ShloMosaic.ValueIdx
open Idealize.SL.Sem
open Idealize.ShloMosaic.Pipeline (Dat Cfg Window)

/-- What the attention body leaves in its output block, as a function of its four input blocks: when the first is
    windows 16 t … 16 t + 15 of an array `win`, the second and third the transposes of `wqkv` and `wproj` and the
    fourth `bproj` as a row, the block's entry (a, s, j) is the attention of `win` at (16 t + a, s, j). -/
def PayloadSpec : Prop :=
  ∀ (win : Cert.Spec.Win.Idx → EReal) (wqkv : Cert.Spec.Wqkv.Idx → EReal) (wproj : Cert.Spec.Wproj.Idx → EReal)
    (bproj : Cert.Spec.V384.Idx → EReal) (t : Fin 64)
    (x0 : Vec Ideal S16x64x384 .f32) (x1 : Vec Ideal S384x1152 .f32) (x2 : Vec Ideal S384x384 .f32) (x3 : Vec Ideal S1x384 .f32)
    (h0 : ∀ (a : Fin 16) (s : Fin 64) (c : Fin 384), x0 (ix3 a s c) = win (ix3 ⟨16 * t.val + a.val, by omega⟩ s c))
    (h1 : ∀ (c : Fin 384) (o : Fin 1152), x1 (ix2 c o) = wqkv (ix2 o c))
    (h2 : ∀ (c : Fin 384) (j : Fin 384), x2 (ix2 c j) = wproj (ix2 j c))
    (h3 : ∀ j : Fin 384, x3 (ix2 (0 : Fin 1) j) = bproj (ix1 j))
    (a : Fin 16) (s : Fin 64) (j : Fin 384),
    Gen.out1_4 (F := Ideal) x0 x1 x2 x3 (ix3 a s j) = Cert.Spec.attn win wqkv wproj bproj ⟨16 * t.val + a.val, by omega⟩ s j

variable (V : (c : Dev nD) → (b : Ref sig .tc) → Buf (Elt Ideal) ((c : Thread nD τ).loc b))

/-- The index maps over the grid: the windows block and the result block sit at (t, 0, 0), the weights at the origin. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- A grid point as a number below 64. -/
def pt (t : Fin cfg1.N) : Fin 64 := ⟨t.val, by have := t.isLt; have : cfg1.N = 64 := Gen.N_1; omega⟩

/-- The windows block at a point, read at an entry. -/
theorem blk_x (c : Dev nD) (t : Fin cfg1.N) (a : Fin 16) (s : Fin 64) (cc : Fin 384) :
    Gen.iblk1 V c 0 t (ix3 a s cc) = V c main_v7 (ix3 (⟨16 * (pt t).val + a.val, by have := (pt t).isLt; omega⟩ : Fin 1024) s cc) := by
  show V c main_v7 (((cfg1.win 0).blk t).view.emb (ix3 a s cc)) = _
  obtain ⟨e0, e1, e2, -⟩ := idx_facts t
  refine congrArg (V c main_v7) (funext fun ax => Fin.ext ?_)
  match ax with
  | ⟨0, _⟩ => show win1_0.index t (0 : Fin 3) * 16 + 1 * a.val = 16 * t.val + a.val; omega
  | ⟨1, _⟩ => show win1_0.index t (1 : Fin 3) * 64 + 1 * s.val = s.val; omega
  | ⟨2, _⟩ => show win1_0.index t (2 : Fin 3) * 384 + 1 * cc.val = cc.val; omega

/-- The whole-array windows read where they stand. -/
theorem blk_q (c : Dev nD) (t : Fin cfg1.N) (cc : Fin 384) (o : Fin 1152) :
    Gen.iblk1 V c 1 t (ix2 cc o) = V c main_v8 (ix2 cc o) := by
  show V c main_v8 (((cfg1.win 1).blk t).view.emb (ix2 cc o)) = _
  obtain ⟨-, -, -, e0, e1, -⟩ := idx_facts t
  refine congrArg (V c main_v8) (funext fun ax => Fin.ext ?_)
  match ax with
  | ⟨0, _⟩ => show win1_1.index t (0 : Fin 2) * 384 + 1 * cc.val = cc.val; omega
  | ⟨1, _⟩ => show win1_1.index t (1 : Fin 2) * 1152 + 1 * o.val = o.val; omega

theorem blk_p (c : Dev nD) (t : Fin cfg1.N) (cc : Fin 384) (j : Fin 384) :
    Gen.iblk1 V c 2 t (ix2 cc j) = V c main_v9 (ix2 cc j) := by
  show V c main_v9 (((cfg1.win 2).blk t).view.emb (ix2 cc j)) = _
  obtain ⟨-, -, -, -, -, e0, e1, -⟩ := idx_facts t
  refine congrArg (V c main_v9) (funext fun ax => Fin.ext ?_)
  match ax with
  | ⟨0, _⟩ => show win1_2.index t (0 : Fin 2) * 384 + 1 * cc.val = cc.val; omega
  | ⟨1, _⟩ => show win1_2.index t (1 : Fin 2) * 384 + 1 * j.val = j.val; omega

theorem blk_b (c : Dev nD) (t : Fin cfg1.N) (j : Fin 384) :
    Gen.iblk1 V c 3 t (ix2 (0 : Fin 1) j) = V c main_v10 (ix2 (0 : Fin 1) j) := by
  show V c main_v10 (((cfg1.win 3).blk t).view.emb (ix2 (0 : Fin 1) j)) = _
  obtain ⟨-, -, -, -, -, -, -, e0, e1, -⟩ := idx_facts t
  refine congrArg (V c main_v10) (funext fun ax => Fin.ext ?_)
  match ax with
  | ⟨0, _⟩ => show win1_3.index t (0 : Fin 2) * 1 + 1 * 0 = 0; omega
  | ⟨1, _⟩ => show win1_3.index t (1 : Fin 2) * 384 + 1 * j.val = j.val; omega

/-- The result block's place in the result array. -/
theorem emb_out (t : Fin cfg1.N) (a : Fin 16) (s : Fin 64) (j : Fin 384) :
    ((cfg1.win 4).blk t).view.emb (ix3 a s j) = ix3 (⟨16 * (pt t).val + a.val, by have := (pt t).isLt; omega⟩ : Fin 1024) s j := by
  obtain ⟨-, -, -, -, -, -, -, -, -, e0, e1, e2⟩ := idx_facts t
  refine funext fun ax => Fin.ext ?_
  match ax with
  | ⟨0, _⟩ => show win1_4.index t (0 : Fin 3) * 16 + 1 * a.val = 16 * t.val + a.val; omega
  | ⟨1, _⟩ => show win1_4.index t (1 : Fin 3) * 64 + 1 * s.val = s.val; omega
  | ⟨2, _⟩ => show win1_4.index t (2 : Fin 3) * 384 + 1 * j.val = j.val; omega

/-- What point t writes back is its block of the attention of the windows array. -/
theorem flushed_eq (hpay : PayloadSpec) (c : Dev nD) (win : Cert.Spec.Win.Idx → EReal) (wqkv : Cert.Spec.Wqkv.Idx → EReal)
    (wproj : Cert.Spec.Wproj.Idx → EReal) (bproj : Cert.Spec.V384.Idx → EReal)
    (hwin : V c main_v7 = win)
    (hq : ∀ (cc : Fin 384) (o : Fin 1152), V c main_v8 (ix2 cc o) = wqkv (ix2 o cc))
    (hp : ∀ (cc : Fin 384) (j : Fin 384), V c main_v9 (ix2 cc j) = wproj (ix2 j cc))
    (hb : ∀ j : Fin 384, V c main_v10 (ix2 (0 : Fin 1) j) = bproj (ix1 j)) (t : Fin cfg1.N) :
    (Gen.dat1 V c).flushed 4 t = ((cfg1.win 4).blk t).view.read (Elt Ideal) (Cert.Spec.attnArr win wqkv wproj bproj) := by
  show (cfg1.win 4).cut (grid1.coords t) ((Gen.dat1 V c).after 4 t) = _
  rw [Gen.after1_4]
  funext j
  obtain ⟨a, s, jj, rfl⟩ : ∃ (a : Fin 16) (s : Fin 64) (jj : Fin 384), j = ix3 a s jj := ⟨j 0, j 1, j 2, eq_ix3 j⟩
  show Gen.out1_4 (Gen.iblk1 V c 0 t) (Gen.iblk1 V c 1 t) (Gen.iblk1 V c 2 t) (Gen.iblk1 V c 3 t) (ix3 a s jj)
    = Cert.Spec.attnArr win wqkv wproj bproj (((cfg1.win 4).blk t).view.emb (ix3 a s jj))
  rw [emb_out]
  exact hpay win wqkv wproj bproj (pt t) _ _ _ _
    (fun a' s' c' => by rw [blk_x, hwin]) (fun c' o' => by rw [blk_q, hq]) (fun c' j' => by rw [blk_p, hp])
    (fun j' => by rw [blk_b, hb]) a s jj

/-- An index of the result array is in point t's block iff each coordinate is in the block's range. -/
theorem mem_blk (t : Fin cfg1.N) (i : S1024x64x384.Idx) :
    i ∈ ((cfg1.win 4).blk t).view.set ↔ ∀ a : Fin 3, win1_4.index t a * S16x64x384.size a ≤ (i a).val ∧ (i a).val < win1_4.index t a * S16x64x384.size a + S16x64x384.size a := by
  show i ∈ ((View.whole main_v11).slice (win1_4.rect t)).set ↔ _
  rw [View.set_slice_whole, Rect.mem_set_unit]
  exact Iff.rfl

/-- Every entry of the result array is in some point's block. -/
theorem cover (i : S1024x64x384.Idx) : ∃ t : Fin cfg1.N, (cfg1.win 4).flush t = true ∧ i ∈ ((cfg1.win 4).blk t).view.set := by
  have h0 : (i 0).val < 1024 := (i 0).isLt
  have h1 : (i 1).val < 64 := (i 1).isLt
  have h2 : (i 2).val < 384 := (i 2).isLt
  have hN : cfg1.N = 64 := Gen.N_1
  let t : Fin cfg1.N := ⟨(i 0).val / 16, by omega⟩
  refine ⟨t, Gen.flush1_4 t, ?_⟩
  rw [mem_blk]
  obtain ⟨-, -, -, -, -, -, -, -, -, e0, e1, e2⟩ := idx_facts t
  have ht : t.val = (i 0).val / 16 := rfl
  intro a
  match a with
  | ⟨0, _⟩ => show win1_4.index t (0 : Fin 3) * 16 ≤ (i 0).val ∧ (i 0).val < win1_4.index t (0 : Fin 3) * 16 + 16; omega
  | ⟨1, _⟩ => show win1_4.index t (1 : Fin 3) * 64 ≤ (i 1).val ∧ (i 1).val < win1_4.index t (1 : Fin 3) * 64 + 64; omega
  | ⟨2, _⟩ => show win1_4.index t (2 : Fin 3) * 384 ≤ (i 2).val ∧ (i 2).val < win1_4.index t (2 : Fin 3) * 384 + 384; omega

/-- After the region the result array is the attention of the windows array. -/
theorem final (hpay : PayloadSpec) (c : Dev nD) (win : Cert.Spec.Win.Idx → EReal) (wqkv : Cert.Spec.Wqkv.Idx → EReal)
    (wproj : Cert.Spec.Wproj.Idx → EReal) (bproj : Cert.Spec.V384.Idx → EReal)
    (hwin : V c main_v7 = win)
    (hq : ∀ (cc : Fin 384) (o : Fin 1152), V c main_v8 (ix2 cc o) = wqkv (ix2 o cc))
    (hp : ∀ (cc : Fin 384) (j : Fin 384), V c main_v9 (ix2 cc j) = wproj (ix2 j cc))
    (hb : ∀ j : Fin 384, V c main_v10 (ix2 (0 : Fin 1) j) = bproj (ix1 j)) :
    (Gen.dat1 V c).arrAt 4 cfg1.N = Cert.Spec.attnArr win wqkv wproj bproj :=
  (Gen.dat1 V c).arrAt_eq_of_cover 4 (Cert.Spec.attnArr win wqkv wproj bproj)
    (fun t _ => flushed_eq V hpay c win wqkv wproj bproj hwin hq hp hb t) cover

end Cert.KernelIdeal.KReg1

end
-- ==== Proof.KHost.lean ====
import proofs.«108577_j35562329211765_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout

/-!
# The kernel program's host operations around its two regions, read at the segment boundaries

The arrays the first region enters with, the arrays the second region enters with as functions of the first
region's output and of the launch arguments, and the program's result as a function of the second region's output
and of the first argument.
-/

set_option maxRecDepth 16384

noncomputable section

namespace Cert.KernelIdeal.KHost

open Cert.KernelIdeal Cert.KernelIdeal.Facts₀
open Idealize.ShloMosaic Idealize.ShloMosaic.TcCoe Idealize.ShloMosaic.ValueIdx Idealize.ShloMosaic.StableHlo
open Idealize.SL.Sem

/-- The operations between the first region's output and the second region's first input: channels last, the
    (empty) padding, the 8 × 8 windows gathered. -/
def prepK (y : FVec Ideal S16x384x64x64 .f32) : FVec Ideal S1024x64x384 .f32 :=
  shapeCast S1024x64x384
    (transpose S16x8x8x8x8x384 [0, 1, 3, 2, 4, 5]
      (shapeCast S16x8x8x8x8x384
        (pad S16x64x64x384 ![0, 0, 0, 0] ![0, 0, 0, 0] ![0, 0, 0, 0]
          (transpose S16x64x64x384 [0, 2, 3, 1] y transposes_S16x384x64x64_S16x64x64x384_0_2_3_1)
          (sitofp .f32 (constantI S_ 32 0#32)) pads_S16x64x64x384_S16x64x64x384_000_000_000_000 h_S_)
        shapeCasts_S16x64x64x384_S16x8x8x8x8x384)
      transposes_S16x8x8x8x8x384_S16x8x8x8x8x384_0_1_3_2_4_5)
    shapeCasts_S16x8x8x8x8x384_S1024x64x384

/-- The operations after the second region: the windows scattered back, channels first, the first argument added. -/
def postK (h : FVec Ideal S1024x64x384 .f32) (x : FVec Ideal S16x384x64x64 .f32) : FVec Ideal S16x384x64x64 .f32 :=
  addf
    (transpose S16x384x64x64 [0, 3, 1, 2]
      (shapeCast S16x64x64x384
        (transpose S16x8x8x8x8x384 [0, 1, 3, 2, 4, 5]
          (shapeCast S16x8x8x8x8x384 h shapeCasts_S1024x64x384_S16x8x8x8x8x384)
          transposes_S16x8x8x8x8x384_S16x8x8x8x8x384_0_1_3_2_4_5)
        shapeCasts_S16x8x8x8x8x384_S16x64x64x384)
      transposes_S16x64x64x384_S16x384x64x64_0_3_1_2)
    x

variable (m : (ℓ : Loc nD τ sig) → Buf (Elt Ideal) ℓ) (ρ : Dev nD → PrngReg)

section generic
variable (V : Valuation τ sig (Elt Ideal))

/-- The stretch after the first region, at the transposed output and at the padding's integer zero. -/
theorem after1_v3 :
    StableHlo.after Gen.hostOps1 V (Proc.devRef .tc main_v3)
      = transpose S16x64x64x384 [0, 2, 3, 1] (V (Proc.devRef .tc main_v2)) transposes_S16x384x64x64_S16x64x64x384_0_2_3_1 := by
  after_results

theorem after1_c :
    StableHlo.after Gen.hostOps1 V (Proc.devRef .tc main_c) = constantI S_ 32 0#32 := by
  after_results

/-- The padding call, at its result. -/
theorem after1_1_v4 :
    StableHlo.after Gen.hostOps1_1 V (Proc.devRef .tc main_v4)
      = pad S16x64x64x384 ![0, 0, 0, 0] ![0, 0, 0, 0] ![0, 0, 0, 0] (V (Proc.devRef .tc main_v3) : FVec Ideal S16x64x64x384 .f32)
          (sitofp .f32 (V (Proc.devRef .tc main_c) : IVec S_ 32) : FVec Ideal S_ .f32) pads_S16x64x64x384_S16x64x64x384_000_000_000_000 h_S_ := by
  after_results
  rfl

/-- The stretch before the second region, at its first input. -/
theorem after1_2_v7 :
    StableHlo.after Gen.hostOps1_2 V (Proc.devRef .tc main_v7)
      = shapeCast S1024x64x384
          (transpose S16x8x8x8x8x384 [0, 1, 3, 2, 4, 5]
            (shapeCast S16x8x8x8x8x384 (V (Proc.devRef .tc main_v4) : FVec Ideal S16x64x64x384 .f32) shapeCasts_S16x64x64x384_S16x8x8x8x8x384)
            transposes_S16x8x8x8x8x384_S16x8x8x8x8x384_0_1_3_2_4_5)
          shapeCasts_S16x8x8x8x8x384_S1024x64x384 := by
  after_results
  rfl

end generic

section generic2
variable (V : Valuation τ sig (Elt Ideal))

/-! The argument arrays are written by no host operation. -/

theorem after2_arg0 : StableHlo.after Gen.hostOps2 V (Proc.devRef .tc main_arg0) = V (Proc.devRef .tc main_arg0) := by
  after_results

theorem after2_arg3 : StableHlo.after Gen.hostOps2 V (Proc.devRef .tc main_arg3) = V (Proc.devRef .tc main_arg3) := by
  after_results

theorem after2_arg4 : StableHlo.after Gen.hostOps2 V (Proc.devRef .tc main_arg4) = V (Proc.devRef .tc main_arg4) := by
  after_results

theorem after2_arg5 : StableHlo.after Gen.hostOps2 V (Proc.devRef .tc main_arg5) = V (Proc.devRef .tc main_arg5) := by
  after_results

theorem after1_2_arg3 : StableHlo.after Gen.hostOps1_2 V (Proc.devRef .tc main_arg3) = V (Proc.devRef .tc main_arg3) := by
  after_results

theorem after1_2_arg4 : StableHlo.after Gen.hostOps1_2 V (Proc.devRef .tc main_arg4) = V (Proc.devRef .tc main_arg4) := by
  after_results

theorem after1_2_arg5 : StableHlo.after Gen.hostOps1_2 V (Proc.devRef .tc main_arg5) = V (Proc.devRef .tc main_arg5) := by
  after_results

/-- The stretch before the second region, at its three weight inputs. -/
theorem after1_2_v8 :
    StableHlo.after Gen.hostOps1_2 V (Proc.devRef .tc main_v8)
      = transpose S384x1152 [1, 0] (V (Proc.devRef .tc main_arg3) : FVec Ideal S1152x384 .f32) transposes_S1152x384_S384x1152_1_0 := by
  after_results

theorem after1_2_v9 :
    StableHlo.after Gen.hostOps1_2 V (Proc.devRef .tc main_v9)
      = transpose S384x384 [1, 0] (V (Proc.devRef .tc main_arg4) : FVec Ideal S384x384 .f32) transposes_S384x384_S384x384_1_0 := by
  after_results

theorem after1_2_v10 :
    StableHlo.after Gen.hostOps1_2 V (Proc.devRef .tc main_v10)
      = shapeCast S1x384 (V (Proc.devRef .tc main_arg5) : FVec Ideal S384 .f32) shapeCasts_S384_S1x384 := by
  after_results
  rfl

/-- The stretch after the second region, at the program's result. -/
theorem after2_v16 :
    StableHlo.after Gen.hostOps2 V (Proc.devRef .tc main_v16)
      = postK (V (Proc.devRef .tc main_v11)) (V (Proc.devRef .tc main_arg0)) := by
  after_results
  rfl

end generic2

/-! ## The first region's inputs -/

theorem V1_arg0 (c : Dev nD) : Gen.V1 m ρ c main_arg0 = m ((c : Thread nD τ).loc main_arg0) := by
  show StableHlo.after Gen.hostOps0 (Gen.W0 m ρ c) (Proc.devRef .tc main_arg0) = _
  after_results

theorem V1_v0 (c : Dev nD) :
    Gen.V1 m ρ c main_v0 = shapeCast S4x96x1x1 (m ((c : Thread nD τ).loc main_arg1)) shapeCasts_S384_S4x96x1x1 := by
  show StableHlo.after Gen.hostOps0 (Gen.W0 m ρ c) (Proc.devRef .tc main_v0) = _
  after_results
  rfl

theorem V1_v1 (c : Dev nD) :
    Gen.V1 m ρ c main_v1 = shapeCast S4x96x1x1 (m ((c : Thread nD τ).loc main_arg2)) shapeCasts_S384_S4x96x1x1 := by
  show StableHlo.after Gen.hostOps0 (Gen.W0 m ρ c) (Proc.devRef .tc main_v1) = _
  after_results
  rfl

/-! ## The second region's inputs -/

/-- Its first input is the first region's output, prepared. -/
theorem V5_v7 (c : Dev nD) : Gen.V5 m ρ c main_v7 = prepK (Gen.W2 m ρ c (Proc.devRef .tc main_v2)) := by
  refine (after1_2_v7 (Gen.W4 m ρ c)).trans ?_
  have h4 : Gen.W4 m ρ c (Proc.devRef .tc main_v4) = _ := after1_1_v4 (Gen.W3 m ρ c)
  have h3 : Gen.W3 m ρ c (Proc.devRef .tc main_v3) = _ := after1_v3 (Gen.W2 m ρ c)
  have hc : Gen.W3 m ρ c (Proc.devRef .tc main_c) = _ := after1_c (Gen.W2 m ρ c)
  unfold prepK
  rw [h4, h3, hc]

/-! The weight arguments reach the second region's entry as launched. -/

theorem W4_arg3 (c : Dev nD) : Gen.W4 m ρ c (Proc.devRef .tc main_arg3) = m ((c : Thread nD τ).loc main_arg3) :=
  calc Gen.W4 m ρ c (Proc.devRef .tc main_arg3)
    _ = Gen.W5 m ρ c (Proc.devRef .tc main_arg3) := (after1_2_arg3 (Gen.W4 m ρ c)).symm
    _ = Gen.W6 m ρ c (Proc.devRef .tc main_arg3) := (Gen.W6_of_ne m ρ c main_arg3 (by decide)).symm
    _ = Gen.W7 m ρ c (Proc.devRef .tc main_arg3) := (after2_arg3 (Gen.W6 m ρ c)).symm
    _ = m ((c : Thread nD τ).loc main_arg3) := Gen.W7_main_arg3 m ρ c

theorem W4_arg4 (c : Dev nD) : Gen.W4 m ρ c (Proc.devRef .tc main_arg4) = m ((c : Thread nD τ).loc main_arg4) :=
  calc Gen.W4 m ρ c (Proc.devRef .tc main_arg4)
    _ = Gen.W5 m ρ c (Proc.devRef .tc main_arg4) := (after1_2_arg4 (Gen.W4 m ρ c)).symm
    _ = Gen.W6 m ρ c (Proc.devRef .tc main_arg4) := (Gen.W6_of_ne m ρ c main_arg4 (by decide)).symm
    _ = Gen.W7 m ρ c (Proc.devRef .tc main_arg4) := (after2_arg4 (Gen.W6 m ρ c)).symm
    _ = m ((c : Thread nD τ).loc main_arg4) := Gen.W7_main_arg4 m ρ c

theorem W4_arg5 (c : Dev nD) : Gen.W4 m ρ c (Proc.devRef .tc main_arg5) = m ((c : Thread nD τ).loc main_arg5) :=
  calc Gen.W4 m ρ c (Proc.devRef .tc main_arg5)
    _ = Gen.W5 m ρ c (Proc.devRef .tc main_arg5) := (after1_2_arg5 (Gen.W4 m ρ c)).symm
    _ = Gen.W6 m ρ c (Proc.devRef .tc main_arg5) := (Gen.W6_of_ne m ρ c main_arg5 (by decide)).symm
    _ = Gen.W7 m ρ c (Proc.devRef .tc main_arg5) := (after2_arg5 (Gen.W6 m ρ c)).symm
    _ = m ((c : Thread nD τ).loc main_arg5) := Gen.W7_main_arg5 m ρ c

/-- The joint projection's weight, transposed. -/
theorem V5_v8 (c : Dev nD) (cc : Fin 384) (o : Fin 1152) :
    Gen.V5 m ρ c main_v8 (ix2 cc o) = m ((c : Thread nD τ).loc main_arg3) (ix2 o cc) := by
  refine (congrFun (after1_2_v8 (Gen.W4 m ρ c)) (ix2 cc o)).trans ?_
  refine (transpose_apply _ _ _ (ix2 cc o) (ix2 o cc) (fun b => by
    match b with
    | ⟨0, _⟩ => rfl
    | ⟨1, _⟩ => rfl)).trans ?_
  exact congrFun (W4_arg3 m ρ c) (ix2 o cc)

/-- The output projection's weight, transposed. -/
theorem V5_v9 (c : Dev nD) (cc j : Fin 384) :
    Gen.V5 m ρ c main_v9 (ix2 cc j) = m ((c : Thread nD τ).loc main_arg4) (ix2 j cc) := by
  refine (congrFun (after1_2_v9 (Gen.W4 m ρ c)) (ix2 cc j)).trans ?_
  refine (transpose_apply _ _ _ (ix2 cc j) (ix2 j cc) (fun b => by
    match b with
    | ⟨0, _⟩ => rfl
    | ⟨1, _⟩ => rfl)).trans ?_
  exact congrFun (W4_arg4 m ρ c) (ix2 j cc)

/-- The bias as a row. -/
theorem V5_v10 (c : Dev nD) (j : Fin 384) :
    Gen.V5 m ρ c main_v10 (ix2 (0 : Fin 1) j) = m ((c : Thread nD τ).loc main_arg5) (ix1 j) := by
  refine (congrFun (after1_2_v10 (Gen.W4 m ρ c)) (ix2 (0 : Fin 1) j)).trans ?_
  refine (shapeCast_a_1a_apply _ _ (0 : Fin 1) j).trans ?_
  exact congrFun (W4_arg5 m ρ c) (ix1 j)

/-! ## The program's result -/

theorem W6_arg0 (c : Dev nD) : Gen.W6 m ρ c (Proc.devRef .tc main_arg0) = m ((c : Thread nD τ).loc main_arg0) :=
  (after2_arg0 (Gen.W6 m ρ c)).symm.trans (Gen.W7_main_arg0 m ρ c)

/-- The result is the second region's output, returned to the input's layout, plus the first argument. -/
theorem W7_v16 (c : Dev nD) :
    Gen.W7 m ρ c (Proc.devRef .tc main_v16)
      = postK (Gen.W6 m ρ c (Proc.devRef .tc main_v11)) (m ((c : Thread nD τ).loc main_arg0)) := by
  refine (after2_v16 (Gen.W6 m ρ c)).trans ?_
  rw [W6_arg0]

end Cert.KernelIdeal.KHost

end
-- ==== Proof.KValue.lean ====
import proofs.«108577_j35562329211765_2_alg».proof.Proof.KReg0
import proofs.«108577_j35562329211765_2_alg».proof.Proof.KReg1
import proofs.«108577_j35562329211765_2_alg».proof.Proof.KHost
import proofs.«108577_j35562329211765_2_alg».proof.Proof.KRun

/-!
# The idealized kernel's result as one function of its arguments

Reading the run's last boundary backwards: the result is the window-unpartition of the second region's array plus the
input; that array is the attention of the region's windows array; the windows array is the window-partition of the
first region's array; and that array is the group normalisation of the input. The input's entries are real numbers
(the precondition), which is what the first region's variance needs.
-/

set_option maxRecDepth 16384

noncomputable section

namespace Cert.KernelIdeal.KValue

open Cert.KernelIdeal Cert.KernelIdeal.Facts₀
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The kernel's function of its six arguments, the first with real entries xr. -/
def out (xr : Cert.Spec.X4.Idx → ℝ) (x : FVec Ideal S16x384x64x64 .f32) (w b : FVec Ideal S384 .f32)
    (wqkv : FVec Ideal S1152x384 .f32) (wproj : FVec Ideal S384x384 .f32) (bproj : FVec Ideal S384 .f32) :
    FVec Ideal S16x384x64x64 .f32 :=
  KHost.postK (Cert.Spec.attnArr (KHost.prepK (Cert.Spec.gnArr xr w b)) wqkv wproj bproj) x

/-- The first region's array at its exit. -/
theorem W2_v2 (c : Dev nD) (xr : Cert.Spec.X4.Idx → ℝ)
    (hx : ∀ i, m ((c : Thread nD τ).loc main_arg0) i = ((xr i : ℝ) : EReal)) :
    Gen.W2 m ρ c (Proc.devRef .tc main_v2)
      = Cert.Spec.gnArr xr (m ((c : Thread nD τ).loc main_arg1)) (m ((c : Thread nD τ).loc main_arg2)) :=
  (Gen.W2_arr m ρ c 3).trans
    (KReg0.final (Gen.V1 m ρ) c xr _ _ (fun i => by rw [KHost.V1_arg0]; exact hx i) (KHost.V1_v0 m ρ c) (KHost.V1_v1 m ρ c))

/-- The second region's array at its exit. -/
theorem W6_v11 (hpay : KReg1.PayloadSpec) (c : Dev nD) (xr : Cert.Spec.X4.Idx → ℝ)
    (hx : ∀ i, m ((c : Thread nD τ).loc main_arg0) i = ((xr i : ℝ) : EReal)) :
    Gen.W6 m ρ c (Proc.devRef .tc main_v11)
      = Cert.Spec.attnArr (KHost.prepK (Cert.Spec.gnArr xr (m ((c : Thread nD τ).loc main_arg1)) (m ((c : Thread nD τ).loc main_arg2))))
          (m ((c : Thread nD τ).loc main_arg3)) (m ((c : Thread nD τ).loc main_arg4)) (m ((c : Thread nD τ).loc main_arg5)) :=
  (Gen.W6_arr m ρ c 4).trans
    (KReg1.final (Gen.V5 m ρ) hpay c _ _ _ _ ((KHost.V5_v7 m ρ c).trans (congrArg KHost.prepK (W2_v2 m ρ c xr hx)))
      (KHost.V5_v8 m ρ c) (KHost.V5_v9 m ρ c) (KHost.V5_v10 m ρ c))

/-- The result buffer at the run's end. -/
theorem W7_v16 (hpay : KReg1.PayloadSpec) (c : Dev nD) (xr : Cert.Spec.X4.Idx → ℝ)
    (hx : ∀ i, m ((c : Thread nD τ).loc main_arg0) i = ((xr i : ℝ) : EReal)) :
    Gen.W7 m ρ c (Proc.devRef .tc main_v16)
      = out xr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (KHost.W7_v16 m ρ c).trans (congrArg (fun h => KHost.postK h (m ((c : Thread nD τ).loc main_arg0))) (W6_v11 m ρ hpay c xr hx))

end Cert.KernelIdeal.KValue

end
-- ==== Proof.LibBatchContract.lean ====
/-
  Batched matrix products as plain sums, for any extents and any dimension record of the right shape.

  With one batch axis in front: a product of [B, M, K] with [B, N, K] contracting the LAST axis of both sums, at the
  result index (b, m, n), the products l (b, m, k) · r (b, n, k) over k < K; a product of [B, M, K] with [B, K, N]
  contracting the left operand's last axis with the right operand's middle one sums l (b, m, k) · r (b, k, n).
  What the record owes is one contracting axis of extent K at those positions, and free and batch axes that read the
  result's coordinates.
-/
import Idealize.ShloMosaic.Lib.ValueIdx

noncomputable section

open scoped BigOperators

namespace Idealize.ShloMosaic.BatchContract

open Idealize.ShloMosaic Idealize.ShloMosaic.ValueIdx

/-- `[B, M, K] · [B, N, K] → [B, M, N]`, the last axes contracted. -/
theorem sum_contr_last_last {B M N K : ℕ} {R : Type*} [AddCommMonoid R] [Mul R]
    (D : DotDims (⟨3, ![B, M, K]⟩ : Shape) (⟨3, ![B, N, K]⟩ : Shape) (⟨3, ![B, M, N]⟩ : Shape))
    (hr : D.contr.rank = 1) (hs : D.contr.size ⟨0, by omega⟩ = K)
    (hlc : D.lhsContracting = [2]) (hrc : D.rhsContracting = [2])
    (hl0 : ∀ j q, (D.lhsIdx j q 0).val = (j 0).val) (hl1 : ∀ j q, (D.lhsIdx j q 1).val = (j 1).val)
    (hr0 : ∀ j q, (D.rhsIdx j q 0).val = (j 0).val) (hr1 : ∀ j q, (D.rhsIdx j q 1).val = (j 2).val)
    (l : (⟨3, ![B, M, K]⟩ : Shape).Idx → R) (r : (⟨3, ![B, N, K]⟩ : Shape).Idx → R) (j : (⟨3, ![B, M, N]⟩ : Shape).Idx) :
    ∑ q : D.contr.Idx, l (D.lhsIdx j q) * r (D.rhsIdx j q)
      = ∑ k : Fin K, l (ix3 (j 0) (j 1) k) * r (ix3 (j 0) (j 2) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix3 (j 0) (j 1) k := funext fun a => Fin.ext (by
    match a with
    | ⟨0, _⟩ => exact hl0 _ _
    | ⟨1, _⟩ => exact hl1 _ _
    | ⟨2, _⟩ => exact h1.trans hk)
  have er : D.rhsIdx j ((contrEquiv1 D K hr hs).symm k) = ix3 (j 0) (j 2) k := funext fun a => Fin.ext (by
    match a with
    | ⟨0, _⟩ => exact hr0 _ _
    | ⟨1, _⟩ => exact hr1 _ _
    | ⟨2, _⟩ => exact h2.trans hk)
  exact congrArg₂ (· * ·) (congrArg l el) (congrArg r er)

/-- `[B, M, K] · [B, K, N] → [B, M, N]`, the left operand's last axis contracted with the right operand's middle one. -/
theorem sum_contr_last_mid {B M N K : ℕ} {R : Type*} [AddCommMonoid R] [Mul R]
    (D : DotDims (⟨3, ![B, M, K]⟩ : Shape) (⟨3, ![B, K, N]⟩ : Shape) (⟨3, ![B, M, N]⟩ : Shape))
    (hr : D.contr.rank = 1) (hs : D.contr.size ⟨0, by omega⟩ = K)
    (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (l : (⟨3, ![B, M, K]⟩ : Shape).Idx → R) (r : (⟨3, ![B, K, N]⟩ : Shape).Idx → R) (j : (⟨3, ![B, M, N]⟩ : Shape).Idx) :
    ∑ q : D.contr.Idx, l (D.lhsIdx j q) * r (D.rhsIdx j q)
      = ∑ k : Fin K, l (ix3 (j 0) (j 1) k) * r (ix3 (j 0) k (j 2)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix3 (j 0) (j 1) k := funext fun a => Fin.ext (by
    match a with
    | ⟨0, _⟩ => exact hl0 _ _
    | ⟨1, _⟩ => exact hl1 _ _
    | ⟨2, _⟩ => exact h1.trans hk)
  have er : D.rhsIdx j ((contrEquiv1 D K hr hs).symm k) = ix3 (j 0) k (j 2) := funext fun a => Fin.ext (by
    match a with
    | ⟨0, _⟩ => exact hr0 _ _
    | ⟨1, _⟩ => exact h2.trans hk
    | ⟨2, _⟩ => exact hr2 _ _)
  exact congrArg₂ (· * ·) (congrArg l el) (congrArg r er)

end Idealize.ShloMosaic.BatchContract

end
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.KAttnHead.lean ====
import proofs.«108577_j35562329211765_2_alg».proof.Proof.Gen.KernelIdeal.Skeleton
import proofs.«108577_j35562329211765_2_alg».proof.Proof.Spec
import proofs.«108577_j35562329211765_2_alg».proof.Proof.LibBatchContract
import proofs.«108577_j35562329211765_2_alg».proof.Proof.LibLane3
import proofs.«108577_j35562329211765_2_alg».proof.Proof.LibLayout3
import Idealize.ShloMosaic.PureOps.Ideal.Laws
import Idealize.ShloMosaic.Lib.ValueIdx
import Idealize.ShloMosaic.Lib.Pipeline.Value

noncomputable section

open scoped BigOperators

namespace Cert.KernelIdeal.KAttn

open Idealize.ShloMosaic Idealize.ShloMosaic.ValueIdx Cert.KernelIdeal Cert.KernelIdeal.Gen

/-! # One attention head of the kernel body, read at an index

The scores, the row maximum, the shifted exponentials, the softmax weights and the weighted sum of values, each as a
function of the joint projection array and three column offsets; then each stage read at an index, and the whole head
against the specification's head. -/

/-- A block of 48 columns of the projection from column o on. -/
theorem slice_apply (o : ℕ) (v8 : FVec Ideal S16x64x1152 .f32) (h : S16x64x1152.Slices ![0, 0, o] S16x64x48)
    (a : Fin 16) (s : Fin 64) (d : Fin 48) (c : Fin 1152) (hc : c.val = o + d.val) :
    extractStridedSlice S16x64x48 ![0, 0, o] v8 h (ix3 a s d) = v8 (ix3 a s c) :=
  extractStridedSlice_apply ![0, 0, o] v8 h (ix3 a s d) (ix3 a s c) fun ax => by
    match ax with
    | ⟨0, _⟩ => exact (Nat.zero_add a.val).symm
    | ⟨1, _⟩ => exact (Nat.zero_add s.val).symm
    | ⟨2, _⟩ => exact hc

/-- The batched product contracting the last axis of both operands, into zero. -/
theorem score_apply (l r : FVec Ideal S16x64x48 .bf16) (a : Fin 16) (q k : Fin 64) :
    matmul dot_S16x64x48_S16x64x48_S16x64x64_2_2_1_1_0_0 none l r (constant S16x64x64 .f32 0x00000000#32) (ix3 a q k)
      = ∑ d : Fin 48, l (ix3 a q d) * r (ix3 a k d) := by
  refine (Ideal.matmul_constant_zero_apply _ none l r (ix3 a q k)).trans ?_
  exact BatchContract.sum_contr_last_last dot_S16x64x48_S16x64x48_S16x64x64_2_2_1_1_0_0 rfl rfl rfl rfl
    (fun j q => rfl) (fun j q => rfl) (fun j q => rfl) (fun j q => rfl) l r (ix3 a q k)

/-- The batched product contracting the left operand's last axis with the right operand's middle one, into zero. -/
theorem pv_apply (p : FVec Ideal S16x64x64 .bf16) (v : FVec Ideal S16x64x48 .bf16) (a : Fin 16) (q : Fin 64) (d : Fin 48) :
    matmul dot_S16x64x64_S16x64x48_S16x64x48_2_1_1_2_0_0 none p v (constant S16x64x48 .f32 0x00000000#32) (ix3 a q d)
      = ∑ k : Fin 64, p (ix3 a q k) * v (ix3 a k d) := by
  refine (Ideal.matmul_constant_zero_apply _ none p v (ix3 a q d)).trans ?_
  exact BatchContract.sum_contr_last_mid dot_S16x64x64_S16x64x48_S16x64x48_2_1_1_2_0_0 rfl rfl rfl rfl
    (fun j q => rfl) (fun j q => rfl) (fun j q => rfl) (fun j q => rfl) p v (ix3 a q d)

/-- The scaled scores of a head: queries from column oq on, keys from column ok on. -/
def scoreK (v8 : FVec Ideal S16x64x1152 .f32) (oq ok : ℕ) (hq : S16x64x1152.Slices ![0, 0, oq] S16x64x48)
    (hk : S16x64x1152.Slices ![0, 0, ok] S16x64x48) : FVec Ideal S16x64x64 .f32 :=
  matmul dot_S16x64x48_S16x64x48_S16x64x64_2_2_1_1_0_0 none
    (truncf .bf16 (mulf (extractStridedSlice S16x64x48 ![0, 0, oq] v8 hq) (broadcast S16x64x48 (Scalar.ofBits .f32 0x3E13CD3A#32))) bitsLt_bf16_f32)
    (truncf .bf16 (extractStridedSlice S16x64x48 ![0, 0, ok] v8 hk) bitsLt_bf16_f32)
    (constant S16x64x64 .f32 0x00000000#32)

/-- The row maximum of the scores, kept as a unit last axis. -/
def rowmaxK (sc : FVec Ideal S16x64x64 .f32) : FVec Ideal S16x64x1 .f32 :=
  shapeCast S16x64x1 (maximumf (broadcast S16x64 (Scalar.ofBits .f32 0xFF800000#32))
    (multiReduction .maximumf [2] S16x64 sc 0xFF800000#32 reduces_S16x64x64_S16x64 (.inl rfl) rfl)) shapeCasts_S16x64_S16x64x1

/-- The exponentials of the scores less their row maximum. -/
def expK (sc : FVec Ideal S16x64x64 .f32) (mx : FVec Ideal S16x64x1 .f32) : FVec Ideal S16x64x64 .f32 :=
  exp (subf sc (broadcastTo S16x64x64 mx broadcasts_S16x64x1_S16x64x64))

/-- The exponentials divided by their row sum. -/
def probK (e : FVec Ideal S16x64x64 .f32) : FVec Ideal S16x64x64 .f32 :=
  divf e (broadcastTo S16x64x64 (shapeCast S16x64x1 (multiReduction .add [2] S16x64 e 0x00000000#32 reduces_S16x64x64_S16x64 (.inl rfl) rfl)
    shapeCasts_S16x64_S16x64x1) broadcasts_S16x64x1_S16x64x64)

/-- The weights applied to the values. -/
def outK (v : FVec Ideal S16x64x48 .f32) (p : FVec Ideal S16x64x64 .f32) : FVec Ideal S16x64x48 .f32 :=
  matmul dot_S16x64x64_S16x64x48_S16x64x48_2_1_1_2_0_0 none (truncf .bf16 p bitsLt_bf16_f32) (truncf .bf16 v bitsLt_bf16_f32)
    (constant S16x64x48 .f32 0x00000000#32)

/-- A whole head: values from column ov on. -/
def headK (v8 : FVec Ideal S16x64x1152 .f32) (oq ok ov : ℕ) (hq : S16x64x1152.Slices ![0, 0, oq] S16x64x48)
    (hk : S16x64x1152.Slices ![0, 0, ok] S16x64x48) (hv : S16x64x1152.Slices ![0, 0, ov] S16x64x48) : FVec Ideal S16x64x48 .f32 :=
  outK (extractStridedSlice S16x64x48 ![0, 0, ov] v8 hv) (probK (expK (scoreK v8 oq ok hq hk) (rowmaxK (scoreK v8 oq ok hq hk))))

theorem scoreK_apply (v8 : FVec Ideal S16x64x1152 .f32) (oq ok : ℕ) (hq : S16x64x1152.Slices ![0, 0, oq] S16x64x48)
    (hk : S16x64x1152.Slices ![0, 0, ok] S16x64x48) (cq ck : Fin 48 → Fin 1152) (hcq : ∀ d, (cq d).val = oq + d.val)
    (hck : ∀ d, (ck d).val = ok + d.val) (a : Fin 16) (q k : Fin 64) :
    scoreK v8 oq ok hq hk (ix3 a q k) = ∑ d : Fin 48, (v8 (ix3 a q (cq d)) * Spec.scaleW) * v8 (ix3 a k (ck d)) := by
  unfold scoreK
  refine (score_apply _ _ a q k).trans (Finset.sum_congr rfl fun d _ => ?_)
  show (extractStridedSlice S16x64x48 ![0, 0, oq] v8 hq (ix3 a q d) * Spec.scaleW) * extractStridedSlice S16x64x48 ![0, 0, ok] v8 hk (ix3 a k d) = _
  rw [slice_apply oq v8 hq a q d (cq d) (hcq d), slice_apply ok v8 hk a k d (ck d) (hck d)]

theorem rowmaxK_apply (sc : FVec Ideal S16x64x64 .f32) (a : Fin 16) (q : Fin 64) (u : Fin 1) :
    rowmaxK sc (ix3 a q u) = max Spec.ninfW ((Finset.univ : Finset (Fin 64)).fold max Spec.ninfW (fun k => sc (ix3 a q k))) := by
  unfold rowmaxK
  refine (Layout3.shapeCast_ab_ab1_apply _ shapeCasts_S16x64_S16x64x1 a q u).trans ?_
  refine congrArg (max Spec.ninfW) ?_
  exact Lane3.multiReduction_max_last_apply sc _ reduces_S16x64x64_S16x64 (.inl rfl) rfl a q

theorem expK_apply (sc : FVec Ideal S16x64x64 .f32) (mx : FVec Ideal S16x64x1 .f32) (a : Fin 16) (q k : Fin 64) :
    expK sc mx (ix3 a q k) = Ideal.exp (sc (ix3 a q k) - mx (ix3 a q (0 : Fin 1))) := by
  unfold expK
  show Ideal.exp (sc (ix3 a q k) - broadcastTo S16x64x64 mx broadcasts_S16x64x1_S16x64x64 (ix3 a q k)) = _
  rw [Layout3.broadcastTo_ab1_abc_apply mx broadcasts_S16x64x1_S16x64x64 a q k]

theorem probK_apply (e : FVec Ideal S16x64x64 .f32) (a : Fin 16) (q k : Fin 64) :
    probK e (ix3 a q k) = Ideal.div (e (ix3 a q k)) (∑ k' : Fin 64, e (ix3 a q k')) := by
  unfold probK
  refine congrArg (Ideal.div (e (ix3 a q k))) ?_
  refine (Layout3.broadcastTo_ab1_abc_apply _ broadcasts_S16x64x1_S16x64x64 a q k).trans ?_
  refine (Layout3.shapeCast_ab_ab1_apply _ shapeCasts_S16x64_S16x64x1 a q (0 : Fin 1)).trans ?_
  exact Lane3.multiReduction_add_last_apply e _ reduces_S16x64x64_S16x64 (.inl rfl) rfl a q

theorem outK_apply (v : FVec Ideal S16x64x48 .f32) (p : FVec Ideal S16x64x64 .f32) (a : Fin 16) (q : Fin 64) (d : Fin 48) :
    outK v p (ix3 a q d) = ∑ k : Fin 64, p (ix3 a q k) * v (ix3 a k d) :=
  pv_apply _ _ a q d

/-- A head of the kernel body is the specification's head, when the projection array holds the specification's
    joint projection of the windows n a. -/
theorem headK_apply (win : Spec.Win.Idx → EReal) (wqkv : Spec.Wqkv.Idx → EReal) (n : Fin 16 → Fin 1024)
    (v8 : FVec Ideal S16x64x1152 .f32) (hv8 : ∀ (a : Fin 16) (s : Fin 64) (o : Fin 1152), v8 (ix3 a s o) = Spec.qkv win wqkv (n a) s o)
    (h : Fin 8) (oq ok ov : ℕ) (hoq : oq = h.val * 48) (hok : ok = 384 + h.val * 48) (hov : ov = 768 + h.val * 48)
    (hq : S16x64x1152.Slices ![0, 0, oq] S16x64x48) (hk : S16x64x1152.Slices ![0, 0, ok] S16x64x48)
    (hv : S16x64x1152.Slices ![0, 0, ov] S16x64x48) (a : Fin 16) (q : Fin 64) (d : Fin 48) :
    headK v8 oq ok ov hq hk hv (ix3 a q d) = Spec.head win wqkv (n a) h q d := by
  have hh : h.val < 8 := h.isLt
  have cq : ∀ d : Fin 48, (Spec.col 0 h d).val = oq + d.val := fun d => by
    show (0 : Fin 3).val * 384 + h.val * 48 + d.val = _; rw [hoq]; simp
  have ck : ∀ d : Fin 48, (Spec.col 1 h d).val = ok + d.val := fun d => by
    show (1 : Fin 3).val * 384 + h.val * 48 + d.val = _; rw [hok]; simp
  have cv : ∀ d : Fin 48, (Spec.col 2 h d).val = ov + d.val := fun d => by
    show (2 : Fin 3).val * 384 + h.val * 48 + d.val = _; rw [hov]; simp
  have hs : ∀ q k : Fin 64, scoreK v8 oq ok hq hk (ix3 a q k) = Spec.logit win wqkv (n a) h q k := fun q k => by
    refine (scoreK_apply v8 oq ok hq hk (Spec.col 0 h) (Spec.col 1 h) cq ck a q k).trans ?_
    unfold Spec.logit
    exact Finset.sum_congr rfl fun d _ => by rw [hv8, hv8]
  have hm : ∀ q : Fin 64, rowmaxK (scoreK v8 oq ok hq hk) (ix3 a q (0 : Fin 1)) = Spec.rowmax win wqkv (n a) h q := fun q => by
    refine (rowmaxK_apply _ a q 0).trans ?_
    unfold Spec.rowmax
    exact congrArg (max Spec.ninfW) (Finset.fold_congr fun k _ => hs q k)
  have he : ∀ q k : Fin 64, expK (scoreK v8 oq ok hq hk) (rowmaxK (scoreK v8 oq ok hq hk)) (ix3 a q k) = Spec.expo win wqkv (n a) h q k :=
    fun q k => by
      refine (expK_apply _ _ a q k).trans ?_
      unfold Spec.expo
      rw [hs, hm]
  have hp : ∀ q k : Fin 64, probK (expK (scoreK v8 oq ok hq hk) (rowmaxK (scoreK v8 oq ok hq hk))) (ix3 a q k) = Spec.prob win wqkv (n a) h q k :=
    fun q k => by
      refine (probK_apply _ a q k).trans ?_
      unfold Spec.prob Spec.denom
      rw [he]
      exact congrArg _ (Finset.sum_congr rfl fun k' _ => he q k')
  unfold headK
  refine (outK_apply _ _ a q d).trans ?_
  unfold Spec.head
  refine Finset.sum_congr rfl fun k _ => ?_
  rw [hp, slice_apply ov v8 hv a k d (Spec.col 2 h d) (cv d), hv8]

end Cert.KernelIdeal.KAttn

end
-- ==== Proof.KAttnPay.lean ====
import proofs.«108577_j35562329211765_2_alg».proof.Proof.Gen.KernelIdeal.Skeleton
import proofs.«108577_j35562329211765_2_alg».proof.Proof.KAttnHead
import Idealize.ShloMosaic.PureOps.Ideal.Laws
import Idealize.ShloMosaic.Lib.ValueIdx
import Idealize.ShloMosaic.Lib.Pipeline.Value

noncomputable section

open scoped BigOperators

namespace Cert.KernelIdeal.KAttn

open Idealize.ShloMosaic Idealize.ShloMosaic.ValueIdx Cert.KernelIdeal Cert.KernelIdeal.Gen

/-! # The body's payload pieces are the stages of a head

Each head's operations are cut across the payloads at different places; every piece is one of the stage functions. -/

section
variable (x0 : Vec Ideal S16x64x384 .f32) (x1 : Vec Ideal S384x1152 .f32) (v8 : FVec Ideal S16x64x1152 .f32)

theorem pay3_eq : k1_pay3 (F := Ideal) x0 x1 = headK (k1_pay2 x0 x1) 0 384 768 slices_S16x64x1152_o0_0_0_S16x64x48
    slices_S16x64x1152_o0_0_384_S16x64x48 slices_S16x64x1152_o0_0_768_S16x64x48 := rfl

theorem pay4_eq : k1_pay4 (F := Ideal) x0 x1 = extractStridedSlice S16x64x48 ![0, 0, 816] (k1_pay2 x0 x1) slices_S16x64x1152_o0_0_816_S16x64x48 := rfl

theorem pay5_eq : k1_pay5 (F := Ideal) x0 x1 = scoreK (k1_pay2 x0 x1) 48 432 slices_S16x64x1152_o0_0_48_S16x64x48
    slices_S16x64x1152_o0_0_432_S16x64x48 := rfl

theorem pay6_eq : k1_pay6 (F := Ideal) x0 x1 = rowmaxK (k1_pay5 x0 x1) := rfl

theorem pay7_eq (v33 : FVec Ideal S16x64x48 .f32) (v38 : FVec Ideal S16x64x64 .f32) (v42 : FVec Ideal S16x64x1 .f32) :
    k1_pay7 (F := Ideal) v33 v38 v42 = outK v33 (probK (expK v38 v42)) := rfl

theorem pay8_eq : k1_pay8 (F := Ideal) v8 = headK v8 96 480 864 slices_S16x64x1152_o0_0_96_S16x64x48
    slices_S16x64x1152_o0_0_480_S16x64x48 slices_S16x64x1152_o0_0_864_S16x64x48 := rfl

theorem pay9_eq : k1_pay9 (F := Ideal) v8 = extractStridedSlice S16x64x48 ![0, 0, 912] v8 slices_S16x64x1152_o0_0_912_S16x64x48 := rfl

theorem pay10_eq : k1_pay10 (F := Ideal) v8 = expK (scoreK v8 144 528 slices_S16x64x1152_o0_0_144_S16x64x48 slices_S16x64x1152_o0_0_528_S16x64x48)
    (rowmaxK (scoreK v8 144 528 slices_S16x64x1152_o0_0_144_S16x64x48 slices_S16x64x1152_o0_0_528_S16x64x48)) := rfl

theorem pay11_eq (v77 : FVec Ideal S16x64x48 .f32) (v89 : FVec Ideal S16x64x64 .f32) :
    k1_pay11 (F := Ideal) v77 v89 = outK v77 (probK v89) := rfl

theorem pay12_eq : k1_pay12 (F := Ideal) v8 = headK v8 192 576 960 slices_S16x64x1152_o0_0_192_S16x64x48
    slices_S16x64x1152_o0_0_576_S16x64x48 slices_S16x64x1152_o0_0_960_S16x64x48 := rfl

theorem pay13_eq : k1_pay13 (F := Ideal) v8 = extractStridedSlice S16x64x48 ![0, 0, 1008] v8 slices_S16x64x1152_o0_0_1008_S16x64x48 := rfl

theorem pay14_eq : k1_pay14 (F := Ideal) v8 = probK (expK (scoreK v8 240 624 slices_S16x64x1152_o0_0_240_S16x64x48 slices_S16x64x1152_o0_0_624_S16x64x48)
    (rowmaxK (scoreK v8 240 624 slices_S16x64x1152_o0_0_240_S16x64x48 slices_S16x64x1152_o0_0_624_S16x64x48))) := rfl

theorem pay15_eq (v121 : FVec Ideal S16x64x48 .f32) (v137 : FVec Ideal S16x64x64 .f32) :
    k1_pay15 (F := Ideal) v121 v137 = outK v121 v137 := rfl

theorem pay16_eq : k1_pay16 (F := Ideal) v8 = headK v8 288 672 1056 slices_S16x64x1152_o0_0_288_S16x64x48
    slices_S16x64x1152_o0_0_672_S16x64x48 slices_S16x64x1152_o0_0_1056_S16x64x48 := rfl

theorem pay17_eq : k1_pay17 (F := Ideal) v8 = headK v8 336 720 1104 slices_S16x64x1152_o0_0_336_S16x64x48
    slices_S16x64x1152_o0_0_720_S16x64x48 slices_S16x64x1152_o0_0_1104_S16x64x48 := rfl

/-- Every one of the eight head pieces the body concatenates is a whole head of the projection. -/
theorem head1_eq : k1_pay7 (F := Ideal) (k1_pay4 x0 x1) (k1_pay5 x0 x1) (k1_pay6 x0 x1)
    = headK (k1_pay2 x0 x1) 48 432 816 slices_S16x64x1152_o0_0_48_S16x64x48 slices_S16x64x1152_o0_0_432_S16x64x48
        slices_S16x64x1152_o0_0_816_S16x64x48 := rfl

theorem head3_eq : k1_pay11 (F := Ideal) (k1_pay9 v8) (k1_pay10 v8)
    = headK v8 144 528 912 slices_S16x64x1152_o0_0_144_S16x64x48 slices_S16x64x1152_o0_0_528_S16x64x48
        slices_S16x64x1152_o0_0_912_S16x64x48 := rfl

theorem head5_eq : k1_pay15 (F := Ideal) (k1_pay13 v8) (k1_pay14 v8)
    = headK v8 240 624 1008 slices_S16x64x1152_o0_0_240_S16x64x48 slices_S16x64x1152_o0_0_624_S16x64x48
        slices_S16x64x1152_o0_0_1008_S16x64x48 := rfl

end

end Cert.KernelIdeal.KAttn

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.KAttnProj.lean ====
import proofs.«108577_j35562329211765_2_alg».proof.Proof.Gen.KernelIdeal.Skeleton
import proofs.«108577_j35562329211765_2_alg».proof.Proof.LibContract
import proofs.«108577_j35562329211765_2_alg».proof.Proof.LibLayout3
import Idealize.ShloMosaic.PureOps.Ideal.Laws
import Idealize.ShloMosaic.Lib.ValueIdx
import Idealize.ShloMosaic.Lib.Pipeline.Value

noncomputable section

open scoped BigOperators

namespace Cert.KernelIdeal.KAttn

open Idealize.ShloMosaic Idealize.ShloMosaic.ValueIdx Cert.KernelIdeal Cert.KernelIdeal.Gen

/-! # The joint projection of the body read at an index -/

/-- A cast between equal shapes reads the operand at the same index. -/
theorem shapeCast_same_apply {α : Type} {s : Shape} (x : s.Idx → α) (h : s.ShapeCasts s) (j : s.Idx) : shapeCast s x h j = x j :=
  shapeCast_apply x h j j rfl

/-- The [1024, 384] · [384, 1152] product into zero at (p, o). -/
theorem proj_matmul_apply (l : FVec Ideal S1024x384 .bf16) (r : FVec Ideal S384x1152 .bf16) (p : Fin 1024) (o : Fin 1152) :
    matmul dot_S1024x384_S384x1152_S1024x1152_1_0_0_1_n_n none l r (constant S1024x1152 .f32 0x00000000#32) (ix2 p o)
      = ∑ c : Fin 384, l (ix2 p c) * r (ix2 c o) := by
  refine (Ideal.matmul_constant_zero_apply _ none l r (ix2 p o)).trans ?_
  exact Contract2.sum_contr_eq_sum_fin dot_S1024x384_S384x1152_S1024x1152_1_0_0_1_n_n rfl rfl rfl rfl
    (fun j q => rfl) (fun j q => rfl) l r (ix2 p o)

/-- The block of windows as rows: row a · 64 + s is token s of window a. -/
def rowsK (x : FVec Ideal S16x64x384 .f32) : FVec Ideal S1024x384 .bf16 :=
  truncf .bf16 (shapeCast S1024x384 (shapeCast S16x64x384 x shapeCasts_S16x64x384_S16x64x384) shapeCasts_S16x64x384_S1024x384) bitsLt_bf16_f32

theorem rowsK_apply (x : FVec Ideal S16x64x384 .f32) (a : Fin 16) (s : Fin 64) (c : Fin 384) (p : Fin 1024)
    (hp : p.val = a.val * 64 + s.val) : rowsK x (ix2 p c) = x (ix3 a s c) :=
  (Layout3.shapeCast_abc_nc_apply (shapeCast S16x64x384 x shapeCasts_S16x64x384_S16x64x384) shapeCasts_S16x64x384_S1024x384 a s c p hp).trans
    (shapeCast_same_apply x _ _)

/-- The weight operand of the projection. -/
def wqK (x : FVec Ideal S384x1152 .f32) : FVec Ideal S384x1152 .bf16 :=
  truncf .bf16 (shapeCast S384x1152 x shapeCasts_S384x1152_S384x1152) bitsLt_bf16_f32

theorem wqK_apply (x : FVec Ideal S384x1152 .f32) (c : Fin 384) (o : Fin 1152) : wqK x (ix2 c o) = x (ix2 c o) :=
  shapeCast_same_apply x _ _

/-- The projection: rows times weight, regrouped by window. -/
def projK (x0 : FVec Ideal S16x64x384 .f32) (x1 : FVec Ideal S384x1152 .f32) : FVec Ideal S16x64x1152 .f32 :=
  shapeCast S16x64x1152 (matmul dot_S1024x384_S384x1152_S1024x1152_1_0_0_1_n_n none (rowsK x0) (wqK x1) (constant S1024x1152 .f32 0x00000000#32))
    shapeCasts_S1024x1152_S16x64x1152

theorem pay2_eq (x0 : Vec Ideal S16x64x384 .f32) (x1 : Vec Ideal S384x1152 .f32) : k1_pay2 (F := Ideal) x0 x1 = projK x0 x1 := rfl

theorem projK_apply (x0 : FVec Ideal S16x64x384 .f32) (x1 : FVec Ideal S384x1152 .f32) (a : Fin 16) (s : Fin 64) (o : Fin 1152) :
    projK x0 x1 (ix3 a s o) = ∑ c : Fin 384, x0 (ix3 a s c) * x1 (ix2 c o) := by
  have hp : (⟨a.val * 64 + s.val, by omega⟩ : Fin 1024).val = a.val * 64 + s.val := rfl
  unfold projK
  refine (Layout3.shapeCast_nc_abc_apply
    (matmul dot_S1024x384_S384x1152_S1024x1152_1_0_0_1_n_n none (rowsK x0) (wqK x1) (constant S1024x1152 .f32 0x00000000#32))
    shapeCasts_S1024x1152_S16x64x1152 a s o ⟨a.val * 64 + s.val, by omega⟩ hp).trans ?_
  refine (proj_matmul_apply (rowsK x0) (wqK x1) _ o).trans ?_
  exact Finset.sum_congr rfl fun c _ => congrArg₂ (· * ·) (rowsK_apply x0 a s c _ hp) (wqK_apply x1 c o)

/-- The body's joint projection at window a of the block, token s, column o: the sum over the 384 channels of the
    window entry times the weight entry. -/
theorem pay2_apply (x0 : Vec Ideal S16x64x384 .f32) (x1 : Vec Ideal S384x1152 .f32) (a : Fin 16) (s : Fin 64) (o : Fin 1152) :
    k1_pay2 (F := Ideal) x0 x1 (ix3 a s o) = ∑ c : Fin 384, x0 (ix3 a s c) * x1 (ix2 c o) :=
  (congrFun (pay2_eq x0 x1) _).trans (projK_apply x0 x1 a s o)

end Cert.KernelIdeal.KAttn

end
-- ==== Proof.KAttnOut.lean ====
import proofs.«108577_j35562329211765_2_alg».proof.Proof.Gen.KernelIdeal.Skeleton
import proofs.«108577_j35562329211765_2_alg».proof.Proof.LibContract
import proofs.«108577_j35562329211765_2_alg».proof.Proof.LibLayout3
import proofs.«108577_j35562329211765_2_alg».proof.Proof.KAttnProj
import Idealize.ShloMosaic.PureOps.Ideal.Laws
import Idealize.ShloMosaic.Lib.ValueIdx
import Idealize.ShloMosaic.Lib.Pipeline.Value

noncomputable section

open scoped BigOperators

namespace Cert.KernelIdeal.KAttn

open Idealize.ShloMosaic Idealize.ShloMosaic.ValueIdx Cert.KernelIdeal Cert.KernelIdeal.Gen

/-! # The heads side by side and the output projection of the body, read at an index -/

/-- A concatenation along the last axis of [16, 64, ·] pieces, read in piece k of width 48 that starts at column k · 48. -/
theorem concat_piece_apply (xs : List ((s : Shape) × (s.Idx → EReal))) (hc : Shape.Concatenates (xs.map (·.1)) S16x64x384 2)
    (a : Fin 16) (s : Fin 64) (c : Fin 384) (d : Fin 48) (k : ℕ) (hk : k < xs.length) (x₁ : FVec Ideal S16x64x48 .f32)
    (hx : xs[k] = ⟨S16x64x48, x₁⟩)
    (hpre : (((xs.take k).map (·.1)).map
      fun s : Shape => if h : s.rank = S16x64x384.rank then s.size ((2 : Fin S16x64x384.rank).cast h.symm) else 0).sum = k * 48)
    (hcd : c.val = k * 48 + d.val) : concatenate S16x64x384 2 xs hc (ix3 a s c) = x₁ (ix3 a s d) := by
  refine concatenate_apply_piece (2 : Fin S16x64x384.rank) xs hc (ix3 a s c) k hk S16x64x48 x₁ hx rfl (k * 48) hpre (ix3 a s d) ?_ ?_
  · intro b hb
    match b with
    | ⟨0, _⟩ => rfl
    | ⟨1, _⟩ => rfl
    | ⟨2, _⟩ => exact absurd rfl hb
  · exact hcd.symm

/-- Eight arrays of 48 columns laid side by side along the last axis: column h · 48 + d is array h at column d. -/
theorem concat8_apply (V : Fin 8 → FVec Ideal S16x64x48 .f32)
    (hc : Shape.Concatenates [S16x64x48, S16x64x48, S16x64x48, S16x64x48, S16x64x48, S16x64x48, S16x64x48, S16x64x48] S16x64x384 2)
    (a : Fin 16) (s : Fin 64) (c : Fin 384) (h : Fin 8) (d : Fin 48) (hcd : c.val = h.val * 48 + d.val) :
    concatenate S16x64x384 2 [⟨S16x64x48, V 0⟩, ⟨S16x64x48, V 1⟩, ⟨S16x64x48, V 2⟩, ⟨S16x64x48, V 3⟩, ⟨S16x64x48, V 4⟩,
      ⟨S16x64x48, V 5⟩, ⟨S16x64x48, V 6⟩, ⟨S16x64x48, V 7⟩] hc (ix3 a s c) = V h (ix3 a s d) := by
  match h with
  | ⟨0, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 0 (by show 0 < 8; omega) (V 0) rfl rfl hcd
  | ⟨1, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 1 (by show 1 < 8; omega) (V 1) rfl rfl hcd
  | ⟨2, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 2 (by show 2 < 8; omega) (V 2) rfl rfl hcd
  | ⟨3, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 3 (by show 3 < 8; omega) (V 3) rfl rfl hcd
  | ⟨4, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 4 (by show 4 < 8; omega) (V 4) rfl rfl hcd
  | ⟨5, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 5 (by show 5 < 8; omega) (V 5) rfl rfl hcd
  | ⟨6, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 6 (by show 6 < 8; omega) (V 6) rfl rfl hcd
  | ⟨7, _⟩ => exact concat_piece_apply [⟨S16x64x48, V 0⟩, ⟨S16x64x48, V 1⟩, ⟨S16x64x48, V 2⟩, ⟨S16x64x48, V 3⟩, ⟨S16x64x48, V 4⟩, ⟨S16x64x48, V 5⟩, ⟨S16x64x48, V 6⟩, ⟨S16x64x48, V 7⟩] hc a s c d 7 (by show 7 < 8; omega) (V 7) rfl rfl hcd

/-- The [1024, 384] · [384, 384] product into zero at (p, j). -/
theorem out_matmul_apply (l : FVec Ideal S1024x384 .bf16) (r : FVec Ideal S384x384 .bf16) (p : Fin 1024) (j : Fin 384) :
    matmul dot_S1024x384_S384x384_S1024x384_1_0_0_1_n_n none l r (constant S1024x384 .f32 0x00000000#32) (ix2 p j)
      = ∑ c : Fin 384, l (ix2 p c) * r (ix2 c j) := by
  refine (Ideal.matmul_constant_zero_apply _ none l r (ix2 p j)).trans ?_
  exact Contract2.sum_contr_eq_sum_fin dot_S1024x384_S384x384_S1024x384_1_0_0_1_n_n rfl rfl rfl rfl
    (fun j q => rfl) (fun j q => rfl) l r (ix2 p j)

/-- The heads as rows. -/
def catRowsK (x : FVec Ideal S16x64x384 .f32) : FVec Ideal S1024x384 .bf16 :=
  truncf .bf16 (shapeCast S1024x384 x shapeCasts_S16x64x384_S1024x384) bitsLt_bf16_f32

theorem catRowsK_apply (x : FVec Ideal S16x64x384 .f32) (a : Fin 16) (s : Fin 64) (c : Fin 384) (p : Fin 1024)
    (hp : p.val = a.val * 64 + s.val) : catRowsK x (ix2 p c) = x (ix3 a s c) :=
  Layout3.shapeCast_abc_nc_apply x shapeCasts_S16x64x384_S1024x384 a s c p hp

/-- The output weight operand. -/
def woK (x : FVec Ideal S384x384 .f32) : FVec Ideal S384x384 .bf16 :=
  truncf .bf16 (shapeCast S384x384 x shapeCasts_S384x384_S384x384) bitsLt_bf16_f32

theorem woK_apply (x : FVec Ideal S384x384 .f32) (c j : Fin 384) : woK x (ix2 c j) = x (ix2 c j) :=
  shapeCast_same_apply x _ _

/-- The bias row laid along every row. -/
def biasK (x : FVec Ideal S1x384 .f32) : FVec Ideal S1024x384 .f32 :=
  broadcastTo S1024x384 (shapeCast S1x384 x shapeCasts_S1x384_S1x384) broadcasts_S1x384_S1024x384

theorem biasK_apply (x : FVec Ideal S1x384 .f32) (p : Fin 1024) (j : Fin 384) : biasK x (ix2 p j) = x (ix2 (0 : Fin 1) j) := by
  unfold biasK
  refine (broadcastTo_apply (shapeCast S1x384 x shapeCasts_S1x384_S1x384) broadcasts_S1x384_S1024x384 (ix2 p j) (ix2 (0 : Fin 1) j) ?_).trans
    (shapeCast_same_apply x _ _)
  intro d
  match d with
  | ⟨0, _⟩ => show (0 : ℕ) = if (1 : ℕ) = 1 then 0 else p.val; rw [if_pos rfl]
  | ⟨1, _⟩ => show j.val = if (384 : ℕ) = 1 then 0 else j.val; rw [if_neg (by decide)]

/-- The output projection with its bias, regrouped by window. -/
def finK (cat : FVec Ideal S16x64x384 .f32) (x2 : FVec Ideal S384x384 .f32) (x3 : FVec Ideal S1x384 .f32) : FVec Ideal S16x64x384 .f32 :=
  shapeCast S16x64x384 (addf (matmul dot_S1024x384_S384x384_S1024x384_1_0_0_1_n_n none (catRowsK cat) (woK x2) (constant S1024x384 .f32 0x00000000#32))
    (biasK x3)) shapeCasts_S1024x384_S16x64x384

theorem finK_apply (cat : FVec Ideal S16x64x384 .f32) (x2 : FVec Ideal S384x384 .f32) (x3 : FVec Ideal S1x384 .f32)
    (a : Fin 16) (s : Fin 64) (j : Fin 384) :
    finK cat x2 x3 (ix3 a s j) = (∑ c : Fin 384, cat (ix3 a s c) * x2 (ix2 c j)) + x3 (ix2 (0 : Fin 1) j) := by
  have hp : (⟨a.val * 64 + s.val, by omega⟩ : Fin 1024).val = a.val * 64 + s.val := rfl
  unfold finK
  refine (Layout3.shapeCast_nc_abc_apply
    (addf (matmul dot_S1024x384_S384x384_S1024x384_1_0_0_1_n_n none (catRowsK cat) (woK x2) (constant S1024x384 .f32 0x00000000#32)) (biasK x3))
    shapeCasts_S1024x384_S16x64x384 a s j ⟨a.val * 64 + s.val, by omega⟩ hp).trans ?_
  refine congrArg₂ (· + ·) ?_ (biasK_apply x3 _ j)
  refine (out_matmul_apply (catRowsK cat) (woK x2) _ j).trans ?_
  exact Finset.sum_congr rfl fun c _ => congrArg₂ (· * ·) (catRowsK_apply cat a s c _ hp) (woK_apply x2 c j)

theorem pay1_eq (v30 v52 v74 v96 v118 v140 v162 v184 : FVec Ideal S16x64x48 .f32) (x2 : Vec Ideal S384x384 .f32) (x3 : Vec Ideal S1x384 .f32) :
    k1_pay1 (F := Ideal) v30 v52 v74 v96 v118 v140 v162 v184 x2 x3
      = finK (concatenate S16x64x384 2 [⟨S16x64x48, v30⟩, ⟨S16x64x48, v52⟩, ⟨S16x64x48, v74⟩, ⟨S16x64x48, v96⟩, ⟨S16x64x48, v118⟩,
          ⟨S16x64x48, v140⟩, ⟨S16x64x48, v162⟩, ⟨S16x64x48, v184⟩]
          concatenates_S16x64x48_S16x64x48_S16x64x48_S16x64x48_S16x64x48_S16x64x48_S16x64x48_S16x64x48_S16x64x384_d2) x2 x3 := rfl

/-- The body's last payload at (a, s, j), for eight head arrays V: the sum over the 384 columns c of head c / 48 at
    coordinate c % 48 times the output weight, plus the bias. -/
theorem pay1_apply (V : Fin 8 → FVec Ideal S16x64x48 .f32) (x2 : Vec Ideal S384x384 .f32) (x3 : Vec Ideal S1x384 .f32)
    (a : Fin 16) (s : Fin 64) (j : Fin 384) :
    k1_pay1 (F := Ideal) (V 0) (V 1) (V 2) (V 3) (V 4) (V 5) (V 6) (V 7) x2 x3 (ix3 a s j)
      = (∑ c : Fin 384, V ⟨c.val / 48, by omega⟩ (ix3 a s ⟨c.val % 48, Nat.mod_lt _ (by norm_num)⟩) * x2 (ix2 c j)) + x3 (ix2 (0 : Fin 1) j) := by
  refine (congrFun (pay1_eq (V 0) (V 1) (V 2) (V 3) (V 4) (V 5) (V 6) (V 7) x2 x3) _).trans ?_
  refine (finK_apply _ x2 x3 a s j).trans ?_
  refine congrArg (· + x3 (ix2 (0 : Fin 1) j)) (Finset.sum_congr rfl fun c _ => congrArg (· * x2 (ix2 c j)) ?_)
  exact concat8_apply V _ a s c ⟨c.val / 48, by omega⟩ ⟨c.val % 48, Nat.mod_lt _ (by norm_num)⟩ (by
    show c.val = c.val / 48 * 48 + c.val % 48
    omega)

end Cert.KernelIdeal.KAttn

end
-- ==== Proof.KAttn.lean ====
import proofs.«108577_j35562329211765_2_alg».proof.Proof.Gen.KernelIdeal.Frame
import proofs.«108577_j35562329211765_2_alg».proof.Proof.Spec
import proofs.«108577_j35562329211765_2_alg».proof.Proof.KAttnHead
import proofs.«108577_j35562329211765_2_alg».proof.Proof.KAttnPay
import proofs.«108577_j35562329211765_2_alg».proof.Proof.KAttnProj
import proofs.«108577_j35562329211765_2_alg».proof.Proof.KAttnOut
import Idealize.ShloMosaic.PureOps.Ideal.Laws
import Idealize.ShloMosaic.Lib.ValueIdx
import Idealize.ShloMosaic.Lib.Pipeline.Value

noncomputable section

open scoped BigOperators

namespace Cert.KernelIdeal.KAttn

open Idealize.ShloMosaic Idealize.ShloMosaic.ValueIdx Cert.KernelIdeal Cert.KernelIdeal.Gen

/-! # What the attention body leaves in its output buffer, read at an index

One grid point of the attention kernel takes a block of 16 windows, the transposed joint weight, the transposed output
weight and the bias as a row; what it stores is, entry by entry, the specification's attention of those windows. -/

/-- The one whole-buffer store leaves the last payload of the whole-buffer loads. -/
theorem out1_4_eq (x0 : Vec Ideal S16x64x384 .f32) (x1 : Vec Ideal S384x1152 .f32) (x2 : Vec Ideal S384x384 .f32) (x3 : Vec Ideal S1x384 .f32) :
    Gen.out1_4 (F := Ideal) x0 x1 x2 x3
      = k1_pay1 (k1_pay3 x0 x1) (k1_pay7 (k1_pay4 x0 x1) (k1_pay5 x0 x1) (k1_pay6 x0 x1)) (k1_pay8 (k1_pay2 x0 x1))
          (k1_pay11 (k1_pay9 (k1_pay2 x0 x1)) (k1_pay10 (k1_pay2 x0 x1))) (k1_pay12 (k1_pay2 x0 x1))
          (k1_pay15 (k1_pay13 (k1_pay2 x0 x1)) (k1_pay14 (k1_pay2 x0 x1))) (k1_pay16 (k1_pay2 x0 x1)) (k1_pay17 (k1_pay2 x0 x1)) x2 x3 := by
  have hz0 : (![0, 0, 0] : Fin S16x64x384.rank → Nat) = fun _ => 0 := funext fun a => by fin_cases a <;> rfl
  have hz1 : (![0, 0] : Fin S384x1152.rank → Nat) = fun _ => 0 := funext fun a => by fin_cases a <;> rfl
  have hz2 : (![0, 0] : Fin S384x384.rank → Nat) = fun _ => 0 := funext fun a => by fin_cases a <;> rfl
  have hz3 : (![0, 0] : Fin S1x384.rank → Nat) = fun _ => 0 := funext fun a => by fin_cases a <;> rfl
  unfold Gen.out1_4
  rw [View.canon_unit_zero hz0]
  simp only [View.ld_unit_zero (S := S16x64x384) hz0, View.ld_unit_zero (S := S384x1152) hz1,
    View.ld_unit_zero (S := S384x384) hz2, View.ld_unit_zero (S := S1x384) hz3]

/-- The eight head pieces of the body as one family over the head number. -/
def headsK (P : FVec Ideal S16x64x1152 .f32) : Fin 8 → FVec Ideal S16x64x48 .f32 :=
  ![headK P 0 384 768 slices_S16x64x1152_o0_0_0_S16x64x48 slices_S16x64x1152_o0_0_384_S16x64x48 slices_S16x64x1152_o0_0_768_S16x64x48,
    headK P 48 432 816 slices_S16x64x1152_o0_0_48_S16x64x48 slices_S16x64x1152_o0_0_432_S16x64x48 slices_S16x64x1152_o0_0_816_S16x64x48,
    headK P 96 480 864 slices_S16x64x1152_o0_0_96_S16x64x48 slices_S16x64x1152_o0_0_480_S16x64x48 slices_S16x64x1152_o0_0_864_S16x64x48,
    headK P 144 528 912 slices_S16x64x1152_o0_0_144_S16x64x48 slices_S16x64x1152_o0_0_528_S16x64x48 slices_S16x64x1152_o0_0_912_S16x64x48,
    headK P 192 576 960 slices_S16x64x1152_o0_0_192_S16x64x48 slices_S16x64x1152_o0_0_576_S16x64x48 slices_S16x64x1152_o0_0_960_S16x64x48,
    headK P 240 624 1008 slices_S16x64x1152_o0_0_240_S16x64x48 slices_S16x64x1152_o0_0_624_S16x64x48 slices_S16x64x1152_o0_0_1008_S16x64x48,
    headK P 288 672 1056 slices_S16x64x1152_o0_0_288_S16x64x48 slices_S16x64x1152_o0_0_672_S16x64x48 slices_S16x64x1152_o0_0_1056_S16x64x48,
    headK P 336 720 1104 slices_S16x64x1152_o0_0_336_S16x64x48 slices_S16x64x1152_o0_0_720_S16x64x48 slices_S16x64x1152_o0_0_1104_S16x64x48]

/-- The stored array is the last payload of the eight heads of the projection. -/
theorem out1_4_eq_heads (x0 : Vec Ideal S16x64x384 .f32) (x1 : Vec Ideal S384x1152 .f32) (x2 : Vec Ideal S384x384 .f32) (x3 : Vec Ideal S1x384 .f32) :
    Gen.out1_4 (F := Ideal) x0 x1 x2 x3
      = k1_pay1 (headsK (projK x0 x1) 0) (headsK (projK x0 x1) 1) (headsK (projK x0 x1) 2) (headsK (projK x0 x1) 3)
          (headsK (projK x0 x1) 4) (headsK (projK x0 x1) 5) (headsK (projK x0 x1) 6) (headsK (projK x0 x1) 7) x2 x3 :=
  (out1_4_eq x0 x1 x2 x3).trans rfl

/-- Every head of the family is the specification's head, when the projection holds the specification's. -/
theorem headsK_apply (win : Spec.Win.Idx → EReal) (wqkv : Spec.Wqkv.Idx → EReal) (n : Fin 16 → Fin 1024)
    (P : FVec Ideal S16x64x1152 .f32) (hP : ∀ (a : Fin 16) (s : Fin 64) (o : Fin 1152), P (ix3 a s o) = Spec.qkv win wqkv (n a) s o)
    (h : Fin 8) (a : Fin 16) (q : Fin 64) (d : Fin 48) : headsK P h (ix3 a q d) = Spec.head win wqkv (n a) h q d := by
  match h with
  | ⟨0, _⟩ => exact headK_apply win wqkv n P hP ⟨0, by omega⟩ 0 384 768 rfl rfl rfl _ _ _ a q d
  | ⟨1, _⟩ => exact headK_apply win wqkv n P hP ⟨1, by omega⟩ 48 432 816 rfl rfl rfl _ _ _ a q d
  | ⟨2, _⟩ => exact headK_apply win wqkv n P hP ⟨2, by omega⟩ 96 480 864 rfl rfl rfl _ _ _ a q d
  | ⟨3, _⟩ => exact headK_apply win wqkv n P hP ⟨3, by omega⟩ 144 528 912 rfl rfl rfl _ _ _ a q d
  | ⟨4, _⟩ => exact headK_apply win wqkv n P hP ⟨4, by omega⟩ 192 576 960 rfl rfl rfl _ _ _ a q d
  | ⟨5, _⟩ => exact headK_apply win wqkv n P hP ⟨5, by omega⟩ 240 624 1008 rfl rfl rfl _ _ _ a q d
  | ⟨6, _⟩ => exact headK_apply win wqkv n P hP ⟨6, by omega⟩ 288 672 1056 rfl rfl rfl _ _ _ a q d
  | ⟨7, _⟩ => exact headK_apply win wqkv n P hP ⟨7, by omega⟩ 336 720 1104 rfl rfl rfl _ _ _ a q d

/-- **The attention body at an index.** -/
theorem out1_4_apply (win : Cert.Spec.Win.Idx → EReal) (wqkv : Cert.Spec.Wqkv.Idx → EReal) (wproj : Cert.Spec.Wproj.Idx → EReal)
    (bproj : Cert.Spec.V384.Idx → EReal) (t : Fin 64) (x0 : Vec Ideal S16x64x384 .f32) (x1 : Vec Ideal S384x1152 .f32)
    (x2 : Vec Ideal S384x384 .f32) (x3 : Vec Ideal S1x384 .f32)
    (h0 : ∀ (a : Fin 16) (s : Fin 64) (c : Fin 384), x0 (ix3 a s c) = win (ix3 ⟨16 * t.val + a.val, by omega⟩ s c))
    (h1 : ∀ (c : Fin 384) (o : Fin 1152), x1 (ix2 c o) = wqkv (ix2 o c))
    (h2 : ∀ (c : Fin 384) (j : Fin 384), x2 (ix2 c j) = wproj (ix2 j c))
    (h3 : ∀ j : Fin 384, x3 (ix2 (0 : Fin 1) j) = bproj (ix1 j)) (a : Fin 16) (s : Fin 64) (j : Fin 384) :
    Gen.out1_4 (F := Ideal) x0 x1 x2 x3 (ix3 a s j) = Cert.Spec.attn win wqkv wproj bproj ⟨16 * t.val + a.val, by omega⟩ s j := by
  have hP : ∀ (a : Fin 16) (s : Fin 64) (o : Fin 1152),
      projK x0 x1 (ix3 a s o) = Spec.qkv win wqkv ((fun a : Fin 16 => (⟨16 * t.val + a.val, by omega⟩ : Fin 1024)) a) s o := fun a s o => by
    refine (projK_apply x0 x1 a s o).trans ?_
    unfold Spec.qkv
    exact Finset.sum_congr rfl fun c _ => by rw [h0, h1]
  refine (congrFun (out1_4_eq_heads x0 x1 x2 x3) _).trans ?_
  refine (pay1_apply (headsK (projK x0 x1)) x2 x3 a s j).trans ?_
  unfold Spec.attn Spec.heads
  refine congrArg₂ (· + ·) (Finset.sum_congr rfl fun c _ => ?_) (h3 j)
  rw [headsK_apply win wqkv _ (projK x0 x1) hP, h2]

end Cert.KernelIdeal.KAttn

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefRunOps.lean ====
/-
  The reference program's @main as one straight line of its 92 host operations — the three module-local functions
  written out at their calls over the calls' own buffers — cut into four consecutive stretches: the group
  normalisation (46 operations), the regrouping into windows (7), the windowed attention (34) and the way back with
  the residual sum (5). @main is that line; every operation touches TensorCore buffers only.
-/
import proofs.«108577_j35562329211765_2_alg».proof.ReferenceIdeal
import proofs.«108577_j35562329211765_2_alg».proof.Proof.LibStretches
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- Operations 1 … 46 of the line. -/
abbrev opsGn : List (HloOp τ sig (Elt F)) :=
  [ StableHlo.reshape main_arg0 main_v0 rfl shapeCasts_S16x384x64x64_S16x4x96x64x64,
    StableHlo.nullary main_cst (constant S_ .f32 0x00000000#32),
    StableHlo.binary main_v0 main_cst main_v1 ((fun x v => Host.reduceAdd x v reducesTo_S16x4x96x64x64_S16x4_d2_3_4 h_S_) : (⟨S16x4x96x64x64, .f32⟩ : BufTy).Contents (Elt F) → (⟨S_, .f32⟩ : BufTy).Contents (Elt F) → (⟨S16x4, .f32⟩ : BufTy).Contents (Elt F)),
    StableHlo.unary main_v1 main_v2 (broadcastInDim S16x4x1x1x1 ![0, 1] bcast_S16x4_S16x4x1x1x1_0_1 : (⟨S16x4, .f32⟩ : BufTy).Contents (Elt F) → (⟨S16x4x1x1x1, .f32⟩ : BufTy).Contents (Elt F)),
    StableHlo.nullary main_cst_0 (constant S_ .f32 0x48C00000#32),
    StableHlo.unary main_cst_0 main_v3 (broadcastInDim S16x4x1x1x1 ![] bcast_S_S16x4x1x1x1 : (⟨S_, .f32⟩ : BufTy).Contents (Elt F) → (⟨S16x4x1x1x1, .f32⟩ : BufTy).Contents (Elt F)),
    StableHlo.binary main_v2 main_v3 main_v4 (Host.divf : (⟨S16x4x1x1x1, .f32⟩ : BufTy).Contents (Elt F) → (⟨S16x4x1x1x1, .f32⟩ : BufTy).Contents (Elt F) → (⟨S16x4x1x1x1, .f32⟩ : BufTy).Contents (Elt F)),
    StableHlo.nullary main_c (constantI S_ 32 0#32),
    StableHlo.TRef.nullary main_call0.cst (constant S_ .f32 0x00000000#32),
    StableHlo.TRef.binary (.of main_v0 : StableHlo.TRef sig ⟨S16x4x96x64x64, .f32⟩) main_call0.cst main_call0.v0 (fun x v => Host.reduceAdd x v reducesTo_S16x4x96x64x64_S16x4_d2_3_4 h_S_),
    StableHlo.TRef.unary main_call0.v0 main_call0.v1 (broadcastInDim S16x4x1x1x1 ![0, 1] bcast_S16x4_S16x4x1x1x1_0_1),
    StableHlo.TRef.nullary main_call0.cst_0 (constant S_ .f32 0x48C00000#32),
    StableHlo.TRef.unary main_call0.cst_0 main_call0.v2 (broadcastInDim S16x4x1x1x1 ![] bcast_S_S16x4x1x1x1),
    StableHlo.TRef.binary main_call0.v1 main_call0.v2 main_call0.v3 Host.divf,
    StableHlo.TRef.unary main_call0.v3 main_call0.v4 (broadcastInDim S16x4x96x64x64 ![0, 1, 2, 3, 4] bcast_S16x4x1x1x1_S16x4x96x64x64_0_1_2_3_4),
    StableHlo.TRef.binary (.of main_v0 : StableHlo.TRef sig ⟨S16x4x96x64x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48C00000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x4x96x64x64_S16x4_d2_3_4 h_S_),
    StableHlo.TRef.unary main_call0.v9 main_call0.v10 (broadcastInDim S16x4x1x1x1 ![0, 1] bcast_S16x4_S16x4x1x1x1_0_1),
    StableHlo.TRef.unary main_call0.v8 main_call0.v11 (broadcastInDim S16x4x1x1x1 ![] bcast_S_S16x4x1x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16x4x1x1x1 ![] bcast_S_S16x4x1x1x1),
    StableHlo.TRef.ternary main_call0.v13 main_call0.v12 main_call0.call0.v1 main_call0.call0.v2 (fun p a b => select (broadcastInDim S16x4x1x1x1 ![] bcast_S_S16x4x1x1x1 p) a b),
    StableHlo.unary main_v4 main_v6 (broadcastInDim S16x4x96x64x64 ![0, 1, 2, 3, 4] bcast_S16x4x1x1x1_S16x4x96x64x64_0_1_2_3_4 : (⟨S16x4x1x1x1, .f32⟩ : BufTy).Contents (Elt F) → (⟨S16x4x96x64x64, .f32⟩ : BufTy).Contents (Elt F)),
    StableHlo.binary main_v0 main_v6 main_v7 (subf : (⟨S16x4x96x64x64, .f32⟩ : BufTy).Contents (Elt F) → (⟨S16x4x96x64x64, .f32⟩ : BufTy).Contents (Elt F) → (⟨S16x4x96x64x64, .f32⟩ : BufTy).Contents (Elt F)),
    StableHlo.nullary main_cst_1 (constant S_ .f32 0x3727C5AC#32),
    StableHlo.unary main_cst_1 main_v8 (broadcastInDim S16x4x1x1x1 ![] bcast_S_S16x4x1x1x1 : (⟨S_, .f32⟩ : BufTy).Contents (Elt F) → (⟨S16x4x1x1x1, .f32⟩ : BufTy).Contents (Elt F)),
    StableHlo.binary main_v5 main_v8 main_v9 (addf : (⟨S16x4x1x1x1, .f32⟩ : BufTy).Contents (Elt F) → (⟨S16x4x1x1x1, .f32⟩ : BufTy).Contents (Elt F) → (⟨S16x4x1x1x1, .f32⟩ : BufTy).Contents (Elt F)),
    StableHlo.unary main_v9 main_v10 (Host.rsqrt : (⟨S16x4x1x1x1, .f32⟩ : BufTy).Contents (Elt F) → (⟨S16x4x1x1x1, .f32⟩ : BufTy).Contents (Elt F)),
    StableHlo.unary main_v10 main_v11 (broadcastInDim S16x4x96x64x64 ![0, 1, 2, 3, 4] bcast_S16x4x1x1x1_S16x4x96x64x64_0_1_2_3_4 : (⟨S16x4x1x1x1, .f32⟩ : BufTy).Contents (Elt F) → (⟨S16x4x96x64x64, .f32⟩ : BufTy).Contents (Elt F)),
    StableHlo.binary main_v7 main_v11 main_v12 (mulf : (⟨S16x4x96x64x64, .f32⟩ : BufTy).Contents (Elt F) → (⟨S16x4x96x64x64, .f32⟩ : BufTy).Contents (Elt F) → (⟨S16x4x96x64x64, .f32⟩ : BufTy).Contents (Elt F)),
    StableHlo.reshape main_v12 main_v13 rfl shapeCasts_S16x4x96x64x64_S16x384x64x64,
    StableHlo.unary main_arg1 main_v14 (broadcastInDim S1x384x1x1 ![1] bcast_S384_S1x384x1x1_1 : (⟨S384, .f32⟩ : BufTy).Contents (Elt F) → (⟨S1x384x1x1, .f32⟩ : BufTy).Contents (Elt F)),
    StableHlo.unary main_v14 main_v15 (broadcastInDim S16x384x64x64 ![0, 1, 2, 3] bcast_S1x384x1x1_S16x384x64x64_0_1_2_3 : (⟨S1x384x1x1, .f32⟩ : BufTy).Contents (Elt F) → (⟨S16x384x64x64, .f32⟩ : BufTy).Contents (Elt F)),
    StableHlo.binary main_v13 main_v15 main_v16 (mulf : (⟨S16x384x64x64, .f32⟩ : BufTy).Contents (Elt F) → (⟨S16x384x64x64, .f32⟩ : BufTy).Contents (Elt F) → (⟨S16x384x64x64, .f32⟩ : BufTy).Contents (Elt F)),
    StableHlo.unary main_arg2 main_v17 (broadcastInDim S1x384x1x1 ![1] bcast_S384_S1x384x1x1_1 : (⟨S384, .f32⟩ : BufTy).Contents (Elt F) → (⟨S1x384x1x1, .f32⟩ : BufTy).Contents (Elt F)),
    StableHlo.unary main_v17 main_v18 (broadcastInDim S16x384x64x64 ![0, 1, 2, 3] bcast_S1x384x1x1_S16x384x64x64_0_1_2_3 : (⟨S1x384x1x1, .f32⟩ : BufTy).Contents (Elt F) → (⟨S16x384x64x64, .f32⟩ : BufTy).Contents (Elt F)),
    StableHlo.binary main_v16 main_v18 main_v19 (addf : (⟨S16x384x64x64, .f32⟩ : BufTy).Contents (Elt F) → (⟨S16x384x64x64, .f32⟩ : BufTy).Contents (Elt F) → (⟨S16x384x64x64, .f32⟩ : BufTy).Contents (Elt F)) ]

/-- Operations 47 … 53 of the line. -/
abbrev opsPrep : List (HloOp τ sig (Elt F)) :=
  [ StableHlo.unary main_v19 main_v20 ((transpose S16x64x64x384 [0, 2, 3, 1] · transposes_S16x384x64x64_S16x64x64x384_0_2_3_1) : (⟨S16x384x64x64, .f32⟩ : BufTy).Contents (Elt F) → (⟨S16x64x64x384, .f32⟩ : BufTy).Contents (Elt F)),
    StableHlo.nullary main_c_2 (constantI S_ 32 0#32),
    StableHlo.TRef.unary (.of main_c_2 : StableHlo.TRef sig ⟨S_, .i32⟩) main_call1.v0 (sitofp .f32),
    StableHlo.TRef.binary (.of main_v20 : StableHlo.TRef sig ⟨S16x64x64x384, .f32⟩) main_call1.v0 main_call1.v1 (fun x v => pad S16x64x64x384 ![0, 0, 0, 0] ![0, 0, 0, 0] ![0, 0, 0, 0] x v pads_S16x64x64x384_S16x64x64x384_000_000_000_000 h_S_),
    StableHlo.reshape main_v21 main_v22 rfl shapeCasts_S16x64x64x384_S16x8x8x8x8x384,
    StableHlo.unary main_v22 main_v23 ((transpose S16x8x8x8x8x384 [0, 1, 3, 2, 4, 5] · transposes_S16x8x8x8x8x384_S16x8x8x8x8x384_0_1_3_2_4_5) : (⟨S16x8x8x8x8x384, .f32⟩ : BufTy).Contents (Elt F) → (⟨S16x8x8x8x8x384, .f32⟩ : BufTy).Contents (Elt F)),
    StableHlo.reshape main_v23 main_v24 rfl shapeCasts_S16x8x8x8x8x384_S1024x64x384 ]

/-- Operations 54 … 87 of the line. -/
abbrev opsAttn : List (HloOp τ sig (Elt F)) :=
  [ StableHlo.binary main_v24 main_arg3 main_v25 ((fun l r => Host.dotGeneral dot_S1024x64x384_S1152x384_S1024x64x1152_2_1_01_0_n_n none l r) : (⟨S1024x64x384, .f32⟩ : BufTy).Contents (Elt F) → (⟨S1152x384, .f32⟩ : BufTy).Contents (Elt F) → (⟨S1024x64x1152, .f32⟩ : BufTy).Contents (Elt F)),
    StableHlo.reshape main_v25 main_v26 rfl shapeCasts_S1024x64x1152_S1024x64x3x8x48,
    StableHlo.unary main_v26 main_v27 ((transpose S3x1024x8x64x48 [2, 0, 3, 1, 4] · transposes_S1024x64x3x8x48_S3x1024x8x64x48_2_0_3_1_4) : (⟨S1024x64x3x8x48, .f32⟩ : BufTy).Contents (Elt F) → (⟨S3x1024x8x64x48, .f32⟩ : BufTy).Contents (Elt F)),
    StableHlo.unary main_v27 main_v28 ((extractStridedSlice S1x1024x8x64x48 ![0, 0, 0, 0, 0] · slices_S3x1024x8x64x48_S1x1024x8x64x48_0_0_0_0_0) : (⟨S3x1024x8x64x48, .f32⟩ : BufTy).Contents (Elt F) → (⟨S1x1024x8x64x48, .f32⟩ : BufTy).Contents (Elt F)),
    StableHlo.reshape main_v28 main_v29 rfl shapeCasts_S1x1024x8x64x48_S1024x8x64x48,
    StableHlo.unary main_v27 main_v30 ((extractStridedSlice S1x1024x8x64x48 ![1, 0, 0, 0, 0] · slices_S3x1024x8x64x48_S1x1024x8x64x48_1_0_0_0_0) : (⟨S3x1024x8x64x48, .f32⟩ : BufTy).Contents (Elt F) → (⟨S1x1024x8x64x48, .f32⟩ : BufTy).Contents (Elt F)),
    StableHlo.reshape main_v30 main_v31 rfl shapeCasts_S1x1024x8x64x48_S1024x8x64x48,
    StableHlo.unary main_v27 main_v32 ((extractStridedSlice S1x1024x8x64x48 ![2, 0, 0, 0, 0] · slices_S3x1024x8x64x48_S1x1024x8x64x48_2_0_0_0_0) : (⟨S3x1024x8x64x48, .f32⟩ : BufTy).Contents (Elt F) → (⟨S1x1024x8x64x48, .f32⟩ : BufTy).Contents (Elt F)),
    StableHlo.reshape main_v32 main_v33 rfl shapeCasts_S1x1024x8x64x48_S1024x8x64x48,
    StableHlo.nullary main_cst_3 (constant S_ .f32 0x3E13CD3A#32),
    StableHlo.unary main_cst_3 main_v34 (broadcastInDim S1024x8x64x48 ![] bcast_S_S1024x8x64x48 : (⟨S_, .f32⟩ : BufTy).Contents (Elt F) → (⟨S1024x8x64x48, .f32⟩ : BufTy).Contents (Elt F)),
    StableHlo.binary main_v29 main_v34 main_v35 (mulf : (⟨S1024x8x64x48, .f32⟩ : BufTy).Contents (Elt F) → (⟨S1024x8x64x48, .f32⟩ : BufTy).Contents (Elt F) → (⟨S1024x8x64x48, .f32⟩ : BufTy).Contents (Elt F)),
    StableHlo.binary main_v35 main_v31 main_v36 ((fun l r => Host.dotGeneral dot_S1024x8x64x48_S1024x8x64x48_S1024x8x64x64_3_3_2_2_01_01 none l r) : (⟨S1024x8x64x48, .f32⟩ : BufTy).Contents (Elt F) → (⟨S1024x8x64x48, .f32⟩ : BufTy).Contents (Elt F) → (⟨S1024x8x64x64, .f32⟩ : BufTy).Contents (Elt F)),
    StableHlo.nullary main_cst_4 (constant S_ .f32 0xFF800000#32),
    StableHlo.binary main_v36 main_cst_4 main_v37 ((fun x v => Host.reduce FloatOps.maximumf x v reducesTo_S1024x8x64x64_S1024x8x64_d3 h_S_) : (⟨S1024x8x64x64, .f32⟩ : BufTy).Contents (Elt F) → (⟨S_, .f32⟩ : BufTy).Contents (Elt F) → (⟨S1024x8x64, .f32⟩ : BufTy).Contents (Elt F)),
    StableHlo.nullary main_cst_5 (constant S_ .f32 0xFF800000#32),
    StableHlo.unary main_cst_5 main_v38 (broadcastInDim S1024x8x64 ![] bcast_S_S1024x8x64 : (⟨S_, .f32⟩ : BufTy).Contents (Elt F) → (⟨S1024x8x64, .f32⟩ : BufTy).Contents (Elt F)),
    StableHlo.binary main_v38 main_v37 main_v39 (maximumf : (⟨S1024x8x64, .f32⟩ : BufTy).Contents (Elt F) → (⟨S1024x8x64, .f32⟩ : BufTy).Contents (Elt F) → (⟨S1024x8x64, .f32⟩ : BufTy).Contents (Elt F)),
    StableHlo.unary main_v39 main_v40 (broadcastInDim S1024x8x64x1 ![0, 1, 2] bcast_S1024x8x64_S1024x8x64x1_0_1_2 : (⟨S1024x8x64, .f32⟩ : BufTy).Contents (Elt F) → (⟨S1024x8x64x1, .f32⟩ : BufTy).Contents (Elt F)),
    StableHlo.unary main_v40 main_v41 (broadcastInDim S1024x8x64x64 ![0, 1, 2, 3] bcast_S1024x8x64x1_S1024x8x64x64_0_1_2_3 : (⟨S1024x8x64x1, .f32⟩ : BufTy).Contents (Elt F) → (⟨S1024x8x64x64, .f32⟩ : BufTy).Contents (Elt F)),
    StableHlo.binary main_v36 main_v41 main_v42 (subf : (⟨S1024x8x64x64, .f32⟩ : BufTy).Contents (Elt F) → (⟨S1024x8x64x64, .f32⟩ : BufTy).Contents (Elt F) → (⟨S1024x8x64x64, .f32⟩ : BufTy).Contents (Elt F)),
    StableHlo.unary main_v42 main_v43 (Host.exp : (⟨S1024x8x64x64, .f32⟩ : BufTy).Contents (Elt F) → (⟨S1024x8x64x64, .f32⟩ : BufTy).Contents (Elt F)),
    StableHlo.nullary main_cst_6 (constant S_ .f32 0x00000000#32),
    StableHlo.binary main_v43 main_cst_6 main_v44 ((fun x v => Host.reduceAdd x v reducesTo_S1024x8x64x64_S1024x8x64_d3 h_S_) : (⟨S1024x8x64x64, .f32⟩ : BufTy).Contents (Elt F) → (⟨S_, .f32⟩ : BufTy).Contents (Elt F) → (⟨S1024x8x64, .f32⟩ : BufTy).Contents (Elt F)),
    StableHlo.unary main_v44 main_v45 (broadcastInDim S1024x8x64x1 ![0, 1, 2] bcast_S1024x8x64_S1024x8x64x1_0_1_2 : (⟨S1024x8x64, .f32⟩ : BufTy).Contents (Elt F) → (⟨S1024x8x64x1, .f32⟩ : BufTy).Contents (Elt F)),
    StableHlo.unary main_v45 main_v46 (broadcastInDim S1024x8x64x64 ![0, 1, 2, 3] bcast_S1024x8x64x1_S1024x8x64x64_0_1_2_3 : (⟨S1024x8x64x1, .f32⟩ : BufTy).Contents (Elt F) → (⟨S1024x8x64x64, .f32⟩ : BufTy).Contents (Elt F)),
    StableHlo.binary main_v43 main_v46 main_v47 (Host.divf : (⟨S1024x8x64x64, .f32⟩ : BufTy).Contents (Elt F) → (⟨S1024x8x64x64, .f32⟩ : BufTy).Contents (Elt F) → (⟨S1024x8x64x64, .f32⟩ : BufTy).Contents (Elt F)),
    StableHlo.binary main_v47 main_v33 main_v48 ((fun l r => Host.dotGeneral dot_S1024x8x64x64_S1024x8x64x48_S1024x8x64x48_3_2_2_3_01_01 none l r) : (⟨S1024x8x64x64, .f32⟩ : BufTy).Contents (Elt F) → (⟨S1024x8x64x48, .f32⟩ : BufTy).Contents (Elt F) → (⟨S1024x8x64x48, .f32⟩ : BufTy).Contents (Elt F)),
    StableHlo.unary main_v48 main_v49 ((transpose S1024x64x8x48 [0, 2, 1, 3] · transposes_S1024x8x64x48_S1024x64x8x48_0_2_1_3) : (⟨S1024x8x64x48, .f32⟩ : BufTy).Contents (Elt F) → (⟨S1024x64x8x48, .f32⟩ : BufTy).Contents (Elt F)),
    StableHlo.reshape main_v49 main_v50 rfl shapeCasts_S1024x64x8x48_S1024x64x384,
    StableHlo.binary main_v50 main_arg4 main_v51 ((fun l r => Host.dotGeneral dot_S1024x64x384_S384x384_S1024x64x384_2_1_01_0_n_n none l r) : (⟨S1024x64x384, .f32⟩ : BufTy).Contents (Elt F) → (⟨S384x384, .f32⟩ : BufTy).Contents (Elt F) → (⟨S1024x64x384, .f32⟩ : BufTy).Contents (Elt F)),
    StableHlo.unary main_arg5 main_v52 (broadcastInDim S1x1x384 ![2] bcast_S384_S1x1x384_2 : (⟨S384, .f32⟩ : BufTy).Contents (Elt F) → (⟨S1x1x384, .f32⟩ : BufTy).Contents (Elt F)),
    StableHlo.unary main_v52 main_v53 (broadcastInDim S1024x64x384 ![0, 1, 2] bcast_S1x1x384_S1024x64x384_0_1_2 : (⟨S1x1x384, .f32⟩ : BufTy).Contents (Elt F) → (⟨S1024x64x384, .f32⟩ : BufTy).Contents (Elt F)),
    StableHlo.binary main_v51 main_v53 main_v54 (addf : (⟨S1024x64x384, .f32⟩ : BufTy).Contents (Elt F) → (⟨S1024x64x384, .f32⟩ : BufTy).Contents (Elt F) → (⟨S1024x64x384, .f32⟩ : BufTy).Contents (Elt F)) ]

/-- Operations 88 … 92 of the line. -/
abbrev opsPost : List (HloOp τ sig (Elt F)) :=
  [ StableHlo.reshape main_v54 main_v55 rfl shapeCasts_S1024x64x384_S16x8x8x8x8x384,
    StableHlo.unary main_v55 main_v56 ((transpose S16x8x8x8x8x384 [0, 1, 3, 2, 4, 5] · transposes_S16x8x8x8x8x384_S16x8x8x8x8x384_0_1_3_2_4_5) : (⟨S16x8x8x8x8x384, .f32⟩ : BufTy).Contents (Elt F) → (⟨S16x8x8x8x8x384, .f32⟩ : BufTy).Contents (Elt F)),
    StableHlo.reshape main_v56 main_v57 rfl shapeCasts_S16x8x8x8x8x384_S16x64x64x384,
    StableHlo.unary main_v57 main_v58 ((transpose S16x384x64x64 [0, 3, 1, 2] · transposes_S16x64x64x384_S16x384x64x64_0_3_1_2) : (⟨S16x64x64x384, .f32⟩ : BufTy).Contents (Elt F) → (⟨S16x384x64x64, .f32⟩ : BufTy).Contents (Elt F)),
    StableHlo.binary main_v58 main_arg0 main_v59 (addf : (⟨S16x384x64x64, .f32⟩ : BufTy).Contents (Elt F) → (⟨S16x384x64x64, .f32⟩ : BufTy).Contents (Elt F) → (⟨S16x384x64x64, .f32⟩ : BufTy).Contents (Elt F)) ]

/-- The whole line, in order. -/
abbrev ops : List (HloOp τ sig (Elt F)) :=
  [ StableHlo.reshape main_arg0 main_v0 rfl shapeCasts_S16x384x64x64_S16x4x96x64x64,
    StableHlo.nullary main_cst (constant S_ .f32 0x00000000#32),
    StableHlo.binary main_v0 main_cst main_v1 ((fun x v => Host.reduceAdd x v reducesTo_S16x4x96x64x64_S16x4_d2_3_4 h_S_) : (⟨S16x4x96x64x64, .f32⟩ : BufTy).Contents (Elt F) → (⟨S_, .f32⟩ : BufTy).Contents (Elt F) → (⟨S16x4, .f32⟩ : BufTy).Contents (Elt F)),
    StableHlo.unary main_v1 main_v2 (broadcastInDim S16x4x1x1x1 ![0, 1] bcast_S16x4_S16x4x1x1x1_0_1 : (⟨S16x4, .f32⟩ : BufTy).Contents (Elt F) → (⟨S16x4x1x1x1, .f32⟩ : BufTy).Contents (Elt F)),
    StableHlo.nullary main_cst_0 (constant S_ .f32 0x48C00000#32),
    StableHlo.unary main_cst_0 main_v3 (broadcastInDim S16x4x1x1x1 ![] bcast_S_S16x4x1x1x1 : (⟨S_, .f32⟩ : BufTy).Contents (Elt F) → (⟨S16x4x1x1x1, .f32⟩ : BufTy).Contents (Elt F)),
    StableHlo.binary main_v2 main_v3 main_v4 (Host.divf : (⟨S16x4x1x1x1, .f32⟩ : BufTy).Contents (Elt F) → (⟨S16x4x1x1x1, .f32⟩ : BufTy).Contents (Elt F) → (⟨S16x4x1x1x1, .f32⟩ : BufTy).Contents (Elt F)),
    StableHlo.nullary main_c (constantI S_ 32 0#32),
    StableHlo.TRef.nullary main_call0.cst (constant S_ .f32 0x00000000#32),
    StableHlo.TRef.binary (.of main_v0 : StableHlo.TRef sig ⟨S16x4x96x64x64, .f32⟩) main_call0.cst main_call0.v0 (fun x v => Host.reduceAdd x v reducesTo_S16x4x96x64x64_S16x4_d2_3_4 h_S_),
    StableHlo.TRef.unary main_call0.v0 main_call0.v1 (broadcastInDim S16x4x1x1x1 ![0, 1] bcast_S16x4_S16x4x1x1x1_0_1),
    StableHlo.TRef.nullary main_call0.cst_0 (constant S_ .f32 0x48C00000#32),
    StableHlo.TRef.unary main_call0.cst_0 main_call0.v2 (broadcastInDim S16x4x1x1x1 ![] bcast_S_S16x4x1x1x1),
    StableHlo.TRef.binary main_call0.v1 main_call0.v2 main_call0.v3 Host.divf,
    StableHlo.TRef.unary main_call0.v3 main_call0.v4 (broadcastInDim S16x4x96x64x64 ![0, 1, 2, 3, 4] bcast_S16x4x1x1x1_S16x4x96x64x64_0_1_2_3_4),
    StableHlo.TRef.binary (.of main_v0 : StableHlo.TRef sig ⟨S16x4x96x64x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48C00000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x4x96x64x64_S16x4_d2_3_4 h_S_),
    StableHlo.TRef.unary main_call0.v9 main_call0.v10 (broadcastInDim S16x4x1x1x1 ![0, 1] bcast_S16x4_S16x4x1x1x1_0_1),
    StableHlo.TRef.unary main_call0.v8 main_call0.v11 (broadcastInDim S16x4x1x1x1 ![] bcast_S_S16x4x1x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16x4x1x1x1 ![] bcast_S_S16x4x1x1x1),
    StableHlo.TRef.ternary main_call0.v13 main_call0.v12 main_call0.call0.v1 main_call0.call0.v2 (fun p a b => select (broadcastInDim S16x4x1x1x1 ![] bcast_S_S16x4x1x1x1 p) a b),
    StableHlo.unary main_v4 main_v6 (broadcastInDim S16x4x96x64x64 ![0, 1, 2, 3, 4] bcast_S16x4x1x1x1_S16x4x96x64x64_0_1_2_3_4 : (⟨S16x4x1x1x1, .f32⟩ : BufTy).Contents (Elt F) → (⟨S16x4x96x64x64, .f32⟩ : BufTy).Contents (Elt F)),
    StableHlo.binary main_v0 main_v6 main_v7 (subf : (⟨S16x4x96x64x64, .f32⟩ : BufTy).Contents (Elt F) → (⟨S16x4x96x64x64, .f32⟩ : BufTy).Contents (Elt F) → (⟨S16x4x96x64x64, .f32⟩ : BufTy).Contents (Elt F)),
    StableHlo.nullary main_cst_1 (constant S_ .f32 0x3727C5AC#32),
    StableHlo.unary main_cst_1 main_v8 (broadcastInDim S16x4x1x1x1 ![] bcast_S_S16x4x1x1x1 : (⟨S_, .f32⟩ : BufTy).Contents (Elt F) → (⟨S16x4x1x1x1, .f32⟩ : BufTy).Contents (Elt F)),
    StableHlo.binary main_v5 main_v8 main_v9 (addf : (⟨S16x4x1x1x1, .f32⟩ : BufTy).Contents (Elt F) → (⟨S16x4x1x1x1, .f32⟩ : BufTy).Contents (Elt F) → (⟨S16x4x1x1x1, .f32⟩ : BufTy).Contents (Elt F)),
    StableHlo.unary main_v9 main_v10 (Host.rsqrt : (⟨S16x4x1x1x1, .f32⟩ : BufTy).Contents (Elt F) → (⟨S16x4x1x1x1, .f32⟩ : BufTy).Contents (Elt F)),
    StableHlo.unary main_v10 main_v11 (broadcastInDim S16x4x96x64x64 ![0, 1, 2, 3, 4] bcast_S16x4x1x1x1_S16x4x96x64x64_0_1_2_3_4 : (⟨S16x4x1x1x1, .f32⟩ : BufTy).Contents (Elt F) → (⟨S16x4x96x64x64, .f32⟩ : BufTy).Contents (Elt F)),
    StableHlo.binary main_v7 main_v11 main_v12 (mulf : (⟨S16x4x96x64x64, .f32⟩ : BufTy).Contents (Elt F) → (⟨S16x4x96x64x64, .f32⟩ : BufTy).Contents (Elt F) → (⟨S16x4x96x64x64, .f32⟩ : BufTy).Contents (Elt F)),
    StableHlo.reshape main_v12 main_v13 rfl shapeCasts_S16x4x96x64x64_S16x384x64x64,
    StableHlo.unary main_arg1 main_v14 (broadcastInDim S1x384x1x1 ![1] bcast_S384_S1x384x1x1_1 : (⟨S384, .f32⟩ : BufTy).Contents (Elt F) → (⟨S1x384x1x1, .f32⟩ : BufTy).Contents (Elt F)),
    StableHlo.unary main_v14 main_v15 (broadcastInDim S16x384x64x64 ![0, 1, 2, 3] bcast_S1x384x1x1_S16x384x64x64_0_1_2_3 : (⟨S1x384x1x1, .f32⟩ : BufTy).Contents (Elt F) → (⟨S16x384x64x64, .f32⟩ : BufTy).Contents (Elt F)),
    StableHlo.binary main_v13 main_v15 main_v16 (mulf : (⟨S16x384x64x64, .f32⟩ : BufTy).Contents (Elt F) → (⟨S16x384x64x64, .f32⟩ : BufTy).Contents (Elt F) → (⟨S16x384x64x64, .f32⟩ : BufTy).Contents (Elt F)),
    StableHlo.unary main_arg2 main_v17 (broadcastInDim S1x384x1x1 ![1] bcast_S384_S1x384x1x1_1 : (⟨S384, .f32⟩ : BufTy).Contents (Elt F) → (⟨S1x384x1x1, .f32⟩ : BufTy).Contents (Elt F)),
    StableHlo.unary main_v17 main_v18 (broadcastInDim S16x384x64x64 ![0, 1, 2, 3] bcast_S1x384x1x1_S16x384x64x64_0_1_2_3 : (⟨S1x384x1x1, .f32⟩ : BufTy).Contents (Elt F) → (⟨S16x384x64x64, .f32⟩ : BufTy).Contents (Elt F)),
    StableHlo.binary main_v16 main_v18 main_v19 (addf : (⟨S16x384x64x64, .f32⟩ : BufTy).Contents (Elt F) → (⟨S16x384x64x64, .f32⟩ : BufTy).Contents (Elt F) → (⟨S16x384x64x64, .f32⟩ : BufTy).Contents (Elt F)),
    StableHlo.unary main_v19 main_v20 ((transpose S16x64x64x384 [0, 2, 3, 1] · transposes_S16x384x64x64_S16x64x64x384_0_2_3_1) : (⟨S16x384x64x64, .f32⟩ : BufTy).Contents (Elt F) → (⟨S16x64x64x384, .f32⟩ : BufTy).Contents (Elt F)),
    StableHlo.nullary main_c_2 (constantI S_ 32 0#32),
    StableHlo.TRef.unary (.of main_c_2 : StableHlo.TRef sig ⟨S_, .i32⟩) main_call1.v0 (sitofp .f32),
    StableHlo.TRef.binary (.of main_v20 : StableHlo.TRef sig ⟨S16x64x64x384, .f32⟩) main_call1.v0 main_call1.v1 (fun x v => pad S16x64x64x384 ![0, 0, 0, 0] ![0, 0, 0, 0] ![0, 0, 0, 0] x v pads_S16x64x64x384_S16x64x64x384_000_000_000_000 h_S_),
    StableHlo.reshape main_v21 main_v22 rfl shapeCasts_S16x64x64x384_S16x8x8x8x8x384,
    StableHlo.unary main_v22 main_v23 ((transpose S16x8x8x8x8x384 [0, 1, 3, 2, 4, 5] · transposes_S16x8x8x8x8x384_S16x8x8x8x8x384_0_1_3_2_4_5) : (⟨S16x8x8x8x8x384, .f32⟩ : BufTy).Contents (Elt F) → (⟨S16x8x8x8x8x384, .f32⟩ : BufTy).Contents (Elt F)),
    StableHlo.reshape main_v23 main_v24 rfl shapeCasts_S16x8x8x8x8x384_S1024x64x384,
    StableHlo.binary main_v24 main_arg3 main_v25 ((fun l r => Host.dotGeneral dot_S1024x64x384_S1152x384_S1024x64x1152_2_1_01_0_n_n none l r) : (⟨S1024x64x384, .f32⟩ : BufTy).Contents (Elt F) → (⟨S1152x384, .f32⟩ : BufTy).Contents (Elt F) → (⟨S1024x64x1152, .f32⟩ : BufTy).Contents (Elt F)),
    StableHlo.reshape main_v25 main_v26 rfl shapeCasts_S1024x64x1152_S1024x64x3x8x48,
    StableHlo.unary main_v26 main_v27 ((transpose S3x1024x8x64x48 [2, 0, 3, 1, 4] · transposes_S1024x64x3x8x48_S3x1024x8x64x48_2_0_3_1_4) : (⟨S1024x64x3x8x48, .f32⟩ : BufTy).Contents (Elt F) → (⟨S3x1024x8x64x48, .f32⟩ : BufTy).Contents (Elt F)),
    StableHlo.unary main_v27 main_v28 ((extractStridedSlice S1x1024x8x64x48 ![0, 0, 0, 0, 0] · slices_S3x1024x8x64x48_S1x1024x8x64x48_0_0_0_0_0) : (⟨S3x1024x8x64x48, .f32⟩ : BufTy).Contents (Elt F) → (⟨S1x1024x8x64x48, .f32⟩ : BufTy).Contents (Elt F)),
    StableHlo.reshape main_v28 main_v29 rfl shapeCasts_S1x1024x8x64x48_S1024x8x64x48,
    StableHlo.unary main_v27 main_v30 ((extractStridedSlice S1x1024x8x64x48 ![1, 0, 0, 0, 0] · slices_S3x1024x8x64x48_S1x1024x8x64x48_1_0_0_0_0) : (⟨S3x1024x8x64x48, .f32⟩ : BufTy).Contents (Elt F) → (⟨S1x1024x8x64x48, .f32⟩ : BufTy).Contents (Elt F)),
    StableHlo.reshape main_v30 main_v31 rfl shapeCasts_S1x1024x8x64x48_S1024x8x64x48,
    StableHlo.unary main_v27 main_v32 ((extractStridedSlice S1x1024x8x64x48 ![2, 0, 0, 0, 0] · slices_S3x1024x8x64x48_S1x1024x8x64x48_2_0_0_0_0) : (⟨S3x1024x8x64x48, .f32⟩ : BufTy).Contents (Elt F) → (⟨S1x1024x8x64x48, .f32⟩ : BufTy).Contents (Elt F)),
    StableHlo.reshape main_v32 main_v33 rfl shapeCasts_S1x1024x8x64x48_S1024x8x64x48,
    StableHlo.nullary main_cst_3 (constant S_ .f32 0x3E13CD3A#32),
    StableHlo.unary main_cst_3 main_v34 (broadcastInDim S1024x8x64x48 ![] bcast_S_S1024x8x64x48 : (⟨S_, .f32⟩ : BufTy).Contents (Elt F) → (⟨S1024x8x64x48, .f32⟩ : BufTy).Contents (Elt F)),
    StableHlo.binary main_v29 main_v34 main_v35 (mulf : (⟨S1024x8x64x48, .f32⟩ : BufTy).Contents (Elt F) → (⟨S1024x8x64x48, .f32⟩ : BufTy).Contents (Elt F) → (⟨S1024x8x64x48, .f32⟩ : BufTy).Contents (Elt F)),
    StableHlo.binary main_v35 main_v31 main_v36 ((fun l r => Host.dotGeneral dot_S1024x8x64x48_S1024x8x64x48_S1024x8x64x64_3_3_2_2_01_01 none l r) : (⟨S1024x8x64x48, .f32⟩ : BufTy).Contents (Elt F) → (⟨S1024x8x64x48, .f32⟩ : BufTy).Contents (Elt F) → (⟨S1024x8x64x64, .f32⟩ : BufTy).Contents (Elt F)),
    StableHlo.nullary main_cst_4 (constant S_ .f32 0xFF800000#32),
    StableHlo.binary main_v36 main_cst_4 main_v37 ((fun x v => Host.reduce FloatOps.maximumf x v reducesTo_S1024x8x64x64_S1024x8x64_d3 h_S_) : (⟨S1024x8x64x64, .f32⟩ : BufTy).Contents (Elt F) → (⟨S_, .f32⟩ : BufTy).Contents (Elt F) → (⟨S1024x8x64, .f32⟩ : BufTy).Contents (Elt F)),
    StableHlo.nullary main_cst_5 (constant S_ .f32 0xFF800000#32),
    StableHlo.unary main_cst_5 main_v38 (broadcastInDim S1024x8x64 ![] bcast_S_S1024x8x64 : (⟨S_, .f32⟩ : BufTy).Contents (Elt F) → (⟨S1024x8x64, .f32⟩ : BufTy).Contents (Elt F)),
    StableHlo.binary main_v38 main_v37 main_v39 (maximumf : (⟨S1024x8x64, .f32⟩ : BufTy).Contents (Elt F) → (⟨S1024x8x64, .f32⟩ : BufTy).Contents (Elt F) → (⟨S1024x8x64, .f32⟩ : BufTy).Contents (Elt F)),
    StableHlo.unary main_v39 main_v40 (broadcastInDim S1024x8x64x1 ![0, 1, 2] bcast_S1024x8x64_S1024x8x64x1_0_1_2 : (⟨S1024x8x64, .f32⟩ : BufTy).Contents (Elt F) → (⟨S1024x8x64x1, .f32⟩ : BufTy).Contents (Elt F)),
    StableHlo.unary main_v40 main_v41 (broadcastInDim S1024x8x64x64 ![0, 1, 2, 3] bcast_S1024x8x64x1_S1024x8x64x64_0_1_2_3 : (⟨S1024x8x64x1, .f32⟩ : BufTy).Contents (Elt F) → (⟨S1024x8x64x64, .f32⟩ : BufTy).Contents (Elt F)),
    StableHlo.binary main_v36 main_v41 main_v42 (subf : (⟨S1024x8x64x64, .f32⟩ : BufTy).Contents (Elt F) → (⟨S1024x8x64x64, .f32⟩ : BufTy).Contents (Elt F) → (⟨S1024x8x64x64, .f32⟩ : BufTy).Contents (Elt F)),
    StableHlo.unary main_v42 main_v43 (Host.exp : (⟨S1024x8x64x64, .f32⟩ : BufTy).Contents (Elt F) → (⟨S1024x8x64x64, .f32⟩ : BufTy).Contents (Elt F)),
    StableHlo.nullary main_cst_6 (constant S_ .f32 0x00000000#32),
    StableHlo.binary main_v43 main_cst_6 main_v44 ((fun x v => Host.reduceAdd x v reducesTo_S1024x8x64x64_S1024x8x64_d3 h_S_) : (⟨S1024x8x64x64, .f32⟩ : BufTy).Contents (Elt F) → (⟨S_, .f32⟩ : BufTy).Contents (Elt F) → (⟨S1024x8x64, .f32⟩ : BufTy).Contents (Elt F)),
    StableHlo.unary main_v44 main_v45 (broadcastInDim S1024x8x64x1 ![0, 1, 2] bcast_S1024x8x64_S1024x8x64x1_0_1_2 : (⟨S1024x8x64, .f32⟩ : BufTy).Contents (Elt F) → (⟨S1024x8x64x1, .f32⟩ : BufTy).Contents (Elt F)),
    StableHlo.unary main_v45 main_v46 (broadcastInDim S1024x8x64x64 ![0, 1, 2, 3] bcast_S1024x8x64x1_S1024x8x64x64_0_1_2_3 : (⟨S1024x8x64x1, .f32⟩ : BufTy).Contents (Elt F) → (⟨S1024x8x64x64, .f32⟩ : BufTy).Contents (Elt F)),
    StableHlo.binary main_v43 main_v46 main_v47 (Host.divf : (⟨S1024x8x64x64, .f32⟩ : BufTy).Contents (Elt F) → (⟨S1024x8x64x64, .f32⟩ : BufTy).Contents (Elt F) → (⟨S1024x8x64x64, .f32⟩ : BufTy).Contents (Elt F)),
    StableHlo.binary main_v47 main_v33 main_v48 ((fun l r => Host.dotGeneral dot_S1024x8x64x64_S1024x8x64x48_S1024x8x64x48_3_2_2_3_01_01 none l r) : (⟨S1024x8x64x64, .f32⟩ : BufTy).Contents (Elt F) → (⟨S1024x8x64x48, .f32⟩ : BufTy).Contents (Elt F) → (⟨S1024x8x64x48, .f32⟩ : BufTy).Contents (Elt F)),
    StableHlo.unary main_v48 main_v49 ((transpose S1024x64x8x48 [0, 2, 1, 3] · transposes_S1024x8x64x48_S1024x64x8x48_0_2_1_3) : (⟨S1024x8x64x48, .f32⟩ : BufTy).Contents (Elt F) → (⟨S1024x64x8x48, .f32⟩ : BufTy).Contents (Elt F)),
    StableHlo.reshape main_v49 main_v50 rfl shapeCasts_S1024x64x8x48_S1024x64x384,
    StableHlo.binary main_v50 main_arg4 main_v51 ((fun l r => Host.dotGeneral dot_S1024x64x384_S384x384_S1024x64x384_2_1_01_0_n_n none l r) : (⟨S1024x64x384, .f32⟩ : BufTy).Contents (Elt F) → (⟨S384x384, .f32⟩ : BufTy).Contents (Elt F) → (⟨S1024x64x384, .f32⟩ : BufTy).Contents (Elt F)),
    StableHlo.unary main_arg5 main_v52 (broadcastInDim S1x1x384 ![2] bcast_S384_S1x1x384_2 : (⟨S384, .f32⟩ : BufTy).Contents (Elt F) → (⟨S1x1x384, .f32⟩ : BufTy).Contents (Elt F)),
    StableHlo.unary main_v52 main_v53 (broadcastInDim S1024x64x384 ![0, 1, 2] bcast_S1x1x384_S1024x64x384_0_1_2 : (⟨S1x1x384, .f32⟩ : BufTy).Contents (Elt F) → (⟨S1024x64x384, .f32⟩ : BufTy).Contents (Elt F)),
    StableHlo.binary main_v51 main_v53 main_v54 (addf : (⟨S1024x64x384, .f32⟩ : BufTy).Contents (Elt F) → (⟨S1024x64x384, .f32⟩ : BufTy).Contents (Elt F) → (⟨S1024x64x384, .f32⟩ : BufTy).Contents (Elt F)),
    StableHlo.reshape main_v54 main_v55 rfl shapeCasts_S1024x64x384_S16x8x8x8x8x384,
    StableHlo.unary main_v55 main_v56 ((transpose S16x8x8x8x8x384 [0, 1, 3, 2, 4, 5] · transposes_S16x8x8x8x8x384_S16x8x8x8x8x384_0_1_3_2_4_5) : (⟨S16x8x8x8x8x384, .f32⟩ : BufTy).Contents (Elt F) → (⟨S16x8x8x8x8x384, .f32⟩ : BufTy).Contents (Elt F)),
    StableHlo.reshape main_v56 main_v57 rfl shapeCasts_S16x8x8x8x8x384_S16x64x64x384,
    StableHlo.unary main_v57 main_v58 ((transpose S16x384x64x64 [0, 3, 1, 2] · transposes_S16x64x64x384_S16x384x64x64_0_3_1_2) : (⟨S16x64x64x384, .f32⟩ : BufTy).Contents (Elt F) → (⟨S16x384x64x64, .f32⟩ : BufTy).Contents (Elt F)),
    StableHlo.binary main_v58 main_arg0 main_v59 (addf : (⟨S16x384x64x64, .f32⟩ : BufTy).Contents (Elt F) → (⟨S16x384x64x64, .f32⟩ : BufTy).Contents (Elt F) → (⟨S16x384x64x64, .f32⟩ : BufTy).Contents (Elt F)) ]

/-- The line is its four stretches one after the other. -/
theorem ops_eq : (ops : List (HloOp τ sig (Elt F))) = opsGn ++ (opsPrep ++ (opsAttn ++ opsPost)) := rfl

set_option maxHeartbeats 8000000 in
set_option maxRecDepth 4096 in
/-- @main is that straight line: the functions' definitions unfolded at their calls, sequencing reassociated. -/
theorem main_eq (c : Dev nD) : main (F := F) c = seq ops := by
  simp only [main, main_part0, main_part1, fn_var.body, fn_where.body, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., unary_bufs_sub .., nullary_bufs_sub .., unary_bufs_sub .., binary_bufs_sub .., reshape_bufs_sub .., unary_bufs_sub .., reshape_bufs_sub .., binary_bufs_sub .., reshape_bufs_sub .., unary_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub .., reshape_bufs_sub .., unary_bufs_sub .., reshape_bufs_sub .., unary_bufs_sub .., binary_bufs_sub ..⟩

end Cert.ReferenceIdeal.RefRun

end
-- ==== Proof.RefGn.lean ====
import proofs.«108577_j35562329211765_2_alg».proof.ReferenceIdeal
import proofs.«108577_j35562329211765_2_alg».proof.Proof.Spec
import proofs.«108577_j35562329211765_2_alg».proof.Proof.LibRealEntries
import Idealize.ShloMosaic.Lib.ValueIdx
import Idealize.ShloMosaic.Lib.IdealHost
import Idealize.ShloMosaic.Lib.Pipeline.Value
import Idealize.ShloMosaic.PureOps.Ideal.Laws

/-!
# The reference's group-normalisation stage as one function of its three arrays

The operations the reference applies to its first three arguments up to the affine map per channel, composed in
program order: the array regrouped as [16, 4, 96, 64, 64], the mean over the last three axes, the variance as the
mean of the squared centred entries (guarded by a comparison of the count with zero), the centred entries times
the reciprocal square root of the variance plus a small constant, regrouped back, times the weight plus the bias.

On an array of real entries this function is the specification's group normalisation (gnRef_eq): the sum over the three
reduced axes at (n, g) is the triple sum over the group's coordinates, every intermediate value is the coercion of a real
number, the count word is 393216 > 0 so the guard keeps the quotient, and the variance is the centred form on both sides.
-/

noncomputable section

namespace Cert.ReferenceIdeal.RefGn

open Idealize.ShloMosaic Idealize.SL.Sem
open Cert.ReferenceIdeal

variable {F : FTy → Type} [FloatOps F] [Facts]
open Facts₀ Facts

/-- The array regrouped: channel g · 96 + c becomes the pair (g, c). -/
def regroupRef (x : FVec F S16x384x64x64 .f32) : FVec F S16x4x96x64x64 .f32 :=
  shapeCast S16x4x96x64x64 x shapeCasts_S16x384x64x64_S16x4x96x64x64

/-- A scalar spread over [16, 4, 1, 1, 1]. -/
def spreadScalar {α : Type} (c : S_.Idx → α) : S16x4x1x1x1.Idx → α :=
  broadcastInDim S16x4x1x1x1 ![] bcast_S_S16x4x1x1x1 c

/-- A [16, 4] array read as [16, 4, 1, 1, 1]. -/
def keepRef (s : FVec F S16x4 .f32) : FVec F S16x4x1x1x1 .f32 :=
  broadcastInDim S16x4x1x1x1 ![0, 1] bcast_S16x4_S16x4x1x1x1_0_1 s

/-- A [16, 4, 1, 1, 1] array spread over the group's entries. -/
def spreadRef (m : FVec F S16x4x1x1x1 .f32) : FVec F S16x4x96x64x64 .f32 :=
  broadcastInDim S16x4x96x64x64 ![0, 1, 2, 3, 4] bcast_S16x4x1x1x1_S16x4x96x64x64_0_1_2_3_4 m

/-- The sum over a group's entries, from zero. -/
def sumRef (y : FVec F S16x4x96x64x64 .f32) : FVec F S16x4 .f32 :=
  Host.reduceAdd y (constant S_ .f32 0x00000000#32) reducesTo_S16x4x96x64x64_S16x4_d2_3_4 h_S_

/-- The mean of a group's entries: the sum over the count 393216. -/
def meanRef (y : FVec F S16x4x96x64x64 .f32) : FVec F S16x4x1x1x1 .f32 :=
  Host.divf (keepRef (sumRef y)) (spreadScalar (constant S_ .f32 0x48C00000#32))

/-- The count less the correction (zero). -/
def countRef : FVec F S_ .f32 :=
  subf (constant S_ .f32 0x48C00000#32) (sitofp .f32 (constantI S_ 32 0#32))

/-- The centred entries. -/
def centredRef (y : FVec F S16x4x96x64x64 .f32) : FVec F S16x4x96x64x64 .f32 :=
  subf y (spreadRef (meanRef y))

/-- Their squares. -/
def squareRef (y : FVec F S16x4x96x64x64 .f32) : FVec F S16x4x96x64x64 .f32 :=
  mulf (centredRef y) (centredRef y)

/-- The sum of the squares over the count. -/
def quotRef (y : FVec F S16x4x96x64x64 .f32) : FVec F S16x4x1x1x1 .f32 :=
  Host.divf (keepRef (sumRef (squareRef y))) (spreadScalar countRef)

/-- Whether the count is positive. -/
def positiveRef : IVec S_ 1 :=
  cmpf .ogt (countRef (F := F)) (constant S_ .f32 0x00000000#32)

/-- The variance: the quotient where the count is positive, the not-a-number word elsewhere. -/
def varRef (y : FVec F S16x4x96x64x64 .f32) : FVec F S16x4x1x1x1 .f32 :=
  select (broadcastInDim S16x4x1x1x1 ![] bcast_S_S16x4x1x1x1 (positiveRef (F := F))) (quotRef y)
    (spreadScalar (id (constant S_ .f32 0x7FC00000#32)))

/-- The reciprocal square root of the variance plus the small constant. -/
def rstdRef (y : FVec F S16x4x96x64x64 .f32) : FVec F S16x4x1x1x1 .f32 :=
  Host.rsqrt (addf (varRef y) (spreadScalar (constant S_ .f32 0x3727C5AC#32)))

/-- The normalised entries in the grouped shape. -/
def normRef (y : FVec F S16x4x96x64x64 .f32) : FVec F S16x4x96x64x64 .f32 :=
  mulf (subf y (spreadRef (meanRef y))) (spreadRef (rstdRef y))

/-- A per-channel vector spread over [16, 384, 64, 64]. -/
def channelRef (w : FVec F S384 .f32) : FVec F S16x384x64x64 .f32 :=
  broadcastInDim S16x384x64x64 ![0, 1, 2, 3] bcast_S1x384x1x1_S16x384x64x64_0_1_2_3
    (broadcastInDim S1x384x1x1 ![1] bcast_S384_S1x384x1x1_1 w)

/-- The whole stage. -/
def gnRef (x : FVec F S16x384x64x64 .f32) (w b : FVec F S384 .f32) : FVec F S16x384x64x64 .f32 :=
  addf (mulf (shapeCast S16x384x64x64 (normRef (regroupRef x)) shapeCasts_S16x4x96x64x64_S16x384x64x64) (channelRef w))
    (channelRef b)

end Cert.ReferenceIdeal.RefGn

namespace Cert.ReferenceIdeal.RefGn

open Idealize.ShloMosaic Idealize.ShloMosaic.ValueIdx
open Cert.ReferenceIdeal

variable [Facts]
open Facts₀ Facts

/-! ## The words -/

/-- The count word is the real 393216 = 96 · 64 · 64. -/
theorem ofBits_n : Ideal.ofBits .f32 0x48C00000#32 = ((393216 : ℝ) : EReal) := by
  simp [Ideal.ofBits, Ideal.ieee, -EReal.coe_mul]; norm_num

/-! ## The sum over a group -/

/-- Dropping the three reduced axes of an index leaves its first two coordinates. -/
theorem drop_ix5 (hr : S16x4x96x64x64.ReducesTo [2, 3, 4] S16x4) (i : S16x4x96x64x64.Idx) :
    hr.drop i = ix2 (i 0) (i 1) := by
  funext b
  apply Fin.ext
  match b with
  | ⟨0, _⟩ => exact hr.drop_apply_val_of_eq i 0 0
  | ⟨1, _⟩ => exact hr.drop_apply_val_of_eq i 1 1

/-- The sum over the indices that reduce to (n, g) is the triple sum over the group's coordinates. -/
theorem sum_group {M : Type*} [AddCommMonoid M] (hr : S16x4x96x64x64.ReducesTo [2, 3, 4] S16x4)
    (f : S16x4x96x64x64.Idx → M) (n : Fin 16) (g : Fin 4) [DecidablePred fun i => hr.drop i = ix2 n g] :
    ∑ i ∈ Finset.univ.filter (fun i => hr.drop i = ix2 n g), f i
      = ∑ c : Fin 96, ∑ h : Fin 64, ∑ v : Fin 64, f (ix5 n g c h v) := by
  have key : ∀ i : S16x4x96x64x64.Idx, hr.drop i = ix2 n g → ix5 n g (i 2) (i 3) (i 4) = i := by
    intro i hi
    rw [drop_ix5] at hi
    have h0 : i 0 = n := congrFun hi 0
    have h1 : i 1 = g := congrFun hi 1
    rw [← h0, ← h1]; exact (eq_ix5 i).symm
  have e : ∑ i ∈ Finset.univ.filter (fun i => hr.drop i = ix2 n g), f i
      = ∑ p : Fin 96 × Fin 64 × Fin 64, f (ix5 n g p.1 p.2.1 p.2.2) := by
    refine Finset.sum_nbij' (fun i => (i 2, i 3, i 4)) (fun p => ix5 n g p.1 p.2.1 p.2.2) ?_ ?_ ?_ ?_ ?_
    · intro i _; exact Finset.mem_univ _
    · intro p _; rw [Finset.mem_filter]; exact ⟨Finset.mem_univ _, (drop_ix5 hr _).trans rfl⟩
    · intro i hi; exact key i (Finset.mem_filter.mp hi).2
    · intro p _; rfl
    · intro i hi; exact congrArg f (key i (Finset.mem_filter.mp hi).2).symm
  rw [e, Fintype.sum_prod_type]
  refine Finset.sum_congr rfl fun c _ => ?_
  rw [Fintype.sum_prod_type]

/-- The reference's sum over a group, from zero, is the triple sum of the group's entries. -/
theorem sumRef_apply (y : FVec Ideal S16x4x96x64x64 .f32) (n : Fin 16) (g : Fin 4) :
    sumRef (F := Ideal) y (ix2 n g) = ∑ c : Fin 96, ∑ h : Fin 64, ∑ v : Fin 64, y (ix5 n g c h v) := by
  unfold sumRef
  rw [hostReduceAdd_apply]
  unfold Ideal.hostReduceAdd
  rw [sum_group, constant_apply, Ideal.ofBits_zero_f32, zero_add]

/-! ## The regrouping -/

/-- The regrouped array at (n, g, c, h, v) is the array at channel g · 96 + c. -/
theorem regroupRef_apply {F : FTy → Type} [FloatOps F] (x : FVec F S16x384x64x64 .f32) (n : Fin 16) (g : Fin 4) (c : Fin 96) (h v : Fin 64) :
    regroupRef x (ix5 n g c h v) = x (ix4 n (Cert.Spec.chan g c) h v) :=
  shapeCast_apply x _ _ _ (by
    rw [Shape.rowMajor_val_four, Shape.rowMajor_val_five]
    show ((n.val * 384 + (g.val * 96 + c.val)) * 64 + h.val) * 64 + v.val
      = (((n.val * 4 + g.val) * 96 + c.val) * 64 + h.val) * 64 + v.val
    ring)

/-! ## The spreads at an index -/

/-- A scalar spread over [16, 4, 1, 1, 1] is the scalar everywhere. -/
theorem spreadScalar_apply {α : Type} (c : S_.Idx → α) (j : S16x4x1x1x1.Idx) : spreadScalar c j = c ix0 :=
  broadcastInDim_apply _ _ c j ix0 (fun a => a.elim0)

/-- A [16, 4] array read as [16, 4, 1, 1, 1] at (n, g, ·, ·, ·) is the array at (n, g). -/
theorem keepRef_apply {F : FTy → Type} [FloatOps F] (s : FVec F S16x4 .f32) (n : Fin 16) (g : Fin 4) (a b c : Fin 1) :
    keepRef s (ix5 n g a b c) = s (ix2 n g) :=
  broadcastInDim_apply _ _ s (ix5 n g a b c) (ix2 n g) (fun x => by
    match x with
    | ⟨0, _⟩ => rfl
    | ⟨1, _⟩ => rfl)

/-- A [16, 4, 1, 1, 1] array spread over the group at (n, g, c, h, v) is the array at (n, g, 0, 0, 0). -/
theorem spreadRef_apply {F : FTy → Type} [FloatOps F] (m : FVec F S16x4x1x1x1 .f32) (n : Fin 16) (g : Fin 4) (c : Fin 96) (h v : Fin 64) :
    spreadRef m (ix5 n g c h v) = m (ix5 n g (0 : Fin 1) (0 : Fin 1) (0 : Fin 1)) :=
  broadcastInDim_apply _ _ m (ix5 n g c h v) (ix5 n g (0 : Fin 1) (0 : Fin 1) (0 : Fin 1)) (fun x => by
    match x with
    | ⟨0, _⟩ => rfl
    | ⟨1, _⟩ => rfl
    | ⟨2, _⟩ => rfl
    | ⟨3, _⟩ => rfl
    | ⟨4, _⟩ => rfl)

/-- A per-channel vector spread over [16, 384, 64, 64] at (n, ch, h, v) is the vector at ch. -/
theorem channelRef_apply {F : FTy → Type} [FloatOps F] (w : FVec F S384 .f32) (n : Fin 16) (ch : Fin 384) (h v : Fin 64) :
    channelRef w (ix4 n ch h v) = w (ix1 ch) := by
  refine (broadcastInDim_apply _ _ _ (ix4 n ch h v) (ix4 (0 : Fin 1) ch (0 : Fin 1) (0 : Fin 1)) (fun x => ?_)).trans
    (broadcastInDim_apply _ _ w (ix4 (0 : Fin 1) ch (0 : Fin 1) (0 : Fin 1)) (ix1 ch) (fun x => ?_))
  · match x with
    | ⟨0, _⟩ => rfl
    | ⟨1, _⟩ => rfl
    | ⟨2, _⟩ => rfl
    | ⟨3, _⟩ => rfl
  · match x with
    | ⟨0, _⟩ => rfl

/-- The array regrouped back at (n, ch, h, v) is the grouped array at the channel's group and place. -/
theorem ungroup_apply {α : Type} (f : S16x4x96x64x64.Idx → α) (n : Fin 16) (ch : Fin 384) (h v : Fin 64) :
    shapeCast S16x384x64x64 f shapeCasts_S16x4x96x64x64_S16x384x64x64 (ix4 n ch h v)
      = f (ix5 n (Cert.Spec.grp ch) (Cert.Spec.sub ch) h v) :=
  shapeCast_apply f _ _ _ (by
    rw [Shape.rowMajor_val_four, Shape.rowMajor_val_five]
    show (((n.val * 4 + ch.val / 96) * 96 + ch.val % 96) * 64 + h.val) * 64 + v.val
      = ((n.val * 384 + ch.val) * 64 + h.val) * 64 + v.val
    have := ch.isLt
    omega)

/-- The channel of a channel's group and place is the channel. -/
theorem chan_grp_sub (ch : Fin 384) : Cert.Spec.chan (Cert.Spec.grp ch) (Cert.Spec.sub ch) = ch := by
  apply Fin.ext
  show ch.val / 96 * 96 + ch.val % 96 = ch.val
  omega

/-! ## The stage on real entries -/

section Real

variable (y : FVec Ideal S16x4x96x64x64 .f32) (n : Fin 16) (g : Fin 4) (yr : Fin 96 → Fin 64 → Fin 64 → ℝ)

/-- The mean of a group's real entries. -/
def rmean (yr : Fin 96 → Fin 64 → Fin 64 → ℝ) : ℝ := (∑ c : Fin 96, ∑ h : Fin 64, ∑ v : Fin 64, yr c h v) / 393216

/-- The variance of a group's real entries: the mean of the squared centred entries. -/
def rvar (yr : Fin 96 → Fin 64 → Fin 64 → ℝ) : ℝ :=
  (∑ c : Fin 96, ∑ h : Fin 64, ∑ v : Fin 64, (yr c h v - rmean yr) * (yr c h v - rmean yr)) / 393216

/-- The sum of a group of real entries is the real sum. -/
theorem sumRef_coe (hy : ∀ c h v, y (ix5 n g c h v) = ((yr c h v : ℝ) : EReal)) :
    sumRef (F := Ideal) y (ix2 n g) = ((∑ c : Fin 96, ∑ h : Fin 64, ∑ v : Fin 64, yr c h v : ℝ) : EReal) := by
  rw [sumRef_apply]
  simp only [hy, RealEntries.univ_sum_coe]

/-- The mean of a group of real entries is the real mean. -/
theorem meanRef_coe (hy : ∀ c h v, y (ix5 n g c h v) = ((yr c h v : ℝ) : EReal)) (a b c : Fin 1) :
    meanRef (F := Ideal) y (ix5 n g a b c) = ((rmean yr : ℝ) : EReal) := by
  show Ideal.div (keepRef (sumRef (F := Ideal) y) (ix5 n g a b c)) (spreadScalar (constant (F := Ideal) S_ .f32 0x48C00000#32) (ix5 n g a b c)) = _
  rw [keepRef_apply, spreadScalar_apply, constant_apply, ofBits_n, sumRef_coe y n g yr hy,
    RealEntries.div_coe_coe _ (by norm_num)]
  rfl

/-- The centred entries of a group of real entries. -/
theorem centredRef_coe (hy : ∀ c h v, y (ix5 n g c h v) = ((yr c h v : ℝ) : EReal)) (c : Fin 96) (h v : Fin 64) :
    centredRef (F := Ideal) y (ix5 n g c h v) = ((yr c h v - rmean yr : ℝ) : EReal) := by
  show y (ix5 n g c h v) - spreadRef (meanRef (F := Ideal) y) (ix5 n g c h v) = _
  rw [spreadRef_apply, meanRef_coe y n g yr hy, hy, RealEntries.sub_coe]

/-- Their squares. -/
theorem squareRef_coe (hy : ∀ c h v, y (ix5 n g c h v) = ((yr c h v : ℝ) : EReal)) (c : Fin 96) (h v : Fin 64) :
    squareRef (F := Ideal) y (ix5 n g c h v) = (((yr c h v - rmean yr) * (yr c h v - rmean yr) : ℝ) : EReal) := by
  show centredRef (F := Ideal) y (ix5 n g c h v) * centredRef (F := Ideal) y (ix5 n g c h v) = _
  rw [centredRef_coe y n g yr hy, RealEntries.mul_coe]

/-- The count less the correction is the real 393216. -/
theorem countRef_apply : countRef (F := Ideal) ix0 = ((393216 : ℝ) : EReal) := by
  show Ideal.ofBits .f32 0x48C00000#32 - (((0#32 : BitVec 32).toInt : ℝ) : EReal) = _
  rw [ofBits_n, RealEntries.sub_coe]
  norm_num

/-- The count is positive. -/
theorem positiveRef_apply : positiveRef (F := Ideal) ix0 = 1#1 := by
  show Ideal.cmp .ogt (countRef (F := Ideal) ix0) (Ideal.ofBits .f32 0x00000000#32) = 1#1
  rw [countRef_apply, Ideal.ofBits_zero_f32]
  show BitVec.ofBool (decide ((0 : EReal) < ((393216 : ℝ) : EReal))) = 1#1
  rw [decide_eq_true (EReal.coe_pos.mpr (by norm_num))]
  rfl

/-- The variance of a group of real entries is the real variance. -/
theorem varRef_coe (hy : ∀ c h v, y (ix5 n g c h v) = ((yr c h v : ℝ) : EReal)) (a b c : Fin 1) :
    varRef (F := Ideal) y (ix5 n g a b c) = ((rvar yr : ℝ) : EReal) := by
  show Scalar.select (spreadScalar (positiveRef (F := Ideal)) (ix5 n g a b c))
      (Ideal.div (keepRef (sumRef (F := Ideal) (squareRef (F := Ideal) y)) (ix5 n g a b c))
        (spreadScalar (countRef (F := Ideal)) (ix5 n g a b c)))
      (spreadScalar (id (constant (F := Ideal) S_ .f32 0x7FC00000#32)) (ix5 n g a b c)) = _
  rw [spreadScalar_apply, positiveRef_apply, select_one, keepRef_apply, spreadScalar_apply, countRef_apply,
    sumRef_coe (squareRef (F := Ideal) y) n g _ (squareRef_coe y n g yr hy), RealEntries.div_coe_coe _ (by norm_num)]
  rfl

/-- The normalised entries of a group of real entries. -/
theorem normRef_coe (hy : ∀ c h v, y (ix5 n g c h v) = ((yr c h v : ℝ) : EReal)) (c : Fin 96) (h v : Fin 64) :
    normRef (F := Ideal) y (ix5 n g c h v)
      = ((yr c h v - rmean yr : ℝ) : EReal) * Ideal.rsqrt (((rvar yr : ℝ) : EReal) + Cert.Spec.epsW) := by
  show (y (ix5 n g c h v) - spreadRef (meanRef (F := Ideal) y) (ix5 n g c h v))
      * spreadRef (rstdRef (F := Ideal) y) (ix5 n g c h v) = _
  rw [spreadRef_apply, spreadRef_apply, meanRef_coe y n g yr hy, hy, RealEntries.sub_coe]
  show _ * Ideal.rsqrt (varRef (F := Ideal) y (ix5 n g 0 0 0)
      + spreadScalar (constant (F := Ideal) S_ .f32 0x3727C5AC#32) (ix5 n g 0 0 0)) = _
  rw [varRef_coe y n g yr hy, spreadScalar_apply]
  rfl

end Real

/-! ## The stage is the specification's group normalisation -/

/-- The group's real mean is the specification's. -/
theorem rmean_eq (xr : Cert.Spec.X4.Idx → ℝ) (n : Fin 16) (g : Fin 4) :
    rmean (fun c h v => xr (ix4 n (Cert.Spec.chan g c) h v)) = Cert.Spec.mu xr n g := rfl

/-- The group's real variance is the specification's. -/
theorem rvar_eq (xr : Cert.Spec.X4.Idx → ℝ) (n : Fin 16) (g : Fin 4) :
    rvar (fun c h v => xr (ix4 n (Cert.Spec.chan g c) h v)) = Cert.Spec.var xr n g := by
  unfold rvar Cert.Spec.var
  simp only [rmean_eq, pow_two]

/-- On an array of real entries the reference's group-normalisation stage computes the specification's. -/
theorem gnRef_eq (xr : Cert.Spec.X4.Idx → ℝ) (x : FVec Ideal S16x384x64x64 .f32)
    (hx : ∀ i, x i = ((xr i : ℝ) : EReal)) (w b : FVec Ideal S384 .f32) :
    gnRef (F := Ideal) x w b = Cert.Spec.gnArr xr w b := by
  funext i
  obtain ⟨n, ch, h, v, rfl⟩ : ∃ (n : Fin 16) (ch : Fin 384) (h v : Fin 64), i = ix4 n ch h v :=
    ⟨i 0, i 1, i 2, i 3, eq_ix4 i⟩
  show shapeCast S16x384x64x64 (normRef (F := Ideal) (regroupRef x)) shapeCasts_S16x4x96x64x64_S16x384x64x64 (ix4 n ch h v)
      * channelRef w (ix4 n ch h v) + channelRef b (ix4 n ch h v) = Cert.Spec.gn xr w b n ch h v
  rw [ungroup_apply, channelRef_apply, channelRef_apply,
    normRef_coe (regroupRef x) n (Cert.Spec.grp ch) (fun c h v => xr (ix4 n (Cert.Spec.chan (Cert.Spec.grp ch) c) h v))
      (fun c h v => by rw [regroupRef_apply, hx]),
    rmean_eq, rvar_eq]
  show ((xr (ix4 n (Cert.Spec.chan (Cert.Spec.grp ch) (Cert.Spec.sub ch)) h v) - Cert.Spec.mu xr n (Cert.Spec.grp ch) : ℝ) : EReal)
      * Ideal.rsqrt (((Cert.Spec.var xr n (Cert.Spec.grp ch) : ℝ) : EReal) + Cert.Spec.epsW) * w (ix1 ch) + b (ix1 ch) = _
  rw [chan_grp_sub]
  rfl

end Cert.ReferenceIdeal.RefGn

end
-- ==== Proof.RefAttn.lean ====
import proofs.«108577_j35562329211765_2_alg».proof.ReferenceIdeal
import proofs.«108577_j35562329211765_2_alg».proof.Proof.Spec

/-!
# The reference's attention stage as one function of its four arrays

The operations %25 … %54 of the reference's `@main`, composed in program order: the joint projection, its
split into queries, keys and values per head, the scaled scores, the softmax over each row of scores, the
weighted values, the heads side by side, the output projection and its bias.
-/

noncomputable section

namespace Cert.ReferenceIdeal.RefAttn

open Idealize.ShloMosaic
open Cert.ReferenceIdeal

variable {F : FTy → Type} [FloatOps F] [Facts]
open Facts₀ Facts

/-- %25: the joint projection. -/
def qkvRef (win : FVec F S1024x64x384 .f32) (wqkv : FVec F S1152x384 .f32) : FVec F S1024x64x1152 .f32 :=
  Host.dotGeneral dot_S1024x64x384_S1152x384_S1024x64x1152_2_1_01_0_n_n none win wqkv

/-- %26: the projection's columns split into (q/k/v, head, coordinate). -/
def splitRef (win : FVec F S1024x64x384 .f32) (wqkv : FVec F S1152x384 .f32) : FVec F S1024x64x3x8x48 .f32 :=
  fun i => shapeCast S1024x64x3x8x48 (qkvRef win wqkv) shapeCasts_S1024x64x1152_S1024x64x3x8x48 i

/-- %27: the axes reordered to (q/k/v, window, head, token, coordinate). -/
def permRef (win : FVec F S1024x64x384 .f32) (wqkv : FVec F S1152x384 .f32) : FVec F S3x1024x8x64x48 .f32 :=
  transpose S3x1024x8x64x48 [2, 0, 3, 1, 4] (splitRef win wqkv) transposes_S1024x64x3x8x48_S3x1024x8x64x48_2_0_3_1_4

/-- %28, %29: the queries. -/
def qRef (win : FVec F S1024x64x384 .f32) (wqkv : FVec F S1152x384 .f32) : FVec F S1024x8x64x48 .f32 :=
  fun i => shapeCast S1024x8x64x48
    (extractStridedSlice S1x1024x8x64x48 ![0, 0, 0, 0, 0] (permRef win wqkv) slices_S3x1024x8x64x48_S1x1024x8x64x48_0_0_0_0_0)
    shapeCasts_S1x1024x8x64x48_S1024x8x64x48 i

/-- %30, %31: the keys. -/
def kRef (win : FVec F S1024x64x384 .f32) (wqkv : FVec F S1152x384 .f32) : FVec F S1024x8x64x48 .f32 :=
  fun i => shapeCast S1024x8x64x48
    (extractStridedSlice S1x1024x8x64x48 ![1, 0, 0, 0, 0] (permRef win wqkv) slices_S3x1024x8x64x48_S1x1024x8x64x48_1_0_0_0_0)
    shapeCasts_S1x1024x8x64x48_S1024x8x64x48 i

/-- %32, %33: the values. -/
def vRef (win : FVec F S1024x64x384 .f32) (wqkv : FVec F S1152x384 .f32) : FVec F S1024x8x64x48 .f32 :=
  fun i => shapeCast S1024x8x64x48
    (extractStridedSlice S1x1024x8x64x48 ![2, 0, 0, 0, 0] (permRef win wqkv) slices_S3x1024x8x64x48_S1x1024x8x64x48_2_0_0_0_0)
    shapeCasts_S1x1024x8x64x48_S1024x8x64x48 i

/-- %cst_3, %34, %35: the queries times the scale. -/
def qsRef (win : FVec F S1024x64x384 .f32) (wqkv : FVec F S1152x384 .f32) : FVec F S1024x8x64x48 .f32 :=
  mulf (qRef win wqkv) (broadcastInDim S1024x8x64x48 ![] bcast_S_S1024x8x64x48 (constant S_ .f32 0x3E13CD3A#32))

/-- %36: the scores, per window and head. -/
def logitsRef (win : FVec F S1024x64x384 .f32) (wqkv : FVec F S1152x384 .f32) : FVec F S1024x8x64x64 .f32 :=
  Host.dotGeneral dot_S1024x8x64x48_S1024x8x64x48_S1024x8x64x64_3_3_2_2_01_01 none (qsRef win wqkv) (kRef win wqkv)

/-- %cst_4, %37, %cst_5, %38, %39: each row's largest score. -/
def rowmaxRef (win : FVec F S1024x64x384 .f32) (wqkv : FVec F S1152x384 .f32) : FVec F S1024x8x64 .f32 :=
  maximumf (broadcastInDim S1024x8x64 ![] bcast_S_S1024x8x64 (constant S_ .f32 0xFF800000#32))
    (Host.reduce FloatOps.maximumf (logitsRef win wqkv) (constant S_ .f32 0xFF800000#32) reducesTo_S1024x8x64x64_S1024x8x64_d3 h_S_)

/-- %40 … %43: the exponentials of the scores less their row's largest. -/
def expoRef (win : FVec F S1024x64x384 .f32) (wqkv : FVec F S1152x384 .f32) : FVec F S1024x8x64x64 .f32 :=
  Host.exp (subf (logitsRef win wqkv)
    (broadcastInDim S1024x8x64x64 ![0, 1, 2, 3] bcast_S1024x8x64x1_S1024x8x64x64_0_1_2_3
      (broadcastInDim S1024x8x64x1 ![0, 1, 2] bcast_S1024x8x64_S1024x8x64x1_0_1_2 (rowmaxRef win wqkv))))

/-- %cst_6, %44: each row's sum of exponentials. -/
def denomRef (win : FVec F S1024x64x384 .f32) (wqkv : FVec F S1152x384 .f32) : FVec F S1024x8x64 .f32 :=
  Host.reduceAdd (expoRef win wqkv) (constant S_ .f32 0x00000000#32) reducesTo_S1024x8x64x64_S1024x8x64_d3 h_S_

/-- %45, %46, %47: the softmax weights. -/
def probsRef (win : FVec F S1024x64x384 .f32) (wqkv : FVec F S1152x384 .f32) : FVec F S1024x8x64x64 .f32 :=
  Host.divf (expoRef win wqkv)
    (broadcastInDim S1024x8x64x64 ![0, 1, 2, 3] bcast_S1024x8x64x1_S1024x8x64x64_0_1_2_3
      (broadcastInDim S1024x8x64x1 ![0, 1, 2] bcast_S1024x8x64_S1024x8x64x1_0_1_2 (denomRef win wqkv)))

/-- %48: the weighted values, per window and head. -/
def headsRef (win : FVec F S1024x64x384 .f32) (wqkv : FVec F S1152x384 .f32) : FVec F S1024x8x64x48 .f32 :=
  Host.dotGeneral dot_S1024x8x64x64_S1024x8x64x48_S1024x8x64x48_3_2_2_3_01_01 none (probsRef win wqkv) (vRef win wqkv)

/-- %49, %50: the heads side by side. -/
def mergedRef (win : FVec F S1024x64x384 .f32) (wqkv : FVec F S1152x384 .f32) : FVec F S1024x64x384 .f32 :=
  fun i => shapeCast S1024x64x384
    (transpose S1024x64x8x48 [0, 2, 1, 3] (headsRef win wqkv) transposes_S1024x8x64x48_S1024x64x8x48_0_2_1_3)
    shapeCasts_S1024x64x8x48_S1024x64x384 i

/-- %51 … %54: the output projection and its bias. -/
def attnRef (win : FVec F S1024x64x384 .f32) (wqkv : FVec F S1152x384 .f32) (wproj : FVec F S384x384 .f32)
    (bproj : FVec F S384 .f32) : FVec F S1024x64x384 .f32 :=
  addf (Host.dotGeneral dot_S1024x64x384_S384x384_S1024x64x384_2_1_01_0_n_n none (mergedRef win wqkv) wproj)
    (broadcastInDim S1024x64x384 ![0, 1, 2] bcast_S1x1x384_S1024x64x384_0_1_2
      (broadcastInDim S1x1x384 ![2] bcast_S384_S1x1x384_2 bproj))

end Cert.ReferenceIdeal.RefAttn

end
-- ==== Proof.RefRun.lean ====
/-
  The reference program's run read back as one composed function of its six arrays.

  The line of host operations (its four stretches) is evaluated stretch by stretch from an arbitrary starting
  memory: after the first stretch the normalised array is the group-normalisation function of the first three
  arguments, after the second it is regrouped into windows, after the third the attention function of the windows
  and the three weight arrays, after the fourth the result: that, regrouped back, plus the first argument. No
  stretch writes an argument. Every weakly fair execution of @main terminates with the result buffer at the
  composed function of the arguments' launch contents and the arguments unchanged.
-/
import proofs.«108577_j35562329211765_2_alg».proof.Proof.RefRunOps
import proofs.«108577_j35562329211765_2_alg».proof.Proof.RefGn
import proofs.«108577_j35562329211765_2_alg».proof.Proof.RefAttn

set_option synthInstance.maxSize 4096

noncomputable section

namespace Cert.ReferenceIdeal.RefRun

open Cert.ReferenceIdeal Idealize.ShloMosaic Idealize.ShloMosaic.TcCoe Idealize.SL.Sem Idealize.ShloMosaic.StableHlo Cert.ReferenceIdeal.RefGn Cert.ReferenceIdeal.RefAttn

variable {F : FTy → Type} [FloatOps F] [Facts]
open Facts₀ Facts

/-- Statements %20 … %24: the normalised array with channels last, padded by nothing, cut into 8 × 8 windows of
    8 × 8 tokens, the windows' axes brought together, read as [1024, 64, 384]. -/
def prepRef (g : FVec F S16x384x64x64 .f32) : FVec F S1024x64x384 .f32 :=
  fun i => shapeCast S1024x64x384
    (transpose S16x8x8x8x8x384 [0, 1, 3, 2, 4, 5]
      (fun j => shapeCast S16x8x8x8x8x384
        (pad S16x64x64x384 ![0, 0, 0, 0] ![0, 0, 0, 0] ![0, 0, 0, 0]
          (transpose S16x64x64x384 [0, 2, 3, 1] g transposes_S16x384x64x64_S16x64x64x384_0_2_3_1)
          (sitofp .f32 (constantI S_ 32 0#32) : FVec F S_ .f32)
          pads_S16x64x64x384_S16x64x64x384_000_000_000_000 h_S_)
        shapeCasts_S16x64x64x384_S16x8x8x8x8x384 j)
      transposes_S16x8x8x8x8x384_S16x8x8x8x8x384_0_1_3_2_4_5)
    shapeCasts_S16x8x8x8x8x384_S1024x64x384 i

/-- Statements %55 … %59: the attention's output cut back into windows, the axes returned, read as
    [16, 64, 64, 384], channels second again, plus the first argument. -/
def postRef (h : FVec F S1024x64x384 .f32) (x : FVec F S16x384x64x64 .f32) : FVec F S16x384x64x64 .f32 :=
  addf
    (transpose S16x384x64x64 [0, 3, 1, 2]
      (fun i => shapeCast S16x64x64x384
        (transpose S16x8x8x8x8x384 [0, 1, 3, 2, 4, 5]
          (fun j => shapeCast S16x8x8x8x8x384 h shapeCasts_S1024x64x384_S16x8x8x8x8x384 j)
          transposes_S16x8x8x8x8x384_S16x8x8x8x8x384_0_1_3_2_4_5)
        shapeCasts_S16x8x8x8x8x384_S16x64x64x384 i)
      transposes_S16x64x64x384_S16x384x64x64_0_3_1_2)
    x

/-- The reference's result as one function of its six arrays. -/
def resultRef (x : FVec F S16x384x64x64 .f32) (w b : FVec F S384 .f32) (wqkv : FVec F S1152x384 .f32)
    (wproj : FVec F S384x384 .f32) (bproj : FVec F S384 .f32) : FVec F S16x384x64x64 .f32 :=
  postRef (attnRef (prepRef (gnRef x w b)) wqkv wproj bproj) x

attribute [local irreducible] Host.reduce Host.reduceAdd pad transpose shapeCast broadcastInDim extractStridedSlice

/-! ## The four stretches, each from an arbitrary starting memory -/

set_option maxHeartbeats 2000000 in
/-- After the first stretch the normalised array is the group-normalisation function of the first three arguments. -/
theorem gn_stretch (V : Valuation τ sig (Elt F)) :
    after opsGn V (main_v19 : DevRef τ sig)
      = gnRef (V (main_arg0 : DevRef τ sig)) (V (main_arg1 : DevRef τ sig)) (V (main_arg2 : DevRef τ sig)) := by
  after_results_simp
  rfl

/-- After the second stretch the windows are the regrouping of the normalised array. -/
theorem prep_stretch (W : Valuation τ sig (Elt F)) :
    after opsPrep W (main_v24 : DevRef τ sig) = prepRef (W (main_v19 : DevRef τ sig)) := by
  after_results_simp
  rfl

set_option maxHeartbeats 2000000 in
/-- After the third stretch the projected heads are the attention function of the windows and the weights. -/
theorem attn_stretch (W : Valuation τ sig (Elt F)) :
    after opsAttn W (main_v54 : DevRef τ sig)
      = attnRef (W (main_v24 : DevRef τ sig)) (W (main_arg3 : DevRef τ sig)) (W (main_arg4 : DevRef τ sig))
          (W (main_arg5 : DevRef τ sig)) := by
  after_results_simp
  rfl

/-- After the fourth stretch the result is the attention's output regrouped back plus the first argument. -/
theorem post_stretch (W : Valuation τ sig (Elt F)) :
    after opsPost W (main_v59 : DevRef τ sig) = postRef (W (main_v54 : DevRef τ sig)) (W (main_arg0 : DevRef τ sig)) := by
  after_results_simp
  rfl

/-! ## No stretch writes an argument -/

theorem gn_arg0 (W : Valuation τ sig (Elt F)) :
    after opsGn W (main_arg0 : DevRef τ sig) = W (main_arg0 : DevRef τ sig) := by
  after_results_simp

theorem gn_arg1 (W : Valuation τ sig (Elt F)) :
    after opsGn W (main_arg1 : DevRef τ sig) = W (main_arg1 : DevRef τ sig) := by
  after_results_simp

theorem gn_arg2 (W : Valuation τ sig (Elt F)) :
    after opsGn W (main_arg2 : DevRef τ sig) = W (main_arg2 : DevRef τ sig) := by
  after_results_simp

theorem gn_arg3 (W : Valuation τ sig (Elt F)) :
    after opsGn W (main_arg3 : DevRef τ sig) = W (main_arg3 : DevRef τ sig) := by
  after_results_simp

theorem gn_arg4 (W : Valuation τ sig (Elt F)) :
    after opsGn W (main_arg4 : DevRef τ sig) = W (main_arg4 : DevRef τ sig) := by
  after_results_simp

theorem gn_arg5 (W : Valuation τ sig (Elt F)) :
    after opsGn W (main_arg5 : DevRef τ sig) = W (main_arg5 : DevRef τ sig) := by
  after_results_simp

theorem prep_arg0 (W : Valuation τ sig (Elt F)) :
    after opsPrep W (main_arg0 : DevRef τ sig) = W (main_arg0 : DevRef τ sig) := by
  after_results_simp

theorem prep_arg3 (W : Valuation τ sig (Elt F)) :
    after opsPrep W (main_arg3 : DevRef τ sig) = W (main_arg3 : DevRef τ sig) := by
  after_results_simp

theorem prep_arg4 (W : Valuation τ sig (Elt F)) :
    after opsPrep W (main_arg4 : DevRef τ sig) = W (main_arg4 : DevRef τ sig) := by
  after_results_simp

theorem prep_arg5 (W : Valuation τ sig (Elt F)) :
    after opsPrep W (main_arg5 : DevRef τ sig) = W (main_arg5 : DevRef τ sig) := by
  after_results_simp

theorem attn_arg0 (W : Valuation τ sig (Elt F)) :
    after opsAttn W (main_arg0 : DevRef τ sig) = W (main_arg0 : DevRef τ sig) := by
  after_results_simp

/-! ## The whole line -/

/-- The result buffer after the line is the composed function of the six arguments' contents. -/
theorem result_eq (V : Valuation τ sig (Elt F)) :
    after ops V (main_v59 : DevRef τ sig)
      = resultRef (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_eq, Stretches.after_append, Stretches.after_append, Stretches.after_append, post_stretch, attn_stretch,
    attn_arg0, prep_stretch, prep_arg0, prep_arg3, prep_arg4, prep_arg5, gn_stretch, gn_arg0, gn_arg3, gn_arg4, gn_arg5]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-! ## The run -/

/-- At the compiled mesh, for any float values, from any memory with zero counters: every weakly fair execution of
    @main on the TensorCores terminates, and every final state has each TensorCore buffer at the line's fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same with the result read back: the result buffer ends at the composed function of the arguments' launch
    contents, and the six arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = resultRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v59).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_main m ρ)

end Cert.ReferenceIdeal.RefRun

end
-- ==== Proof.RefAttn1.lean ====
import proofs.«108577_j35562329211765_2_alg».proof.Proof.RefAttn
import Idealize.ShloMosaic.Lib.Pipeline.Value
import Idealize.ShloMosaic.Lib.IdealHost
import Idealize.ShloMosaic.PureOps.Ideal.Laws

/-!
# The reference's joint projection and its split into queries, keys and values, read at an index

The projection at (window, token, column) is the sum over the 384 input channels; part t of its split at
(window, head, token, coordinate) is the projection's column t · 384 + head · 48 + coordinate.
-/

noncomputable section

namespace Cert.ReferenceIdeal.RefAttn

open Idealize.ShloMosaic Idealize.ShloMosaic.ValueIdx
open Cert.ReferenceIdeal

variable {F : FTy → Type} [FloatOps F] [Facts]
open Facts₀ Facts

/-- A one-axis contraction sum re-indexed by that axis' coordinate, given the two operand indices at each coordinate. -/
theorem sum_contr_reindex {sl sr so : Shape} {R : Type*} [AddCommMonoid R] [Mul R] (D : DotDims sl sr so) (K : ℕ)
    (hr : D.contr.rank = 1) (hs : D.contr.size ⟨0, by omega⟩ = K)
    (l : sl.Idx → R) (r : sr.Idx → R) (j : so.Idx) (L : Fin K → sl.Idx) (Rr : Fin K → sr.Idx)
    (hl : ∀ k, D.lhsIdx j ((contrEquiv1 D K hr hs).symm k) = L k)
    (hr' : ∀ k, D.rhsIdx j ((contrEquiv1 D K hr hs).symm k) = Rr k) :
    ∑ q : D.contr.Idx, l (D.lhsIdx j q) * r (D.rhsIdx j q) = ∑ k : Fin K, l (L k) * r (Rr k) := by
  rw [← Equiv.sum_comp (contrEquiv1 D K hr hs).symm]
  exact Finset.sum_congr rfl fun k _ => by rw [hl k, hr' k]

/-- The joint projection at (window n, token s, column o). -/
theorem qkvRef_apply (win : FVec Ideal S1024x64x384 .f32) (wqkv : FVec Ideal S1152x384 .f32)
    (n : Fin 1024) (s : Fin 64) (o : Fin 1152) :
    qkvRef win wqkv (ix3 n s o) = Cert.Spec.qkv win wqkv n s o := by
  unfold qkvRef Cert.Spec.qkv
  refine (Ideal.dotGeneral_apply _ none .single win wqkv _).trans ?_
  refine sum_contr_reindex dot_S1024x64x384_S1152x384_S1024x64x1152_2_1_01_0_n_n 384 rfl rfl win wqkv _ _ _ ?_ ?_
  · intro k
    have hk := contrEquiv1_symm_val dot_S1024x64x384_S1152x384_S1024x64x1152_2_1_01_0_n_n 384 rfl rfl k
    have h1 := dot_S1024x64x384_S1152x384_S1024x64x1152_2_1_01_0_n_n.lhsIdx_val_of_single (cl := 2) rfl (ix3 n s o)
      ((contrEquiv1 dot_S1024x64x384_S1152x384_S1024x64x1152_2_1_01_0_n_n 384 rfl rfl).symm k)
    exact funext fun a => Fin.ext (by
      match a with
      | ⟨0, _⟩ => rfl
      | ⟨1, _⟩ => rfl
      | ⟨2, _⟩ => exact h1.trans hk)
  · intro k
    have hk := contrEquiv1_symm_val dot_S1024x64x384_S1152x384_S1024x64x1152_2_1_01_0_n_n 384 rfl rfl k
    have h2 := dot_S1024x64x384_S1152x384_S1024x64x1152_2_1_01_0_n_n.rhsIdx_val_of_single (cr := 1) rfl (ix3 n s o)
      ((contrEquiv1 dot_S1024x64x384_S1152x384_S1024x64x1152_2_1_01_0_n_n 384 rfl rfl).symm k)
    exact funext fun a => Fin.ext (by
      match a with
      | ⟨0, _⟩ => rfl
      | ⟨1, _⟩ => exact h2.trans hk)

/-- Part t (0: queries, 1: keys, 2: values) of the split projection at (window n, head h, token s, coordinate d): the
    projection's column t · 384 + h · 48 + d. -/
theorem part_apply (win : FVec F S1024x64x384 .f32) (wqkv : FVec F S1152x384 .f32) (t : Fin 3)
    (hs : S3x1024x8x64x48.Slices ![t.val, 0, 0, 0, 0] S1x1024x8x64x48)
    (n : Fin 1024) (h : Fin 8) (s : Fin 64) (d : Fin 48) :
    shapeCast S1024x8x64x48 (extractStridedSlice S1x1024x8x64x48 ![t.val, 0, 0, 0, 0] (permRef win wqkv) hs)
        shapeCasts_S1x1024x8x64x48_S1024x8x64x48 (ix4 n h s d)
      = qkvRef win wqkv (ix3 n s (Cert.Spec.col t h d)) := by
  rw [shapeCast_apply _ _ (ix4 n h s d) (ix5 (0 : Fin 1) n h s d) (by
    rw [Shape.rowMajor_val_five, Shape.rowMajor_val_four]
    show ((((0 * 1024 + n.val) * 8 + h.val) * 64 + s.val) * 48 + d.val = ((n.val * 8 + h.val) * 64 + s.val) * 48 + d.val)
    omega)]
  rw [extractStridedSlice_apply _ _ hs (ix5 (0 : Fin 1) n h s d) (ix5 t n h s d) (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)]
  unfold permRef
  rw [transpose_apply _ _ _ (ix5 t n h s d) (ix5 n s t h d) (fun b => by
    match b with
    | ⟨0, _⟩ => rfl
    | ⟨1, _⟩ => rfl
    | ⟨2, _⟩ => rfl
    | ⟨3, _⟩ => rfl
    | ⟨4, _⟩ => rfl)]
  unfold splitRef
  exact shapeCast_apply _ _ (ix5 n s t h d) (ix3 n s (Cert.Spec.col t h d)) (by
    rw [Shape.rowMajor_val_three, Shape.rowMajor_val_five]
    show (n.val * 64 + s.val) * 1152 + (t.val * 384 + h.val * 48 + d.val)
      = ((((n.val * 64 + s.val) * 3 + t.val) * 8 + h.val) * 48 + d.val)
    omega)

theorem qRef_apply (win : FVec F S1024x64x384 .f32) (wqkv : FVec F S1152x384 .f32)
    (n : Fin 1024) (h : Fin 8) (s : Fin 64) (d : Fin 48) :
    qRef win wqkv (ix4 n h s d) = qkvRef win wqkv (ix3 n s (Cert.Spec.col 0 h d)) :=
  part_apply win wqkv 0 slices_S3x1024x8x64x48_S1x1024x8x64x48_0_0_0_0_0 n h s d

theorem kRef_apply (win : FVec F S1024x64x384 .f32) (wqkv : FVec F S1152x384 .f32)
    (n : Fin 1024) (h : Fin 8) (s : Fin 64) (d : Fin 48) :
    kRef win wqkv (ix4 n h s d) = qkvRef win wqkv (ix3 n s (Cert.Spec.col 1 h d)) :=
  part_apply win wqkv 1 slices_S3x1024x8x64x48_S1x1024x8x64x48_1_0_0_0_0 n h s d

theorem vRef_apply (win : FVec F S1024x64x384 .f32) (wqkv : FVec F S1152x384 .f32)
    (n : Fin 1024) (h : Fin 8) (s : Fin 64) (d : Fin 48) :
    vRef win wqkv (ix4 n h s d) = qkvRef win wqkv (ix3 n s (Cert.Spec.col 2 h d)) :=
  part_apply win wqkv 2 slices_S3x1024x8x64x48_S1x1024x8x64x48_2_0_0_0_0 n h s d

end Cert.ReferenceIdeal.RefAttn

end
-- ==== Proof.RefAttn2.lean ====
import proofs.«108577_j35562329211765_2_alg».proof.Proof.RefAttn
import proofs.«108577_j35562329211765_2_alg».proof.Proof.RefAttn1
import Idealize.ShloMosaic.Lib.Pipeline.Value
import Idealize.ShloMosaic.Lib.IdealHost
import Idealize.ShloMosaic.PureOps.Ideal.Laws

/-!
# The reference's three later products, read at an index

The scores (queries against keys), the weighted values and the output projection, each the sum over its one
contracted axis.
-/

noncomputable section

namespace Cert.ReferenceIdeal.RefAttn

open Idealize.ShloMosaic Idealize.ShloMosaic.ValueIdx
open Cert.ReferenceIdeal

variable {F : FTy → Type} [FloatOps F] [Facts]
open Facts₀ Facts

/-- The batched product contracting the last axis of both operands, at (window n, head h, row q, column k). -/
theorem dot_qk_apply (l r : FVec Ideal S1024x8x64x48 .f32) (n : Fin 1024) (h : Fin 8) (q k : Fin 64) :
    Host.dotGeneral dot_S1024x8x64x48_S1024x8x64x48_S1024x8x64x64_3_3_2_2_01_01 none l r (ix4 n h q k)
      = ∑ d : Fin 48, l (ix4 n h q d) * r (ix4 n h k d) := by
  refine (Ideal.dotGeneral_apply _ none .single l r _).trans ?_
  refine sum_contr_reindex dot_S1024x8x64x48_S1024x8x64x48_S1024x8x64x64_3_3_2_2_01_01 48 rfl rfl l r _ _ _ ?_ ?_
  · intro c
    have hk := contrEquiv1_symm_val dot_S1024x8x64x48_S1024x8x64x48_S1024x8x64x64_3_3_2_2_01_01 48 rfl rfl c
    have h1 := dot_S1024x8x64x48_S1024x8x64x48_S1024x8x64x64_3_3_2_2_01_01.lhsIdx_val_of_single (cl := 3) rfl (ix4 n h q k)
      ((contrEquiv1 dot_S1024x8x64x48_S1024x8x64x48_S1024x8x64x64_3_3_2_2_01_01 48 rfl rfl).symm c)
    exact funext fun a => Fin.ext (by
      match a with
      | ⟨0, _⟩ => rfl
      | ⟨1, _⟩ => rfl
      | ⟨2, _⟩ => rfl
      | ⟨3, _⟩ => exact h1.trans hk)
  · intro c
    have hk := contrEquiv1_symm_val dot_S1024x8x64x48_S1024x8x64x48_S1024x8x64x64_3_3_2_2_01_01 48 rfl rfl c
    have h2 := dot_S1024x8x64x48_S1024x8x64x48_S1024x8x64x64_3_3_2_2_01_01.rhsIdx_val_of_single (cr := 3) rfl (ix4 n h q k)
      ((contrEquiv1 dot_S1024x8x64x48_S1024x8x64x48_S1024x8x64x64_3_3_2_2_01_01 48 rfl rfl).symm c)
    exact funext fun a => Fin.ext (by
      match a with
      | ⟨0, _⟩ => rfl
      | ⟨1, _⟩ => rfl
      | ⟨2, _⟩ => rfl
      | ⟨3, _⟩ => exact h2.trans hk)

/-- The batched product of the weights with the values, at (window n, head h, row q, coordinate d). -/
theorem dot_pv_apply (l : FVec Ideal S1024x8x64x64 .f32) (r : FVec Ideal S1024x8x64x48 .f32)
    (n : Fin 1024) (h : Fin 8) (q : Fin 64) (d : Fin 48) :
    Host.dotGeneral dot_S1024x8x64x64_S1024x8x64x48_S1024x8x64x48_3_2_2_3_01_01 none l r (ix4 n h q d)
      = ∑ k : Fin 64, l (ix4 n h q k) * r (ix4 n h k d) := by
  refine (Ideal.dotGeneral_apply _ none .single l r _).trans ?_
  refine sum_contr_reindex dot_S1024x8x64x64_S1024x8x64x48_S1024x8x64x48_3_2_2_3_01_01 64 rfl rfl l r _ _ _ ?_ ?_
  · intro c
    have hk := contrEquiv1_symm_val dot_S1024x8x64x64_S1024x8x64x48_S1024x8x64x48_3_2_2_3_01_01 64 rfl rfl c
    have h1 := dot_S1024x8x64x64_S1024x8x64x48_S1024x8x64x48_3_2_2_3_01_01.lhsIdx_val_of_single (cl := 3) rfl (ix4 n h q d)
      ((contrEquiv1 dot_S1024x8x64x64_S1024x8x64x48_S1024x8x64x48_3_2_2_3_01_01 64 rfl rfl).symm c)
    exact funext fun a => Fin.ext (by
      match a with
      | ⟨0, _⟩ => rfl
      | ⟨1, _⟩ => rfl
      | ⟨2, _⟩ => rfl
      | ⟨3, _⟩ => exact h1.trans hk)
  · intro c
    have hk := contrEquiv1_symm_val dot_S1024x8x64x64_S1024x8x64x48_S1024x8x64x48_3_2_2_3_01_01 64 rfl rfl c
    have h2 := dot_S1024x8x64x64_S1024x8x64x48_S1024x8x64x48_3_2_2_3_01_01.rhsIdx_val_of_single (cr := 2) rfl (ix4 n h q d)
      ((contrEquiv1 dot_S1024x8x64x64_S1024x8x64x48_S1024x8x64x48_3_2_2_3_01_01 64 rfl rfl).symm c)
    exact funext fun a => Fin.ext (by
      match a with
      | ⟨0, _⟩ => rfl
      | ⟨1, _⟩ => rfl
      | ⟨2, _⟩ => exact h2.trans hk
      | ⟨3, _⟩ => rfl)

/-- The output projection at (window n, token s, column j). -/
theorem dot_proj_apply (l : FVec Ideal S1024x64x384 .f32) (r : FVec Ideal S384x384 .f32)
    (n : Fin 1024) (s : Fin 64) (j : Fin 384) :
    Host.dotGeneral dot_S1024x64x384_S384x384_S1024x64x384_2_1_01_0_n_n none l r (ix3 n s j)
      = ∑ c : Fin 384, l (ix3 n s c) * r (ix2 j c) := by
  refine (Ideal.dotGeneral_apply _ none .single l r _).trans ?_
  refine sum_contr_reindex dot_S1024x64x384_S384x384_S1024x64x384_2_1_01_0_n_n 384 rfl rfl l r _ _ _ ?_ ?_
  · intro c
    have hk := contrEquiv1_symm_val dot_S1024x64x384_S384x384_S1024x64x384_2_1_01_0_n_n 384 rfl rfl c
    have h1 := dot_S1024x64x384_S384x384_S1024x64x384_2_1_01_0_n_n.lhsIdx_val_of_single (cl := 2) rfl (ix3 n s j)
      ((contrEquiv1 dot_S1024x64x384_S384x384_S1024x64x384_2_1_01_0_n_n 384 rfl rfl).symm c)
    exact funext fun a => Fin.ext (by
      match a with
      | ⟨0, _⟩ => rfl
      | ⟨1, _⟩ => rfl
      | ⟨2, _⟩ => exact h1.trans hk)
  · intro c
    have hk := contrEquiv1_symm_val dot_S1024x64x384_S384x384_S1024x64x384_2_1_01_0_n_n 384 rfl rfl c
    have h2 := dot_S1024x64x384_S384x384_S1024x64x384_2_1_01_0_n_n.rhsIdx_val_of_single (cr := 1) rfl (ix3 n s j)
      ((contrEquiv1 dot_S1024x64x384_S384x384_S1024x64x384_2_1_01_0_n_n 384 rfl rfl).symm c)
    exact funext fun a => Fin.ext (by
      match a with
      | ⟨0, _⟩ => rfl
      | ⟨1, _⟩ => exact h2.trans hk)

end Cert.ReferenceIdeal.RefAttn

end
-- ==== Proof.LibHostLast4.lean ====
/-
  The host's reduce with max along the last axis of a rank-4 array, read at an index on the extended reals and for any
  extents: over [n0, n1, n2, k] into [n0, n1, n2] it is, at (a, b, r), the fold of max from the initial value over the k
  entries (a, b, r, ·).
-/
import Idealize.ShloMosaic.PureOps.Ideal.Laws
import Idealize.ShloMosaic.Lib.ValueIdx

noncomputable section

namespace Idealize.ShloMosaic.HostLast4

open Idealize.ShloMosaic Idealize.ShloMosaic.ValueIdx

/-- The reduced index `(a, b, r)` with the last coordinate `c` put back is `(a, b, r, c)`. -/
theorem lift_last {n0 n1 n2 k : ℕ} (h : (⟨4, ![n0, n1, n2, k]⟩ : Shape).Reduces [3] ⟨3, ![n0, n1, n2]⟩)
    (a : Fin n0) (b : Fin n1) (r : Fin n2) (c : Fin k) : h.lift (ix3 a b r) c = ix4 a b r c :=
  funext fun x => Fin.ext (by match x with | ⟨0, _⟩ => rfl | ⟨1, _⟩ => rfl | ⟨2, _⟩ => rfl | ⟨3, _⟩ => rfl)

/-- A host reduce with max over the last axis of an `[n0, n1, n2, k]` array, at `(a, b, r)`: the fold of max over
    the entries `(a, b, r, ·)`. -/
theorem reduce_max_last_apply {n0 n1 n2 k : ℕ} (z : (⟨4, ![n0, n1, n2, k]⟩ : Shape).Idx → EReal) {u : Shape}
    (init : u.Idx → EReal) (h' : (⟨4, ![n0, n1, n2, k]⟩ : Shape).ReducesTo [3] ⟨3, ![n0, n1, n2]⟩)
    (h : (⟨4, ![n0, n1, n2, k]⟩ : Shape).Reduces [3] ⟨3, ![n0, n1, n2]⟩) (hu : 0 < u.numel)
    (a : Fin n0) (b : Fin n1) (r : Fin n2) :
    Host.reduce (max : EReal → EReal → EReal) z init h' hu (ix3 a b r)
      = (Finset.univ : Finset (Fin k)).fold max (init (Shape.Idx.first hu)) (fun c => z (ix4 a b r c)) :=
  (Host.reduce_eq_fold_single max z init h' h hu (ix3 a b r)).trans
    (Finset.fold_congr fun c _ => congrArg z (lift_last h a b r c))

end Idealize.ShloMosaic.HostLast4

end
-- ==== Proof.RefAttn3.lean ====
import proofs.«108577_j35562329211765_2_alg».proof.Proof.RefAttn
import proofs.«108577_j35562329211765_2_alg».proof.Proof.RefAttn2
import proofs.«108577_j35562329211765_2_alg».proof.Proof.LibHostLast4
import Idealize.ShloMosaic.Lib.Pipeline.Value
import Idealize.ShloMosaic.Lib.IdealHost
import Idealize.ShloMosaic.PureOps.Ideal.Laws

/-!
# The reference's attention stage is the specification's windowed attention

Each stage read at coordinates: the scores, each row's largest, the shifted exponentials, their sums, the softmax
weights, the heads' outputs, the heads side by side, and the output projection with its bias.
-/

noncomputable section

namespace Cert.ReferenceIdeal.RefAttn

open Idealize.ShloMosaic Idealize.ShloMosaic.ValueIdx
open Cert.ReferenceIdeal

variable {F : FTy → Type} [FloatOps F] [Facts]
open Facts₀ Facts

/-- The two broadcasts that spread a per-row value along the row. -/
theorem bcast_row_apply {α : Type} (x : S1024x8x64.Idx → α) (n : Fin 1024) (h : Fin 8) (q k : Fin 64) :
    broadcastInDim S1024x8x64x64 ![0, 1, 2, 3] bcast_S1024x8x64x1_S1024x8x64x64_0_1_2_3
        (broadcastInDim S1024x8x64x1 ![0, 1, 2] bcast_S1024x8x64_S1024x8x64x1_0_1_2 x) (ix4 n h q k)
      = x (ix3 n h q) := by
  rw [broadcastInDim_apply _ _ _ (ix4 n h q k) (ix4 n h q (0 : Fin 1)) (fun a => by
    match a with
    | ⟨0, _⟩ => rfl
    | ⟨1, _⟩ => rfl
    | ⟨2, _⟩ => rfl
    | ⟨3, _⟩ => rfl)]
  exact broadcastInDim_apply _ _ _ (ix4 n h q (0 : Fin 1)) (ix3 n h q) (fun a => by
    match a with
    | ⟨0, _⟩ => rfl
    | ⟨1, _⟩ => rfl
    | ⟨2, _⟩ => rfl)

theorem red3 : S1024x8x64x64.Reduces [3] S1024x8x64 := by decide

section stages
variable (win : FVec Ideal S1024x64x384 .f32) (wqkv : FVec Ideal S1152x384 .f32)

/-- The scores. -/
theorem logitsRef_apply (n : Fin 1024) (h : Fin 8) (q k : Fin 64) :
    logitsRef win wqkv (ix4 n h q k) = Cert.Spec.logit win wqkv n h q k := by
  unfold logitsRef Cert.Spec.logit
  rw [dot_qk_apply]
  refine Finset.sum_congr rfl fun d _ => ?_
  rw [kRef_apply, qkvRef_apply]
  refine congrArg (· * _) ?_
  show qRef win wqkv (ix4 n h q d) * _ = _
  rw [qRef_apply, qkvRef_apply, broadcastInDim_scalar_apply]
  rfl

/-- Each row's largest score. -/
theorem rowmaxRef_apply (n : Fin 1024) (h : Fin 8) (q : Fin 64) :
    rowmaxRef win wqkv (ix3 n h q) = Cert.Spec.rowmax win wqkv n h q := by
  unfold rowmaxRef Cert.Spec.rowmax
  rw [maximumf_apply, broadcastInDim_scalar_apply]
  refine congrArg (max _) ?_
  refine (HostLast4.reduce_max_last_apply (logitsRef win wqkv) _ reducesTo_S1024x8x64x64_S1024x8x64_d3 red3 h_S_ n h q).trans ?_
  exact Finset.fold_congr fun k _ => logitsRef_apply win wqkv n h q k

/-- The shifted exponentials. -/
theorem expoRef_apply (n : Fin 1024) (h : Fin 8) (q k : Fin 64) :
    expoRef win wqkv (ix4 n h q k) = Cert.Spec.expo win wqkv n h q k := by
  unfold expoRef Cert.Spec.expo
  show Ideal.exp (logitsRef win wqkv (ix4 n h q k) - _) = _
  rw [logitsRef_apply, bcast_row_apply, rowmaxRef_apply]

/-- Each row's sum of exponentials. -/
theorem denomRef_apply (n : Fin 1024) (h : Fin 8) (q : Fin 64) :
    denomRef win wqkv (ix3 n h q) = Cert.Spec.denom win wqkv n h q := by
  unfold denomRef Cert.Spec.denom
  refine (hostReduceAdd_apply _ _ _ _ _).trans ?_
  refine (Ideal.hostReduceAdd_single _ red3 _ _ _).trans ?_
  show Ideal.ofBits .f32 0x00000000#32 + ∑ k : Fin 64, expoRef win wqkv (red3.lift (ix3 n h q) k) = _
  rw [Ideal.ofBits_zero_f32, zero_add]
  refine Finset.sum_congr rfl fun k _ => ?_
  rw [HostLast4.lift_last, expoRef_apply]

/-- The softmax weights. -/
theorem probsRef_apply (n : Fin 1024) (h : Fin 8) (q k : Fin 64) :
    probsRef win wqkv (ix4 n h q k) = Cert.Spec.prob win wqkv n h q k := by
  unfold probsRef Cert.Spec.prob
  show Ideal.div (expoRef win wqkv (ix4 n h q k)) _ = _
  rw [expoRef_apply, bcast_row_apply, denomRef_apply]

/-- Each head's output. -/
theorem headsRef_apply (n : Fin 1024) (h : Fin 8) (q : Fin 64) (d : Fin 48) :
    headsRef win wqkv (ix4 n h q d) = Cert.Spec.head win wqkv n h q d := by
  unfold headsRef Cert.Spec.head
  rw [dot_pv_apply]
  refine Finset.sum_congr rfl fun k _ => ?_
  rw [probsRef_apply, vRef_apply, qkvRef_apply]

/-- The heads side by side. -/
theorem mergedRef_apply (n : Fin 1024) (s : Fin 64) (c : Fin 384) :
    mergedRef win wqkv (ix3 n s c) = Cert.Spec.heads win wqkv n s c := by
  unfold mergedRef Cert.Spec.heads
  rw [shapeCast_apply _ _ (ix3 n s c)
    (ix4 n s (⟨c.val / 48, by omega⟩ : Fin 8) (⟨c.val % 48, Nat.mod_lt _ (by norm_num)⟩ : Fin 48)) (by
      rw [Shape.rowMajor_val_four, Shape.rowMajor_val_three]
      show ((n.val * 64 + s.val) * 8 + c.val / 48) * 48 + c.val % 48 = (n.val * 64 + s.val) * 384 + c.val
      omega)]
  rw [transpose_apply _ _ _ (ix4 n s (⟨c.val / 48, by omega⟩ : Fin 8) (⟨c.val % 48, Nat.mod_lt _ (by norm_num)⟩ : Fin 48))
    (ix4 n (⟨c.val / 48, by omega⟩ : Fin 8) s (⟨c.val % 48, Nat.mod_lt _ (by norm_num)⟩ : Fin 48)) (fun b => by
      match b with
      | ⟨0, _⟩ => rfl
      | ⟨1, _⟩ => rfl
      | ⟨2, _⟩ => rfl
      | ⟨3, _⟩ => rfl)]
  exact headsRef_apply win wqkv n _ s _

variable (wproj : FVec Ideal S384x384 .f32) (bproj : FVec Ideal S384 .f32)

/-- The output projection with its bias. -/
theorem attnRef_apply (n : Fin 1024) (s : Fin 64) (j : Fin 384) :
    attnRef win wqkv wproj bproj (ix3 n s j) = Cert.Spec.attn win wqkv wproj bproj n s j := by
  unfold attnRef Cert.Spec.attn
  rw [addf_apply, dot_proj_apply]
  refine congrArg₂ (· + ·) (Finset.sum_congr rfl fun c _ => by rw [mergedRef_apply]) ?_
  rw [broadcastInDim_apply _ _ _ (ix3 n s j) (ix3 (0 : Fin 1) (0 : Fin 1) j) (fun a => by
    match a with
    | ⟨0, _⟩ => rfl
    | ⟨1, _⟩ => rfl
    | ⟨2, _⟩ => rfl)]
  exact broadcastInDim_apply _ _ _ (ix3 (0 : Fin 1) (0 : Fin 1) j) (ix1 j) (fun a => by
    match a with
    | ⟨0, _⟩ => rfl)

/-- The reference's attention stage is the specification's windowed attention. -/
theorem attnRef_eq : attnRef (F := Ideal) win wqkv wproj bproj = Cert.Spec.attnArr win wqkv wproj bproj := by
  funext i
  obtain ⟨a, b, c, rfl⟩ : ∃ a b c, i = ix3 a b c := ⟨i 0, i 1, i 2, eq_ix3 i⟩
  exact attnRef_apply win wqkv wproj bproj a b c

end stages

end Cert.ReferenceIdeal.RefAttn

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.Finite.lean ====
import proofs.«108577_j35562329211765_2_alg».proof.Pre_finite_inputs
import proofs.«108577_j35562329211765_2_alg».proof.Proof.LibFiniteEntry
import Idealize.ShloMosaic.Lib.ReduceAll
import Idealize.ShloMosaic.Lib.ValueIdx

/-!
# From the precondition to real entries

The precondition is the conjunction of six statements "every entry of the array has absolute value below +∞", each a
reduction by "and" of the entrywise comparison.  When the conjunction is true every entry of every one of the six arrays
is a real number: the conjunction splits, each reduction gives the comparison at every index, and an extended real whose
absolute value is below +∞ is a real.
-/

noncomputable section

namespace Cert.Finite

open Idealize.ShloMosaic
open Cert.Pre_finite_inputs

/-- The rank-zero shape has one index. -/
instance : Subsingleton S_.Idx := ⟨fun a b => funext fun d => d.elim0⟩

variable [Cert.Pre_finite_inputs.Facts]
open Cert.Pre_finite_inputs.Facts

/-- One conjunct read back: when the reduction by "and" of the comparison |a| < +∞ is true, every entry of a is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) (i : s.Idx) : ∃ r : ℝ, a i = (r : EReal) := by
  have h1 := Host.reduce_andi_all _ _ hr hu ValueIdx.ix0 e i
  exact FiniteEntry.real_of_abs_lt_inf (a i) h1

/-- The six conjuncts of the precondition. -/
theorem conjuncts (a0 : FVec Ideal S16x384x64x64 .f32) (a1 a2 : FVec Ideal S384 .f32) (a3 : FVec Ideal S1152x384 .f32)
    (a4 : FVec Ideal S384x384 .f32) (a5 : FVec Ideal S384 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) := by
  have e := congrFun h ValueIdx.ix0
  dsimp only [Cert.Pre_finite_inputs.fn, Cert.Pre_finite_inputs.fn_part1, andi] at e
  obtain ⟨⟨⟨⟨⟨e0, e1⟩, e2⟩, e3⟩, e4⟩, e5⟩ :
      ((((_ ∧ _) ∧ _) ∧ _) ∧ _) ∧ _ := by
    simpa only [IntOp.andi_eq_one] using e
  exact ⟨real_of_all a0 _ _ _ e0, real_of_all a1 _ _ _ e1, real_of_all a2 _ _ _ e2, real_of_all a3 _ _ _ e3,
    real_of_all a4 _ _ _ e4, real_of_all a5 _ _ _ e5⟩

/-- Every entry of the first array is real under the precondition. -/
theorem real_of_pre (a0 : FVec Ideal S16x384x64x64 .f32) (a1 a2 : FVec Ideal S384 .f32) (a3 : FVec Ideal S1152x384 .f32)
    (a4 : FVec Ideal S384x384 .f32) (a5 : FVec Ideal S384 .f32)
    (h : Cert.Pre_finite_inputs.fn (F := Ideal) a0 a1 a2 a3 a4 a5 = fun _ => 1#1) :
    ∀ i, ∃ r : ℝ, a0 i = (r : EReal) :=
  (conjuncts a0 a1 a2 a3 a4 a5 h).1

end Cert.Finite

end
-- ==== Proof.HostSame.lean ====
import proofs.«108577_j35562329211765_2_alg».proof.Proof.KHost
import proofs.«108577_j35562329211765_2_alg».proof.Proof.RefRun

/-!
# The two programs' host operations around the attention stage are the same functions

The kernel program's preparation of the attention's input and its return of the attention's output are, operation
for operation, the reference's: the same shape casts, transposes and (empty) padding at the same shapes.
-/

noncomputable section

namespace Cert.HostSame

open Idealize.ShloMosaic

variable [Cert.ReferenceIdeal.Facts]

theorem prep_same (y : FVec Ideal Cert.KernelIdeal.S16x384x64x64 .f32) :
    Cert.KernelIdeal.KHost.prepK y = Cert.ReferenceIdeal.RefRun.prepRef (F := Ideal) y := rfl

theorem post_same (h : FVec Ideal Cert.KernelIdeal.S1024x64x384 .f32) (x : FVec Ideal Cert.KernelIdeal.S16x384x64x64 .f32) :
    Cert.KernelIdeal.KHost.postK h x = Cert.ReferenceIdeal.RefRun.postRef (F := Ideal) h x := rfl

end Cert.HostSame

end
-- ==== Proof.lean ====
/-
  The certificate of one kernel against its reference: group normalisation over [16, 384, 64, 64] in 4 groups,
  then attention inside 8 × 8 windows (1024 windows of 64 tokens, 8 heads of width 48) with an output projection,
  the windows put back and the input added.

  The kernel is two pipelined regions — the normalisation over 16 · 4 blocks, the attention over 64 blocks of 16
  windows — among host layout operations; the reference is one host program. Both are shown to compute ONE function
  of the six argument arrays (Proof/Spec.lean): the normalisation of the real input array (the kernel forms the
  variance as the mean square minus the squared mean, the reference as the mean of the squared centred entries: equal
  on real numbers, which is where the precondition is used), and the attention, which both programs compute by the
  same sums in the same order, the kernel block by block on transposed weights. The layout operations before and
  after the attention are the same in both programs.

  The three frames: the two kernels' are generated; the reference's is its run with the result dropped.
  The idealization rewrote nothing, so the fourth conjunct is trivial.
-/
import proofs.«108577_j35562329211765_2_alg».proof.Defs
import proofs.«108577_j35562329211765_2_alg».proof.Proof.Gen.Kernel
import proofs.«108577_j35562329211765_2_alg».proof.Proof.Gen.Kernel.Skeleton
import proofs.«108577_j35562329211765_2_alg».proof.Proof.Gen.Kernel.Launch
import proofs.«108577_j35562329211765_2_alg».proof.Proof.Gen.Kernel.Points
import proofs.«108577_j35562329211765_2_alg».proof.Proof.Gen.Kernel.Frame
import proofs.«108577_j35562329211765_2_alg».proof.Proof.Gen.KernelIdeal
import proofs.«108577_j35562329211765_2_alg».proof.Proof.Gen.KernelIdeal.Skeleton
import proofs.«108577_j35562329211765_2_alg».proof.Proof.Gen.KernelIdeal.Launch
import proofs.«108577_j35562329211765_2_alg».proof.Proof.Gen.KernelIdeal.Points
import proofs.«108577_j35562329211765_2_alg».proof.Proof.Gen.KernelIdeal.Frame
import proofs.«108577_j35562329211765_2_alg».proof.Proof.Gen.ReferenceIdeal
import proofs.«108577_j35562329211765_2_alg».proof.Proof.Gen.Pre_finite_inputs
import proofs.«108577_j35562329211765_2_alg».proof.Proof.KValue
import proofs.«108577_j35562329211765_2_alg».proof.Proof.KAttn
import proofs.«108577_j35562329211765_2_alg».proof.Proof.RefRun
import proofs.«108577_j35562329211765_2_alg».proof.Proof.RefGn
import proofs.«108577_j35562329211765_2_alg».proof.Proof.RefAttn3
import proofs.«108577_j35562329211765_2_alg».proof.Proof.Finite
import proofs.«108577_j35562329211765_2_alg».proof.Proof.HostSame
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run _ _ _).mono (fun _ h c => (h c).2) (Cert.ReferenceIdeal.RefRun.run (F := Ideal) m ρ)

/-- The reference's composed term is the kernel's function, for a first argument with real entries. -/
theorem result_same (xr : Cert.Spec.X4.Idx → ℝ) (x : FVec Ideal Cert.KernelIdeal.S16x384x64x64 .f32)
    (hx : ∀ i, x i = ((xr i : ℝ) : EReal)) (w b : FVec Ideal Cert.KernelIdeal.S384 .f32)
    (wqkv : FVec Ideal Cert.KernelIdeal.S1152x384 .f32) (wproj : FVec Ideal Cert.KernelIdeal.S384x384 .f32)
    (bproj : FVec Ideal Cert.KernelIdeal.S384 .f32) :
    Cert.ReferenceIdeal.RefRun.resultRef (F := Ideal) x w b wqkv wproj bproj
      = Cert.KernelIdeal.KValue.out xr x w b wqkv wproj bproj := by
  unfold Cert.ReferenceIdeal.RefRun.resultRef Cert.KernelIdeal.KValue.out
  rw [Cert.ReferenceIdeal.RefGn.gnRef_eq xr x hx w b, Cert.ReferenceIdeal.RefAttn.attnRef_eq,
    ← Cert.HostSame.prep_same, ← Cert.HostSame.post_same]

/-- Run from memories that agree on the arguments, the two idealized programs end with equal results: the kernel's
    result buffer holds its function of the arguments (the run read backwards through the two regions), the
    reference's holds its composed term, and the two are one function. -/
theorem algebraic : Cert.algebraic_KernelIdeal_ReferenceIdeal := by
  intro m ρ m' ρ' hpre hagree
  have hreal : ∀ (c : Dev Cert.KernelIdeal.nD) i, ∃ r : ℝ,
      m ((c.tc : Thread Cert.KernelIdeal.nD Cert.KernelIdeal.τ).loc Cert.KernelIdeal.main_arg0) i = (r : EReal) :=
    fun c => Cert.Finite.real_of_pre _ _ _ _ _ _ (hpre c)
  let xr : Dev Cert.KernelIdeal.nD → Cert.Spec.X4.Idx → ℝ := fun c i =>
    (m ((c.tc : Thread Cert.KernelIdeal.nD Cert.KernelIdeal.τ).loc Cert.KernelIdeal.main_arg0) i).toReal
  have hx : ∀ (c : Dev Cert.KernelIdeal.nD) i,
      m ((c.tc : Thread Cert.KernelIdeal.nD Cert.KernelIdeal.τ).loc Cert.KernelIdeal.main_arg0) i = ((xr c i : ℝ) : EReal) := by
    intro c i
    obtain ⟨r, hr⟩ := hreal c i
    show _ = ((EReal.toReal _ : ℝ) : EReal)
    rw [hr, EReal.toReal_coe]
  refine ⟨fun c => Cert.KernelIdeal.KValue.out (xr c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run _ _ _).mono (fun r h c =>
      ⟨(h c).1.trans (Cert.KernelIdeal.KValue.W7_v16 m ρ Cert.KernelIdeal.KAttn.out1_4_apply c (xr c) (hx c)), (h c).2⟩)
      (Cert.KernelIdeal.KRun.run_out m ρ)
  · refine (θ_run _ _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact result_same (xr c) _ (hx c) _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
